-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x29x64 : Shape := ⟨3, ![50000, 29, 64]⟩
abbrev S50000x1 : Shape := ⟨2, ![50000, 1]⟩
abbrev S448x448 : Shape := ⟨2, ![448, 448]⟩
abbrev S448 : Shape := ⟨1, ![448]⟩
abbrev S768x384 : Shape := ⟨2, ![768, 384]⟩
abbrev S640x320 : Shape := ⟨2, ![640, 320]⟩
abbrev S_ : Shape := ⟨0, ![]⟩

class Facts : Prop where
  bcast_S_S50000x29x64 : S_.BroadcastsInDim S50000x29x64 (![] : Fin 0 → Fin S50000x29x64.rank)
  reducesTo_S50000x29x64_S_d0_1_2 : S50000x29x64.ReducesTo [0, 1, 2] S_
  h_S_ : 0 < S_.numel
  bcast_S_S50000x1 : S_.BroadcastsInDim S50000x1 (![] : Fin 0 → Fin S50000x1.rank)
  reducesTo_S50000x1_S_d0_1 : S50000x1.ReducesTo [0, 1] S_
  bcast_S_S448x448 : S_.BroadcastsInDim S448x448 (![] : Fin 0 → Fin S448x448.rank)
  reducesTo_S448x448_S_d0_1 : S448x448.ReducesTo [0, 1] S_
  bcast_S_S448 : S_.BroadcastsInDim S448 (![] : Fin 0 → Fin S448.rank)
  reducesTo_S448_S_d0 : S448.ReducesTo [0] S_
  bcast_S_S768x384 : S_.BroadcastsInDim S768x384 (![] : Fin 0 → Fin S768x384.rank)
  reducesTo_S768x384_S_d0_1 : S768x384.ReducesTo [0, 1] S_
  bcast_S_S640x320 : S_.BroadcastsInDim S640x320 (![] : Fin 0 → Fin S640x320.rank)
  reducesTo_S640x320_S_d0_1 : S640x320.ReducesTo [0, 1] S_

variable [Facts]

def fn_part1 {F : FTy → Type} [FloatOps F] (main_arg4 : FVec F S768x384 .f32) (main_arg5 : FVec F S640x320 .f32) (main_v13 : IVec S_ 1) (main_v16 : IVec S448 1) : IVec S_ 1 :=
  let main_c_5 : IVec S_ 1 := constantI S_ 1 1#1
  let main_v17 : IVec S_ 1 := (fun x v => Host.reduce IntOp.andi x v reducesTo_S448_S_d0 h_S_) main_v16 main_c_5
  let main_v18 : IVec S_ 1 := andi main_v13 main_v17
  let main_v19 : FVec F S768x384 .f32 := Host.absf main_arg4
  let main_cst_6 : FVec F S_ .f32 := constant S_ .f32 0x7F800000#32
  let main_v20 : FVec F S768x384 .f32 := broadcastInDim S768x384 ![] bcast_S_S768x384 main_cst_6
  let main_v21 : IVec S768x384 1 := cmpf .olt main_v19 main_v20
  let main_c_7 : IVec S_ 1 := constantI S_ 1 1#1
  let main_v22 : IVec S_ 1 := (fun x v => Host.reduce IntOp.andi x v reducesTo_S768x384_S_d0_1 h_S_) main_v21 main_c_7
  let main_v23 : IVec S_ 1 := andi main_v18 main_v22
  let main_v24 : FVec F S640x320 .f32 := Host.absf main_arg5
  let main_cst_8 : FVec F S_ .f32 := constant S_ .f32 0x7F800000#32
  let main_v25 : FVec F S640x320 .f32 := broadcastInDim S640x320 ![] bcast_S_S640x320 main_cst_8
  let main_v26 : IVec S640x320 1 := cmpf .olt main_v24 main_v25
  let main_c_9 : IVec S_ 1 := constantI S_ 1 1#1
  let main_v27 : IVec S_ 1 := (fun x v => Host.reduce IntOp.andi x v reducesTo_S640x320_S_d0_1 h_S_) main_v26 main_c_9
  let main_v28 : IVec S_ 1 := andi main_v23 main_v27
  main_v28

def fn {F : FTy → Type} [FloatOps F] (main_arg0 : FVec F S50000x29x64 .f32) (main_arg1 : FVec F S50000x1 .f32) (main_arg2 : FVec F S448x448 .f32) (main_arg3 : FVec F S448 .f32) (main_arg4 : FVec F S768x384 .f32) (main_arg5 : FVec F S640x320 .f32) : IVec S_ 1 :=
  let main_v0 : FVec F S50000x29x64 .f32 := Host.absf main_arg0
  let main_cst : FVec F S_ .f32 := constant S_ .f32 0x7F800000#32
  let main_v1 : FVec F S50000x29x64 .f32 := broadcastInDim S50000x29x64 ![] bcast_S_S50000x29x64 main_cst
  let main_v2 : IVec S50000x29x64 1 := cmpf .olt main_v0 main_v1
  let main_c : IVec S_ 1 := constantI S_ 1 1#1
  let main_v3 : IVec S_ 1 := (fun x v => Host.reduce IntOp.andi x v reducesTo_S50000x29x64_S_d0_1_2 h_S_) main_v2 main_c
  let main_v4 : FVec F S50000x1 .f32 := Host.absf main_arg1
  let main_cst_0 : FVec F S_ .f32 := constant S_ .f32 0x7F800000#32
  let main_v5 : FVec F S50000x1 .f32 := broadcastInDim S50000x1 ![] bcast_S_S50000x1 main_cst_0
  let main_v6 : IVec S50000x1 1 := cmpf .olt main_v4 main_v5
  let main_c_1 : IVec S_ 1 := constantI S_ 1 1#1
  let main_v7 : IVec S_ 1 := (fun x v => Host.reduce IntOp.andi x v reducesTo_S50000x1_S_d0_1 h_S_) main_v6 main_c_1
  let main_v8 : IVec S_ 1 := andi main_v3 main_v7
  let main_v9 : FVec F S448x448 .f32 := Host.absf main_arg2
  let main_cst_2 : FVec F S_ .f32 := constant S_ .f32 0x7F800000#32
  let main_v10 : FVec F S448x448 .f32 := broadcastInDim S448x448 ![] bcast_S_S448x448 main_cst_2
  let main_v11 : IVec S448x448 1 := cmpf .olt main_v9 main_v10
  let main_c_3 : IVec S_ 1 := constantI S_ 1 1#1
  let main_v12 : IVec S_ 1 := (fun x v => Host.reduce IntOp.andi x v reducesTo_S448x448_S_d0_1 h_S_) main_v11 main_c_3
  let main_v13 : IVec S_ 1 := andi main_v8 main_v12
  let main_v14 : FVec F S448 .f32 := Host.absf main_arg3
  let main_cst_4 : FVec F S_ .f32 := constant S_ .f32 0x7F800000#32
  let main_v15 : FVec F S448 .f32 := broadcastInDim S448 ![] bcast_S_S448 main_cst_4
  let main_v16 : IVec S448 1 := cmpf .olt main_v14 main_v15
  fn_part1 (F := F) main_arg4 main_arg5 main_v13 main_v16
-- ==== Kernel.lean ====
abbrev S50000x29x64 : Shape := ⟨3, ![50000, 29, 64]⟩
abbrev S50000x1 : Shape := ⟨2, ![50000, 1]⟩
abbrev S448x448 : Shape := ⟨2, ![448, 448]⟩
abbrev S448 : Shape := ⟨1, ![448]⟩
abbrev S768x384 : Shape := ⟨2, ![768, 384]⟩
abbrev S640x320 : Shape := ⟨2, ![640, 320]⟩
abbrev S50000x1856 : Shape := ⟨2, ![50000, 1856]⟩
abbrev S384x768 : Shape := ⟨2, ![384, 768]⟩
abbrev S320x640 : Shape := ⟨2, ![320, 640]⟩
abbrev S1x448 : Shape := ⟨2, ![1, 448]⟩
abbrev S400x1856 : Shape := ⟨2, ![400, 1856]⟩
abbrev S400x64 : Shape := ⟨2, ![400, 64]⟩
abbrev S400x448 : Shape := ⟨2, ![400, 448]⟩
abbrev S400x384 : Shape := ⟨2, ![400, 384]⟩
abbrev S400x320 : Shape := ⟨2, ![400, 320]⟩
abbrev S800x384 : Shape := ⟨2, ![800, 384]⟩
abbrev S800x768 : Shape := ⟨2, ![800, 768]⟩
abbrev S400x768 : Shape := ⟨2, ![400, 768]⟩
abbrev S800x320 : Shape := ⟨2, ![800, 320]⟩
abbrev S800x640 : Shape := ⟨2, ![800, 640]⟩
abbrev S400x640 : Shape := ⟨2, ![400, 640]⟩

abbrev nBuf : Space → Nat
  | .hbm => 16
  | .vmem => 8
  | .smem => 0
  | _ => 0

abbrev bufTy : (tb : Table) → Fin (tcTables nBuf tb) → BufTy
  | .hbm, ⟨0, _⟩ => ⟨S50000x29x64, .f32⟩
  | .hbm, ⟨1, _⟩ => ⟨S50000x1, .f32⟩
  | .hbm, ⟨2, _⟩ => ⟨S448x448, .f32⟩
  | .hbm, ⟨3, _⟩ => ⟨S448, .f32⟩
  | .hbm, ⟨4, _⟩ => ⟨S768x384, .f32⟩
  | .hbm, ⟨5, _⟩ => ⟨S640x320, .f32⟩
  | .hbm, ⟨6, _⟩ => ⟨S50000x1856, .f32⟩
  | .hbm, ⟨7, _⟩ => ⟨S448x448, .f32⟩
  | .hbm, ⟨8, _⟩ => ⟨S448x448, .bf16⟩
  | .hbm, ⟨9, _⟩ => ⟨S384x768, .f32⟩
  | .hbm, ⟨10, _⟩ => ⟨S384x768, .bf16⟩
  | .hbm, ⟨11, _⟩ => ⟨S320x640, .f32⟩
  | .hbm, ⟨12, _⟩ => ⟨S320x640, .bf16⟩
  | .hbm, ⟨13, _⟩ => ⟨S1x448, .f32⟩
  | .hbm, ⟨14, _⟩ => ⟨S50000x1856, .f32⟩
  | .hbm, ⟨15, _⟩ => ⟨S50000x29x64, .f32⟩
  | .local _ .vmem, ⟨0, _⟩ => ⟨S400x1856, .f32⟩
  | .local _ .vmem, ⟨1, _⟩ => ⟨S400x1856, .f32⟩
  | .local _ .vmem, ⟨2, _⟩ => ⟨S448x448, .bf16⟩
  | .local _ .vmem, ⟨3, _⟩ => ⟨S1x448, .f32⟩
  | .local _ .vmem, ⟨4, _⟩ => ⟨S384x768, .bf16⟩
  | .local _ .vmem, ⟨5, _⟩ => ⟨S320x640, .bf16⟩
  | .local _ .vmem, ⟨6, _⟩ => ⟨S400x1856, .f32⟩
  | .local _ .vmem, ⟨7, _⟩ => ⟨S400x1856, .f32⟩
  | _, _ => ⟨S50000x29x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S400x1856 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S448x448 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x448 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S384x768 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S320x640 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S400x1856 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S50000x29x64_S50000x1856 : S50000x29x64.ShapeCasts S50000x1856
  transposes_S448x448_S448x448_1_0 : S448x448.Transposes [1, 0] S448x448
  bitsLt_bf16_f32 : FTy.bits .bf16 < FTy.bits .f32
  transposes_S768x384_S384x768_1_0 : S768x384.Transposes [1, 0] S384x768
  transposes_S640x320_S320x640_1_0 : S640x320.Transposes [1, 0] S320x640
  shapeCasts_S448_S1x448 : S448.ShapeCasts S1x448
  inb_S400x1856_S400x1856_0_0 : ∀ a, (![0, 0] : Fin 2 → Nat) a + S400x1856.size a ≤ S400x1856.size a
  h_S400x1856 : 0 < S400x1856.numel
  shapeCasts_S400x1856_S400x1856 : S400x1856.ShapeCasts S400x1856
  slices_S400x1856_o0_0_S400x64 : S400x1856.Slices ![0, 0] S400x64
  slices_S400x1856_o0_128_S400x64 : S400x1856.Slices ![0, 128] S400x64
  slices_S400x1856_o0_384_S400x64 : S400x1856.Slices ![0, 384] S400x64
  slices_S400x1856_o0_704_S400x64 : S400x1856.Slices ![0, 704] S400x64
  slices_S400x1856_o0_1024_S400x64 : S400x1856.Slices ![0, 1024] S400x64
  slices_S400x1856_o0_1344_S400x64 : S400x1856.Slices ![0, 1344] S400x64
  slices_S400x1856_o0_1664_S400x64 : S400x1856.Slices ![0, 1664] S400x64
  concatenates_S400x64_S400x64_S400x64_S400x64_S400x64_S400x64_S400x64_S400x448_d1 : Shape.Concatenates [S400x64, S400x64, S400x64, S400x64, S400x64, S400x64, S400x64] S400x448 1
  slices_S400x1856_o0_192_S400x64 : S400x1856.Slices ![0, 192] S400x64
  slices_S400x1856_o0_448_S400x64 : S400x1856.Slices ![0, 448] S400x64
  slices_S400x1856_o0_768_S400x64 : S400x1856.Slices ![0, 768] S400x64
  slices_S400x1856_o0_1088_S400x64 : S400x1856.Slices ![0, 1088] S400x64
  slices_S400x1856_o0_1408_S400x64 : S400x1856.Slices ![0, 1408] S400x64
  slices_S400x1856_o0_1728_S400x64 : S400x1856.Slices ![0, 1728] S400x64
  concatenates_S400x64_S400x64_S400x64_S400x64_S400x64_S400x64_S400x384_d1 : Shape.Concatenates [S400x64, S400x64, S400x64, S400x64, S400x64, S400x64] S400x384 1
  slices_S400x1856_o0_64_S400x64 : S400x1856.Slices ![0, 64] S400x64
  slices_S400x1856_o0_320_S400x64 : S400x1856.Slices ![0, 320] S400x64
  slices_S400x1856_o0_640_S400x64 : S400x1856.Slices ![0, 640] S400x64
  slices_S400x1856_o0_960_S400x64 : S400x1856.Slices ![0, 960] S400x64
  slices_S400x1856_o0_1280_S400x64 : S400x1856.Slices ![0, 1280] S400x64
  slices_S400x1856_o0_1600_S400x64 : S400x1856.Slices ![0, 1600] S400x64
  slices_S400x1856_o0_512_S400x64 : S400x1856.Slices ![0, 512] S400x64
  slices_S400x1856_o0_832_S400x64 : S400x1856.Slices ![0, 832] S400x64
  slices_S400x1856_o0_1152_S400x64 : S400x1856.Slices ![0, 1152] S400x64
  slices_S400x1856_o0_1472_S400x64 : S400x1856.Slices ![0, 1472] S400x64
  slices_S400x1856_o0_1792_S400x64 : S400x1856.Slices ![0, 1792] S400x64
  concatenates_S400x64_S400x64_S400x64_S400x64_S400x64_S400x320_d1 : Shape.Concatenates [S400x64, S400x64, S400x64, S400x64, S400x64] S400x320 1
  slices_S400x1856_o0_256_S400x64 : S400x1856.Slices ![0, 256] S400x64
  slices_S400x1856_o0_576_S400x64 : S400x1856.Slices ![0, 576] S400x64
  slices_S400x1856_o0_896_S400x64 : S400x1856.Slices ![0, 896] S400x64
  slices_S400x1856_o0_1216_S400x64 : S400x1856.Slices ![0, 1216] S400x64
  slices_S400x1856_o0_1536_S400x64 : S400x1856.Slices ![0, 1536] S400x64
  inb_S448x448_S448x448_0_0 : ∀ a, (![0, 0] : Fin 2 → Nat) a + S448x448.size a ≤ S448x448.size a
  h_S448x448 : 0 < S448x448.numel
  shapeCasts_S448x448_S448x448 : S448x448.ShapeCasts S448x448
  inb_S1x448_S1x448_0_0 : ∀ a, (![0, 0] : Fin 2 → Nat) a + S1x448.size a ≤ S1x448.size a
  h_S1x448 : 0 < S1x448.numel
  shapeCasts_S1x448_S1x448 : S1x448.ShapeCasts S1x448
  inb_S384x768_S384x768_0_0 : ∀ a, (![0, 0] : Fin 2 → Nat) a + S384x768.size a ≤ S384x768.size a
  h_S384x768 : 0 < S384x768.numel
  shapeCasts_S384x768_S384x768 : S384x768.ShapeCasts S384x768
  inb_S320x640_S320x640_0_0 : ∀ a, (![0, 0] : Fin 2 → Nat) a + S320x640.size a ≤ S320x640.size a
  h_S320x640 : 0 < S320x640.numel
  shapeCasts_S320x640_S320x640 : S320x640.ShapeCasts S320x640
  broadcasts_S1x448_S400x448 : S1x448.Broadcasts S400x448
  concatenates_S400x384_S400x384_S800x384_d0 : Shape.Concatenates [S400x384, S400x384] S800x384 0
  slices_S800x768_o0_0_S400x768 : S800x768.Slices ![0, 0] S400x768
  slices_S800x768_o400_0_S400x768 : S800x768.Slices ![400, 0] S400x768
  slices_S400x768_o0_0_S400x384 : S400x768.Slices ![0, 0] S400x384
  slices_S400x768_o0_384_S400x384 : S400x768.Slices ![0, 384] S400x384
  concatenates_S400x320_S400x320_S800x320_d0 : Shape.Concatenates [S400x320, S400x320] S800x320 0
  slices_S800x640_o0_0_S400x640 : S800x640.Slices ![0, 0] S400x640
  slices_S800x640_o400_0_S400x640 : S800x640.Slices ![400, 0] S400x640
  slices_S400x640_o0_0_S400x320 : S400x640.Slices ![0, 0] S400x320
  slices_S400x640_o0_320_S400x320 : S400x640.Slices ![0, 320] S400x320
  slices_S400x448_o0_0_S400x64 : S400x448.Slices ![0, 0] S400x64
  slices_S400x384_o0_0_S400x64 : S400x384.Slices ![0, 0] S400x64
  slices_S400x448_o0_64_S400x64 : S400x448.Slices ![0, 64] S400x64
  slices_S400x320_o0_0_S400x64 : S400x320.Slices ![0, 0] S400x64
  slices_S400x384_o0_64_S400x64 : S400x384.Slices ![0, 64] S400x64
  slices_S400x448_o0_128_S400x64 : S400x448.Slices ![0, 128] S400x64
  slices_S400x320_o0_64_S400x64 : S400x320.Slices ![0, 64] S400x64
  slices_S400x384_o0_128_S400x64 : S400x384.Slices ![0, 128] S400x64
  slices_S400x448_o0_192_S400x64 : S400x448.Slices ![0, 192] S400x64
  slices_S400x320_o0_128_S400x64 : S400x320.Slices ![0, 128] S400x64
  slices_S400x384_o0_192_S400x64 : S400x384.Slices ![0, 192] S400x64
  slices_S400x448_o0_256_S400x64 : S400x448.Slices ![0, 256] S400x64
  slices_S400x320_o0_192_S400x64 : S400x320.Slices ![0, 192] S400x64
  slices_S400x384_o0_256_S400x64 : S400x384.Slices ![0, 256] S400x64
  slices_S400x448_o0_320_S400x64 : S400x448.Slices ![0, 320] S400x64
  slices_S400x320_o0_256_S400x64 : S400x320.Slices ![0, 256] S400x64
  slices_S400x384_o0_320_S400x64 : S400x384.Slices ![0, 320] S400x64
  slices_S400x448_o0_384_S400x64 : S400x448.Slices ![0, 384] S400x64
  concatenates_S400x64_S400x64_S400x64_S400x64_S400x64_S400x64_S400x64_S400x64_S400x64_S400x64_S400x64_S400x64_S400x64_S400x64_S400x64_S400x64_S400x64_S400x64_S400x64_S400x64_S400x64_S400x64_S400x64_S400x64_S400x64_S400x64_S400x64_S400x64_S400x64_S400x1856_d1 : Shape.Concatenates [S400x64, S400x64, S400x64, S400x64, S400x64, S400x64, S400x64, S400x64, S400x64, S400x64, S400x64, S400x64, S400x64, S400x64, S400x64, S400x64, S400x64, S400x64, S400x64, S400x64, S400x64, S400x64, S400x64, S400x64, S400x64, S400x64, S400x64, S400x64, S400x64] S400x1856 1
  shapeCasts_S50000x1856_S50000x29x64 : S50000x1856.ShapeCasts S50000x29x64
  dot_S400x448_S448x448_S400x448_1_0_0_1_n_n_wf : DotDims.WF S400x448 S448x448 S400x448 [1] [0] [0] [1] [] []
  dot_S800x384_S384x768_S800x768_1_0_0_1_n_n_wf : DotDims.WF S800x384 S384x768 S800x768 [1] [0] [0] [1] [] []
  dot_S800x320_S320x640_S800x640_1_0_0_1_n_n_wf : DotDims.WF S800x320 S320x640 S800x640 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x1856.size a ≤ S50000x1856.size a
  hwx0_0 : ∀ i : grid0.Coords, EltTy.bits .f32 = 32 ∨ (Rect.block (s := S50000x1856) S400x1856.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S448x448.size a ≤ S448x448.size a
  hwx0_1 : ∀ i : grid0.Coords, EltTy.bits .bf16 = 32 ∨ (Rect.block (s := S448x448) S448x448.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x448.size a ≤ S1x448.size a
  hwx0_2 : ∀ i : grid0.Coords, EltTy.bits .f32 = 32 ∨ (Rect.block (s := S1x448) S1x448.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S384x768.size a ≤ S384x768.size a
  hwx0_3 : ∀ i : grid0.Coords, EltTy.bits .bf16 = 32 ∨ (Rect.block (s := S384x768) S384x768.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S320x640.size a ≤ S320x640.size a
  hwx0_4 : ∀ i : grid0.Coords, EltTy.bits .bf16 = 32 ∨ (Rect.block (s := S320x640) S320x640.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S400x1856.size a ≤ S50000x1856.size a
  hwx0_5 : ∀ i : grid0.Coords, EltTy.bits .f32 = 32 ∨ (Rect.block (s := S50000x1856) S400x1856.size (cc0_transform_5 i) (hinb0_5 i)).WholeWords (EltTy.packing .f32)

variable [Facts₀]

def dot_S400x448_S448x448_S400x448_1_0_0_1_n_n : DotDims S400x448 S448x448 S400x448 where
  lhsContracting := [1]
  rhsContracting := [0]
  lhsNonContracting := [0]
  rhsNonContracting := [1]
  lhsBatch := []
  rhsBatch := []
  wf := dot_S400x448_S448x448_S400x448_1_0_0_1_n_n_wf
def dot_S800x384_S384x768_S800x768_1_0_0_1_n_n : DotDims S800x384 S384x768 S800x768 where
  lhsContracting := [1]
  rhsContracting := [0]
  lhsNonContracting := [0]
  rhsNonContracting := [1]
  lhsBatch := []
  rhsBatch := []
  wf := dot_S800x384_S384x768_S800x768_1_0_0_1_n_n_wf
def dot_S800x320_S320x640_S800x640_1_0_0_1_n_n : DotDims S800x320 S320x640 S800x640 where
  lhsContracting := [1]
  rhsContracting := [0]
  lhsNonContracting := [0]
  rhsNonContracting := [1]
  lhsBatch := []
  rhsBatch := []
  wf := dot_S800x320_S320x640_S800x640_1_0_0_1_n_n_wf

abbrev win0_0 : Pipeline.Window sig grid0 :=
  Pipeline.Window.ofSpec (Memref.whole main_v0) S400x1856.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S448x448.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7) S1x448.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S384x768.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S320x640.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v8) S400x1856.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S50000x29x64 : Shape := ⟨3, ![50000, 29, 64]⟩
abbrev S50000x1 : Shape := ⟨2, ![50000, 1]⟩
abbrev S448x448 : Shape := ⟨2, ![448, 448]⟩
abbrev S448 : Shape := ⟨1, ![448]⟩
abbrev S768x384 : Shape := ⟨2, ![768, 384]⟩
abbrev S640x320 : Shape := ⟨2, ![640, 320]⟩
abbrev S29 : Shape := ⟨1, ![29]⟩
abbrev S_ : Shape := ⟨0, ![]⟩
abbrev S29x1 : Shape := ⟨2, ![29, 1]⟩
abbrev S50000x7x64 : Shape := ⟨3, ![50000, 7, 64]⟩
abbrev S50000x448 : Shape := ⟨2, ![50000, 448]⟩
abbrev S1x448 : Shape := ⟨2, ![1, 448]⟩
abbrev S50000x12x64 : Shape := ⟨3, ![50000, 12, 64]⟩
abbrev S50000x2x384 : Shape := ⟨3, ![50000, 2, 384]⟩
abbrev S50000x2x768 : Shape := ⟨3, ![50000, 2, 768]⟩
abbrev S50000x1x384 : Shape := ⟨3, ![50000, 1, 384]⟩
abbrev S50000x10x64 : Shape := ⟨3, ![50000, 10, 64]⟩
abbrev S50000x2x320 : Shape := ⟨3, ![50000, 2, 320]⟩
abbrev S50000x2x640 : Shape := ⟨3, ![50000, 2, 640]⟩
abbrev S50000x1x320 : Shape := ⟨3, ![50000, 1, 320]⟩

abbrev nBuf : Space → Nat
  | .hbm => 57
  | .vmem => 0
  | .smem => 0
  | _ => 0

abbrev bufTy : (tb : Table) → Fin (tcTables nBuf tb) → BufTy
  | .hbm, ⟨0, _⟩ => ⟨S50000x29x64, .f32⟩
  | .hbm, ⟨1, _⟩ => ⟨S50000x1, .f32⟩
  | .hbm, ⟨2, _⟩ => ⟨S448x448, .f32⟩
  | .hbm, ⟨3, _⟩ => ⟨S448, .f32⟩
  | .hbm, ⟨4, _⟩ => ⟨S768x384, .f32⟩
  | .hbm, ⟨5, _⟩ => ⟨S640x320, .f32⟩
  | .hbm, ⟨6, _⟩ => ⟨S29, .i32⟩
  | .hbm, ⟨7, _⟩ => ⟨S29, .i1⟩
  | .hbm, ⟨8, _⟩ => ⟨S29, .i32⟩
  | .hbm, ⟨9, _⟩ => ⟨S29, .i1⟩
  | .hbm, ⟨10, _⟩ => ⟨S_, .i32⟩
  | .hbm, ⟨11, _⟩ => ⟨S29, .i32⟩
  | .hbm, ⟨12, _⟩ => ⟨S29, .i32⟩
  | .hbm, ⟨13, _⟩ => ⟨S29, .i32⟩
  | .hbm, ⟨14, _⟩ => ⟨S29x1, .i32⟩
  | .hbm, ⟨15, _⟩ => ⟨S50000x29x64, .f32⟩
  | .hbm, ⟨16, _⟩ => ⟨S50000x7x64, .f32⟩
  | .hbm, ⟨17, _⟩ => ⟨S50000x448, .f32⟩
  | .hbm, ⟨18, _⟩ => ⟨S448x448, .f32⟩
  | .hbm, ⟨19, _⟩ => ⟨S50000x448, .f32⟩
  | .hbm, ⟨20, _⟩ => ⟨S1x448, .f32⟩
  | .hbm, ⟨21, _⟩ => ⟨S50000x448, .f32⟩
  | .hbm, ⟨22, _⟩ => ⟨S50000x448, .f32⟩
  | .hbm, ⟨23, _⟩ => ⟨S50000x7x64, .f32⟩
  | .hbm, ⟨24, _⟩ => ⟨S50000x12x64, .f32⟩
  | .hbm, ⟨25, _⟩ => ⟨S50000x2x384, .f32⟩
  | .hbm, ⟨26, _⟩ => ⟨S50000x2x768, .f32⟩
  | .hbm, ⟨27, _⟩ => ⟨S50000x2x384, .f32⟩
  | .hbm, ⟨28, _⟩ => ⟨S50000x2x384, .f32⟩
  | .hbm, ⟨29, _⟩ => ⟨S50000x1x384, .f32⟩
  | .hbm, ⟨30, _⟩ => ⟨S50000x1x384, .f32⟩
  | .hbm, ⟨31, _⟩ => ⟨S50000x1x384, .f32⟩
  | .hbm, ⟨32, _⟩ => ⟨S50000x1x384, .f32⟩
  | .hbm, ⟨33, _⟩ => ⟨S50000x1x384, .f32⟩
  | .hbm, ⟨34, _⟩ => ⟨S50000x1x384, .f32⟩
  | .hbm, ⟨35, _⟩ => ⟨S50000x2x384, .f32⟩
  | .hbm, ⟨36, _⟩ => ⟨S50000x12x64, .f32⟩
  | .hbm, ⟨37, _⟩ => ⟨S50000x10x64, .f32⟩
  | .hbm, ⟨38, _⟩ => ⟨S50000x2x320, .f32⟩
  | .hbm, ⟨39, _⟩ => ⟨S50000x2x640, .f32⟩
  | .hbm, ⟨40, _⟩ => ⟨S50000x2x320, .f32⟩
  | .hbm, ⟨41, _⟩ => ⟨S50000x2x320, .f32⟩
  | .hbm, ⟨42, _⟩ => ⟨S50000x1x320, .f32⟩
  | .hbm, ⟨43, _⟩ => ⟨S50000x1x320, .f32⟩
  | .hbm, ⟨44, _⟩ => ⟨S50000x1x320, .f32⟩
  | .hbm, ⟨45, _⟩ => ⟨S50000x1x320, .f32⟩
  | .hbm, ⟨46, _⟩ => ⟨S50000x1x320, .f32⟩
  | .hbm, ⟨47, _⟩ => ⟨S50000x1x320, .f32⟩
  | .hbm, ⟨48, _⟩ => ⟨S50000x2x320, .f32⟩
  | .hbm, ⟨49, _⟩ => ⟨S50000x10x64, .f32⟩
  | .hbm, ⟨50, _⟩ => ⟨S50000x29x64, .f32⟩
  | .hbm, ⟨51, _⟩ => ⟨S_, .i32⟩
  | .hbm, ⟨52, _⟩ => ⟨S29, .i32⟩
  | .hbm, ⟨53, _⟩ => ⟨S29, .i32⟩
  | .hbm, ⟨54, _⟩ => ⟨S29, .i32⟩
  | .hbm, ⟨55, _⟩ => ⟨S29x1, .i32⟩
  | .hbm, ⟨56, _⟩ => ⟨S50000x29x64, .f32⟩
  | _, _ => ⟨S50000x29x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_c_0 : Ref sig .tc := ⟨.hbm, 7, rfl⟩
abbrev main_c_1 : Ref sig .tc := ⟨.hbm, 8, rfl⟩
abbrev main_c_2 : Ref sig .tc := ⟨.hbm, 9, rfl⟩
abbrev main_c_3 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_c_4 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩

abbrev nD : Nat := 1
abbrev τ : Topo := Topo.v7x

variable {F : FTy → Type} [FloatOps F]

class Facts₀ : Prop where
  bcast_S_S29 : S_.BroadcastsInDim S29 (![] : Fin 0 → Fin S29.rank)
  bcast_S29_S29x1_0 : S29.BroadcastsInDim S29x1 (![0] : Fin 1 → Fin S29x1.rank)
  slices_S50000x29x64_S50000x7x64_0_0_0 : S50000x29x64.Slices ![0, 0, 0] S50000x7x64
  shapeCasts_S50000x7x64_S50000x448 : S50000x7x64.ShapeCasts S50000x448
  transposes_S448x448_S448x448_1_0 : S448x448.Transposes [1, 0] S448x448
  bcast_S448_S1x448_1 : S448.BroadcastsInDim S1x448 (![1] : Fin 1 → Fin S1x448.rank)
  bcast_S1x448_S50000x448_0_1 : S1x448.BroadcastsInDim S50000x448 (![0, 1] : Fin 2 → Fin S50000x448.rank)
  shapeCasts_S50000x448_S50000x7x64 : S50000x448.ShapeCasts S50000x7x64
  slices_S50000x29x64_S50000x12x64_0_7_0 : S50000x29x64.Slices ![0, 7, 0] S50000x12x64
  shapeCasts_S50000x12x64_S50000x2x384 : S50000x12x64.ShapeCasts S50000x2x384
  slices_S50000x2x768_S50000x2x384_0_0_0 : S50000x2x768.Slices ![0, 0, 0] S50000x2x384
  slices_S50000x2x768_S50000x2x384_0_0_384 : S50000x2x768.Slices ![0, 0, 384] S50000x2x384
  slices_S50000x2x384_S50000x1x384_0_0_0 : S50000x2x384.Slices ![0, 0, 0] S50000x1x384
  slices_S50000x2x384_S50000x1x384_0_1_0 : S50000x2x384.Slices ![0, 1, 0] S50000x1x384
  concatenates_S50000x1x384_S50000x1x384_S50000x2x384_d1 : Shape.Concatenates [S50000x1x384, S50000x1x384] S50000x2x384 1
  shapeCasts_S50000x2x384_S50000x12x64 : S50000x2x384.ShapeCasts S50000x12x64
  slices_S50000x29x64_S50000x10x64_0_19_0 : S50000x29x64.Slices ![0, 19, 0] S50000x10x64
  shapeCasts_S50000x10x64_S50000x2x320 : S50000x10x64.ShapeCasts S50000x2x320
  slices_S50000x2x640_S50000x2x320_0_0_0 : S50000x2x640.Slices ![0, 0, 0] S50000x2x320
  slices_S50000x2x640_S50000x2x320_0_0_320 : S50000x2x640.Slices ![0, 0, 320] S50000x2x320
  slices_S50000x2x320_S50000x1x320_0_0_0 : S50000x2x320.Slices ![0, 0, 0] S50000x1x320
  slices_S50000x2x320_S50000x1x320_0_1_0 : S50000x2x320.Slices ![0, 1, 0] S50000x1x320
  concatenates_S50000x1x320_S50000x1x320_S50000x2x320_d1 : Shape.Concatenates [S50000x1x320, S50000x1x320] S50000x2x320 1
  shapeCasts_S50000x2x320_S50000x10x64 : S50000x2x320.ShapeCasts S50000x10x64
  concatenates_S50000x7x64_S50000x12x64_S50000x10x64_S50000x29x64_d1 : Shape.Concatenates [S50000x7x64, S50000x12x64, S50000x10x64] S50000x29x64 1
  gather_S50000x29x64_S29x1_S50000x29x64_02_1_n_n_1_1_50000164_wf : GatherDims.WF S50000x29x64 S29x1 S50000x29x64 [0, 2] [1] [] [1] [] 1 ![50000, 1, 64]
  dot_S50000x448_S448x448_S50000x448_1_0_0_1_n_n_wf : DotDims.WF S50000x448 S448x448 S50000x448 [1] [0] [0] [1] [] []
  dot_S50000x2x384_S768x384_S50000x2x768_2_1_01_0_n_n_wf : DotDims.WF S50000x2x384 S768x384 S50000x2x768 [2] [1] [0, 1] [0] [] []
  dot_S50000x2x320_S640x320_S50000x2x640_2_1_01_0_n_n_wf : DotDims.WF S50000x2x320 S640x320 S50000x2x640 [2] [1] [0, 1] [0] [] []

variable [Facts₀]

def gather_S50000x29x64_S29x1_S50000x29x64_02_1_n_n_1_1_50000164 : GatherDims S50000x29x64 S29x1 S50000x29x64 where
  offsetDims := [0, 2]
  collapsedSliceDims := [1]
  operandBatchingDims := []
  startIndicesBatchingDims := []
  startIndexMap := [1]
  indexVectorDim := 1
  sliceSizes := ![50000, 1, 64]
  wf := gather_S50000x29x64_S29x1_S50000x29x64_02_1_n_n_1_1_50000164_wf
def dot_S50000x448_S448x448_S50000x448_1_0_0_1_n_n : DotDims S50000x448 S448x448 S50000x448 where
  lhsContracting := [1]
  rhsContracting := [0]
  lhsNonContracting := [0]
  rhsNonContracting := [1]
  lhsBatch := []
  rhsBatch := []
  wf := dot_S50000x448_S448x448_S50000x448_1_0_0_1_n_n_wf
def dot_S50000x2x384_S768x384_S50000x2x768_2_1_01_0_n_n : DotDims S50000x2x384 S768x384 S50000x2x768 where
  lhsContracting := [2]
  rhsContracting := [1]
  lhsNonContracting := [0, 1]
  rhsNonContracting := [0]
  lhsBatch := []
  rhsBatch := []
  wf := dot_S50000x2x384_S768x384_S50000x2x768_2_1_01_0_n_n_wf
def dot_S50000x2x320_S640x320_S50000x2x640_2_1_01_0_n_n : DotDims S50000x2x320 S640x320 S50000x2x640 where
  lhsContracting := [2]
  rhsContracting := [1]
  lhsNonContracting := [0, 1]
  rhsNonContracting := [0]
  lhsBatch := []
  rhsBatch := []
  wf := dot_S50000x2x320_S640x320_S50000x2x640_2_1_01_0_n_n_wf

class Facts : Prop extends Facts₀ where

variable [Facts]
-- ==== Proof.Spec.lean ====
/-
  The specification: the SO(2) convolution over coefficients in m-primary order, as ONE function of the argument
  arrays, read through natural-number coordinates.

  An edge e carries 29 coefficients of 64 channels, stored l-primary. toM a is the l-primary position of the
  coefficient that sits at m-primary position a; fromM p is the m-primary position of l-primary coefficient p
  (the two tables are inverse permutations of 0..28; only their values are used). In m-primary order the
  coefficients are: 7 of order m = 0 (positions 0..6), then for m = 1 six "real" (7..12) and six "imaginary"
  (13..18), then for m = 2 five real (19..23) and five imaginary (24..28).

  * m = 0: the 7·64 = 448 numbers of an edge are multiplied by W0 (rows of W0 are outputs) and b0 is added.
  * m = 1, 2: the real block and the imaginary block (n = 0, 1), each 6·64 = 384 (resp. 5·64 = 320) numbers, are
    multiplied by Wm, whose 2·384 (resp. 2·320) rows split into a first half "r" and a second half "i"; the output's
    real block is r(real) − i(imag) and its imaginary block is r(imag) + i(real).
  The result at l-primary position p is the m-primary output at fromM p.

  No law of extended-real arithmetic is used here: the two programs compute these very sums, term by term.
-/
import Idealize.ShloMosaic.PureOps.Ideal
import Idealize.ShloMosaic.Lib.ValueIdx

noncomputable section

namespace Cert.So2Spec

open Idealize.ShloMosaic Idealize.ShloMosaic.ValueIdx
open scoped BigOperators

/-- An entry of a rank-1 array at a natural-number coordinate (zero outside the array). -/
def at1 {n : ℕ} (x : (⟨1, ![n]⟩ : Shape).Idx → EReal) (a : ℕ) : EReal :=
  if h : a < n then x (ix1 ⟨a, h⟩) else 0

/-- An entry of a matrix at natural-number coordinates (zero outside the array). -/
def at2 {n0 n1 : ℕ} (x : (⟨2, ![n0, n1]⟩ : Shape).Idx → EReal) (a b : ℕ) : EReal :=
  if h : a < n0 ∧ b < n1 then x (ix2 ⟨a, h.1⟩ ⟨b, h.2⟩) else 0

/-- An entry of a rank-3 array at natural-number coordinates (zero outside the array). -/
def at3 {n0 n1 n2 : ℕ} (x : (⟨3, ![n0, n1, n2]⟩ : Shape).Idx → EReal) (a b c : ℕ) : EReal :=
  if h : a < n0 ∧ b < n1 ∧ c < n2 then x (ix3 ⟨a, h.1⟩ ⟨b, h.2.1⟩ ⟨c, h.2.2⟩) else 0

/-- An array at an index is its entry at the index's coordinates. -/
theorem at1_eq {n : ℕ} (x : (⟨1, ![n]⟩ : Shape).Idx → EReal) (i : (⟨1, ![n]⟩ : Shape).Idx) (a : ℕ)
    (h0 : (i 0).val = a) : x i = at1 x a := by
  subst h0
  unfold at1
  rw [dif_pos (show (i 0).val < n from (i 0).isLt)]
  exact congrArg x (eq_ix1 i)

theorem at2_eq {n0 n1 : ℕ} (x : (⟨2, ![n0, n1]⟩ : Shape).Idx → EReal) (i : (⟨2, ![n0, n1]⟩ : Shape).Idx) (a b : ℕ)
    (h0 : (i 0).val = a) (h1 : (i 1).val = b) : x i = at2 x a b := by
  subst h0 h1
  unfold at2
  rw [dif_pos ⟨idx2_lt0 i, idx2_lt1 i⟩]
  exact congrArg x (eq_ix2 i)

theorem at3_eq {n0 n1 n2 : ℕ} (x : (⟨3, ![n0, n1, n2]⟩ : Shape).Idx → EReal) (i : (⟨3, ![n0, n1, n2]⟩ : Shape).Idx)
    (a b c : ℕ) (h0 : (i 0).val = a) (h1 : (i 1).val = b) (h2 : (i 2).val = c) : x i = at3 x a b c := by
  subst h0 h1 h2
  unfold at3
  rw [dif_pos ⟨(i 0).isLt, (i 1).isLt, (i 2).isLt⟩]
  exact congrArg x (eq_ix3 i)

/-- l-primary position of the coefficient at m-primary position a. -/
def toM (a : ℕ) : ℕ :=
  [0, 2, 6, 11, 16, 21, 26, 3, 7, 12, 17, 22, 27, 1, 5, 10, 15, 20, 25, 8, 13, 18, 23, 28, 4, 9, 14, 19, 24].getD a 0

/-- m-primary position of the coefficient at l-primary position p. -/
def fromM (p : ℕ) : ℕ :=
  [0, 13, 1, 7, 24, 14, 2, 8, 19, 25, 15, 3, 9, 20, 26, 16, 4, 10, 21, 27, 17, 5, 11, 22, 28, 18, 6, 12, 23].getD p 0

section
variable (X : (⟨3, ![50000, 29, 64]⟩ : Shape).Idx → EReal) (W0 : (⟨2, ![448, 448]⟩ : Shape).Idx → EReal)
  (b0 : (⟨1, ![448]⟩ : Shape).Idx → EReal) (W1 : (⟨2, ![768, 384]⟩ : Shape).Idx → EReal)
  (W2 : (⟨2, ![640, 320]⟩ : Shape).Idx → EReal)

/-- Edge e's coefficient at m-primary position a, channel c. -/
def xm (e a c : ℕ) : EReal := at3 X e (toM a) c

/-- The order-0 linear map with its bias: output q of edge e. -/
def lin0 (e q : ℕ) : EReal := (∑ k : Fin 448, xm X e (k.val / 64) (k.val % 64) * at2 W0 q k.val) + at1 b0 q

/-- Order 1: row o of W1 against block n (0 real, 1 imaginary) of edge e. -/
def dot1 (e n o : ℕ) : EReal := ∑ k : Fin 384, xm X e (7 + 6 * n + k.val / 64) (k.val % 64) * at2 W1 o k.val

/-- Order 2: row o of W2 against block n (0 real, 1 imaginary) of edge e. -/
def dot2 (e n o : ℕ) : EReal := ∑ k : Fin 320, xm X e (19 + 5 * n + k.val / 64) (k.val % 64) * at2 W2 o k.val

/-- The output in m-primary order: edge e, m-primary position a, channel c. -/
def outM (e a c : ℕ) : EReal :=
  if a < 7 then lin0 X W0 b0 e (64 * a + c)
  else if a < 13 then dot1 X W1 e 0 (64 * (a - 7) + c) - dot1 X W1 e 1 (384 + (64 * (a - 7) + c))
  else if a < 19 then dot1 X W1 e 1 (64 * (a - 13) + c) + dot1 X W1 e 0 (384 + (64 * (a - 13) + c))
  else if a < 24 then dot2 X W2 e 0 (64 * (a - 19) + c) - dot2 X W2 e 1 (320 + (64 * (a - 19) + c))
  else dot2 X W2 e 1 (64 * (a - 24) + c) + dot2 X W2 e 0 (320 + (64 * (a - 24) + c))

/-- THE RESULT: at (e, p, c) the m-primary output at position fromM p. -/
def G : (⟨3, ![50000, 29, 64]⟩ : Shape).Idx → EReal :=
  fun i => outM X W0 b0 W1 W2 (i 0).val (fromM (i 1).val) (i 2).val

end

end Cert.So2Spec

end
-- ==== Proof.LibColumnPieces.lean ====
/-
  GENERAL LEMMAS on matrices assembled from column blocks. Nothing here mentions a program.

  * concat_cols_slice: a matrix [R, Nout] is the concatenation, along the columns, of a list of pieces; piece n is
    a slice (any offsets) of width w of a matrix y [R', Nin], and the pieces before it have total width pre. Then the
    concatenation at (r, pre + c), c < w, is y at (off 0 + r, off 1 + c).
  * slice2_apply: a slice of a matrix read at an index is the matrix at the index shifted by the offsets.
-/
import Idealize.ShloMosaic.Lib.Pipeline.Value
import Idealize.ShloMosaic.Lib.ValueIdx

noncomputable section

namespace Cert.LibColumnPieces

open Idealize.ShloMosaic Idealize.ShloMosaic.ValueIdx

/-- The concatenation along the columns, read inside piece n, when that piece is a slice of y. -/
theorem concat_cols_slice {α : Type} {R R' Nin Nout w : ℕ}
    (xs : List ((s : Shape) × (s.Idx → α)))
    (h : Shape.Concatenates (xs.map (·.1)) ⟨2, ![R, Nout]⟩ 1)
    (y : (⟨2, ![R', Nin]⟩ : Shape).Idx → α) (n : ℕ) (hn : n < xs.length) (off : Fin 2 → ℕ)
    (hs : (⟨2, ![R', Nin]⟩ : Shape).Slices off ⟨2, ![R, w]⟩)
    (hx : xs[n] = ⟨⟨2, ![R, w]⟩, extractStridedSlice ⟨2, ![R, w]⟩ off y hs⟩)
    (pre : ℕ)
    (hpre : (((xs.take n).map (·.1)).map fun s =>
      if h : s.rank = (⟨2, ![R, Nout]⟩ : Shape).rank then s.size ((1 : Fin (⟨2, ![R, Nout]⟩ : Shape).rank).cast h.symm) else 0).sum = pre)
    (r : Fin R) (k : Fin Nout) (c : ℕ) (hc : c < w) (hk : k.val = pre + c)
    (i : (⟨2, ![R', Nin]⟩ : Shape).Idx) (hi0 : (i 0).val = off 0 + r.val) (hi1 : (i 1).val = off 1 + c) :
    concatenate ⟨2, ![R, Nout]⟩ 1 xs h (ix2 r k) = y i := by
  refine (concatenate_apply_piece (1 : Fin (⟨2, ![R, Nout]⟩ : Shape).rank) xs h (ix2 r k) n hn ⟨2, ![R, w]⟩ _ hx rfl pre hpre
    (ix2 r ⟨c, hc⟩) ?_ ?_).trans ?_
  · intro b hb
    match b with
    | ⟨0, _⟩ => rfl
    | ⟨1, _⟩ => exact absurd rfl hb
  · show pre + c = k.val
    omega
  · refine extractStridedSlice_apply off y hs (ix2 r ⟨c, hc⟩) i ?_
    intro a
    match a with
    | ⟨0, _⟩ => exact hi0
    | ⟨1, _⟩ => exact hi1

/-- A slice of a matrix, read at j: the matrix at any index k whose coordinates are j's shifted by the offsets. -/
theorem slice2_apply {α : Type} {R N R' N' : ℕ} (off : Fin 2 → ℕ) (x : (⟨2, ![R, N]⟩ : Shape).Idx → α)
    (h : (⟨2, ![R, N]⟩ : Shape).Slices off ⟨2, ![R', N']⟩) (j : (⟨2, ![R', N']⟩ : Shape).Idx)
    (k : (⟨2, ![R, N]⟩ : Shape).Idx) (h0 : (k 0).val = off 0 + (j 0).val) (h1 : (k 1).val = off 1 + (j 1).val) :
    extractStridedSlice ⟨2, ![R', N']⟩ off x h j = x k := by
  refine extractStridedSlice_apply off x h j k ?_
  intro a
  match a with
  | ⟨0, _⟩ => exact h0
  | ⟨1, _⟩ => exact h1

end Cert.LibColumnPieces

end
-- ==== Proof.LibMatmulRows.lean ====
/-
  GENERAL LEMMAS: the product of an [R, K] matrix with a [K, N] matrix — (A * B)(p, q) = sum over k of A(p, k) * B(k, q) —
  read at an index on extended reals, in the two spellings a kernel and a host program give it. Nothing here mentions a
  program; the extents R, K (the contracted axis: the lanes of A, the rows of B) and N are arbitrary.

  * idx2_ext: two rank-2 indices with the same coordinates are one index.
  * contraction_rows: a contraction of axis 1 of an [R, K] array with axis 0 of a [K, N] array (no batch axes), read at
    (p, q), is the sum over k : Fin K of l (p, k) * r (k, q); the dimension record enters only through four coordinate facts
    about its operand indices and the rank and extent of its contraction shape.
  * matmul_rows: the kernel's spelling — the matrix unit's product into a zero accumulator — at (p, q).
  * hostdot_rows: the host's spelling — dot_general — at (p, q).
  No law of extended-real arithmetic beyond reindexing a finite sum is used, so none of these needs finite inputs.
-/
import Idealize.ShloMosaic.PureOps.Ideal
import Idealize.ShloMosaic.PureOps.Ideal.Laws
import Idealize.ShloMosaic.Lib.ValueIdx

noncomputable section

namespace Cert.LibMatmulRows

open Idealize.ShloMosaic Idealize.ShloMosaic.ValueIdx
open scoped BigOperators

/-- Two rank-2 indices with the same coordinates are one index. -/
theorem idx2_ext {n0 n1 : ℕ} (f g : (⟨2, ![n0, n1]⟩ : Shape).Idx) (h0 : (f 0).val = (g 0).val) (h1 : (f 1).val = (g 1).val) :
    f = g :=
  funext fun d => Fin.ext (by
    match d with
    | ⟨0, _⟩ => exact h0
    | ⟨1, _⟩ => exact h1)

/-- A contraction of the lanes of an [R, K] array with the rows of a [K, N] array, read at (p, q): the sum over k of
    l(p, k) * r(k, q). The dimension record enters through four coordinate facts and the extent of its one contracted
    axis. -/
theorem contraction_rows {R K N : ℕ} (d : DotDims ⟨2, ![R, K]⟩ ⟨2, ![K, N]⟩ ⟨2, ![R, N]⟩)
    (hrank : d.contr.rank = 1) (hsize : d.contr.size ⟨0, by omega⟩ = K)
    (hl0 : ∀ (i : (⟨2, ![R, N]⟩ : Shape).Idx) (s : d.contr.Idx), (d.lhsIdx i s 0).val = (i 0).val)
    (hl1 : ∀ (i : (⟨2, ![R, N]⟩ : Shape).Idx) (s : d.contr.Idx), (d.lhsIdx i s 1).val = (s ⟨0, by omega⟩).val)
    (hr0 : ∀ (i : (⟨2, ![R, N]⟩ : Shape).Idx) (s : d.contr.Idx), (d.rhsIdx i s 0).val = (s ⟨0, by omega⟩).val)
    (hr1 : ∀ (i : (⟨2, ![R, N]⟩ : Shape).Idx) (s : d.contr.Idx), (d.rhsIdx i s 1).val = (i 1).val)
    (l : (⟨2, ![R, K]⟩ : Shape).Idx → EReal) (r : (⟨2, ![K, N]⟩ : Shape).Idx → EReal) (p : Fin R) (q : Fin N) :
    ∑ s : d.contr.Idx, l (d.lhsIdx (ix2 p q) s) * r (d.rhsIdx (ix2 p q) s) = ∑ k : Fin K, l (ix2 p k) * r (ix2 k q) := by
  rw [← Equiv.sum_comp (contrEquiv1 d K hrank hsize).symm]
  refine Finset.sum_congr rfl fun k _ => ?_
  have hk := contrEquiv1_symm_val d K hrank hsize k
  have el : d.lhsIdx (ix2 p q) ((contrEquiv1 d K hrank hsize).symm k) = ix2 p k :=
    idx2_ext _ _ (hl0 _ _) ((hl1 _ _).trans hk)
  have er : d.rhsIdx (ix2 p q) ((contrEquiv1 d K hrank hsize).symm k) = ix2 k q :=
    idx2_ext _ _ ((hr0 _ _).trans hk) (hr1 _ _)
  rw [el, er]

/-- The matrix unit's product into a zero accumulator, read at (p, q). -/
theorem matmul_rows {R K N : ℕ} (d : DotDims ⟨2, ![R, K]⟩ ⟨2, ![K, N]⟩ ⟨2, ![R, N]⟩)
    (hrank : d.contr.rank = 1) (hsize : d.contr.size ⟨0, by omega⟩ = K)
    (hl0 : ∀ (i : (⟨2, ![R, N]⟩ : Shape).Idx) (s : d.contr.Idx), (d.lhsIdx i s 0).val = (i 0).val)
    (hl1 : ∀ (i : (⟨2, ![R, N]⟩ : Shape).Idx) (s : d.contr.Idx), (d.lhsIdx i s 1).val = (s ⟨0, by omega⟩).val)
    (hr0 : ∀ (i : (⟨2, ![R, N]⟩ : Shape).Idx) (s : d.contr.Idx), (d.rhsIdx i s 0).val = (s ⟨0, by omega⟩).val)
    (hr1 : ∀ (i : (⟨2, ![R, N]⟩ : Shape).Idx) (s : d.contr.Idx), (d.rhsIdx i s 1).val = (i 1).val)
    {φ₁ φ₂ : FTy} (l : FVec Ideal ⟨2, ![R, K]⟩ φ₁) (r : FVec Ideal ⟨2, ![K, N]⟩ φ₂) (p : Fin R) (q : Fin N) :
    matmul d none l r (constant (F := Ideal) ⟨2, ![R, N]⟩ .f32 0x00000000#32) (ix2 p q)
      = ∑ k : Fin K, l (ix2 p k) * r (ix2 k q) :=
  (Ideal.matmul_constant_zero_apply d none l r (ix2 p q)).trans
    (contraction_rows d hrank hsize hl0 hl1 hr0 hr1 l r p q)

/-- The host's dot_general, read at (p, q). -/
theorem hostdot_rows {R K N : ℕ} (d : DotDims ⟨2, ![R, K]⟩ ⟨2, ![K, N]⟩ ⟨2, ![R, N]⟩)
    (hrank : d.contr.rank = 1) (hsize : d.contr.size ⟨0, by omega⟩ = K)
    (hl0 : ∀ (i : (⟨2, ![R, N]⟩ : Shape).Idx) (s : d.contr.Idx), (d.lhsIdx i s 0).val = (i 0).val)
    (hl1 : ∀ (i : (⟨2, ![R, N]⟩ : Shape).Idx) (s : d.contr.Idx), (d.lhsIdx i s 1).val = (s ⟨0, by omega⟩).val)
    (hr0 : ∀ (i : (⟨2, ![R, N]⟩ : Shape).Idx) (s : d.contr.Idx), (d.rhsIdx i s 0).val = (s ⟨0, by omega⟩).val)
    (hr1 : ∀ (i : (⟨2, ![R, N]⟩ : Shape).Idx) (s : d.contr.Idx), (d.rhsIdx i s 1).val = (i 1).val)
    (l : FVec Ideal ⟨2, ![R, K]⟩ .f32) (r : FVec Ideal ⟨2, ![K, N]⟩ .f32) (p : Fin R) (q : Fin N) :
    Host.dotGeneral d none l r (ix2 p q) = ∑ k : Fin K, l (ix2 p k) * r (ix2 k q) :=
  (Ideal.dotGeneral_apply d none .single l r (ix2 p q)).trans
    (contraction_rows d hrank hsize hl0 hl1 hr0 hr1 l r p q)

end Cert.LibMatmulRows

end
-- ==== Proof.KernCols.lean ====
/-
  The kernel body's inputs, read at an index. A block of 400 edges arrives as a matrix [400, 1856]: row r is an edge,
  column 64·p + c is channel c of the coefficient at l-primary position p. The body gathers 64-wide column groups of
  it into the matrices it multiplies: column k of such a matrix is channel k % 64 of the coefficient at m-primary
  position base + k / 64, that is column 64 · toM (base + k / 64) + k % 64 of the block (base = 7, 13 for the real
  and imaginary blocks of order 1; 19, 24 for order 2; 0 for order 0). The order-0 payload is then that matrix times
  the block of W0ᵀ, plus the row of biases.
-/
import proofs.«115152_j70824010711660_2_alg».proof.Proof.Gen.KernelIdeal.Skeleton
import proofs.«115152_j70824010711660_2_alg».proof.Proof.Spec
import proofs.«115152_j70824010711660_2_alg».proof.Proof.LibColumnPieces
import proofs.«115152_j70824010711660_2_alg».proof.Proof.LibMatmulRows

noncomputable section

namespace Cert.KernelIdeal.So2Cols

open Cert.KernelIdeal Cert.KernelIdeal.Gen Idealize.ShloMosaic Idealize.ShloMosaic.ValueIdx Cert.So2Spec Cert.LibColumnPieces

/-- The block rounded to bf16 is the block itself: on extended reals a change of format is the identity. -/
theorem pay2_apply (x0 : Vec Ideal S400x1856 .f32) (j : S400x1856.Idx) : k0_pay2 (F := Ideal) x0 j = x0 j := by
  unfold k0_pay2
  rw [shapeCast_self]
  rfl

/-- Piece n of a concatenation of 64-wide column slices of the block, read at column k with k / 64 = n: the block
    at the slice's offset plus k % 64. -/
macro "colpiece" n:num off:num x0:ident r:ident k:ident : tactic =>
  `(tactic| exact (concat_cols_slice _ _ (k0_pay2 (F := Ideal) $x0) $n (by simp) ![0, $off] _ rfl (64 * $n) rfl $r $k
      ((Fin.val $k) % 64) (by omega) (by omega) (ix2 $r ⟨$off + (Fin.val $k) % 64, by omega⟩) (by simp) (by simp)).trans
      ((pay2_apply $x0 _).trans (at2_eq $x0 _ _ _ rfl rfl)))

/-- The real block of order 1: six column groups. -/
theorem pay3_apply (x0 : Vec Ideal S400x1856 .f32) (r : Fin 400) (k : Fin 384) :
    k0_pay3 (F := Ideal) x0 (ix2 r k) = at2 x0 r.val (64 * toM (7 + k.val / 64) + k.val % 64) := by
  unfold k0_pay3
  have hlt : k.val / 64 < 6 := by have := k.isLt; omega
  obtain ⟨a, hq⟩ : ∃ a, k.val / 64 = a := ⟨_, rfl⟩
  rw [hq] at hlt ⊢
  interval_cases a
  · colpiece 0 192 x0 r k
  · colpiece 1 448 x0 r k
  · colpiece 2 768 x0 r k
  · colpiece 3 1088 x0 r k
  · colpiece 4 1408 x0 r k
  · colpiece 5 1728 x0 r k

/-- The imaginary block of order 1: six column groups. -/
theorem pay4_apply (x0 : Vec Ideal S400x1856 .f32) (r : Fin 400) (k : Fin 384) :
    k0_pay4 (F := Ideal) x0 (ix2 r k) = at2 x0 r.val (64 * toM (13 + k.val / 64) + k.val % 64) := by
  unfold k0_pay4
  have hlt : k.val / 64 < 6 := by have := k.isLt; omega
  obtain ⟨a, hq⟩ : ∃ a, k.val / 64 = a := ⟨_, rfl⟩
  rw [hq] at hlt ⊢
  interval_cases a
  · colpiece 0 64 x0 r k
  · colpiece 1 320 x0 r k
  · colpiece 2 640 x0 r k
  · colpiece 3 960 x0 r k
  · colpiece 4 1280 x0 r k
  · colpiece 5 1600 x0 r k

/-- The real block of order 2: five column groups. -/
theorem pay5_apply (x0 : Vec Ideal S400x1856 .f32) (r : Fin 400) (k : Fin 320) :
    k0_pay5 (F := Ideal) x0 (ix2 r k) = at2 x0 r.val (64 * toM (19 + k.val / 64) + k.val % 64) := by
  unfold k0_pay5
  have hlt : k.val / 64 < 5 := by have := k.isLt; omega
  obtain ⟨a, hq⟩ : ∃ a, k.val / 64 = a := ⟨_, rfl⟩
  rw [hq] at hlt ⊢
  interval_cases a
  · colpiece 0 512 x0 r k
  · colpiece 1 832 x0 r k
  · colpiece 2 1152 x0 r k
  · colpiece 3 1472 x0 r k
  · colpiece 4 1792 x0 r k

/-- The imaginary block of order 2: five column groups. -/
theorem pay6_apply (x0 : Vec Ideal S400x1856 .f32) (r : Fin 400) (k : Fin 320) :
    k0_pay6 (F := Ideal) x0 (ix2 r k) = at2 x0 r.val (64 * toM (24 + k.val / 64) + k.val % 64) := by
  unfold k0_pay6
  have hlt : k.val / 64 < 5 := by have := k.isLt; omega
  obtain ⟨a, hq⟩ : ∃ a, k.val / 64 = a := ⟨_, rfl⟩
  rw [hq] at hlt ⊢
  interval_cases a
  · colpiece 0 256 x0 r k
  · colpiece 1 576 x0 r k
  · colpiece 2 896 x0 r k
  · colpiece 3 1216 x0 r k
  · colpiece 4 1536 x0 r k

/-- The weight blocks pass through a shape cast onto their own shape. -/
theorem pay7_apply (w : Vec Ideal S384x768 .bf16) (j : S384x768.Idx) : k0_pay7 (F := Ideal) w j = w j := by
  unfold k0_pay7
  rw [shapeCast_self]

theorem pay8_apply (w : Vec Ideal S320x640 .bf16) (j : S320x640.Idx) : k0_pay8 (F := Ideal) w j = w j := by
  unfold k0_pay8
  rw [shapeCast_self]

/-- Order 0: the seven gathered column groups times the weight block, plus the bias row. -/
theorem pay9_apply (x0 : Vec Ideal S400x1856 .f32) (w : Vec Ideal S448x448 .bf16) (b : Vec Ideal S1x448 .f32)
    (r : Fin 400) (q : Fin 448) :
    k0_pay9 (F := Ideal) x0 w b (ix2 r q)
      = (∑ k : Fin 448, at2 x0 r.val (64 * toM (0 + k.val / 64) + k.val % 64) * at2 w k.val q.val) + at2 b 0 q.val := by
  unfold k0_pay9
  rw [addf_apply]
  congr 1
  · rw [Cert.LibMatmulRows.matmul_rows _ rfl rfl (fun _ _ => rfl) (fun _ _ => rfl) (fun _ _ => rfl) (fun _ _ => rfl)]
    refine Finset.sum_congr rfl fun k _ => ?_
    congr 1
    · have hlt : k.val / 64 < 7 := by have := k.isLt; omega
      obtain ⟨a, hq⟩ : ∃ a, k.val / 64 = a := ⟨_, rfl⟩
      rw [hq] at hlt ⊢
      interval_cases a
      · colpiece 0 0 x0 r k
      · colpiece 1 128 x0 r k
      · colpiece 2 384 x0 r k
      · colpiece 3 704 x0 r k
      · colpiece 4 1024 x0 r k
      · colpiece 5 1344 x0 r k
      · colpiece 6 1664 x0 r k
    · rw [shapeCast_self]
      exact at2_eq w _ _ _ rfl rfl
  · rw [shapeCast_self]
    refine (broadcastTo_apply b _ (ix2 r q) (ix2 0 q) ?_).trans (at2_eq b _ _ _ rfl rfl)
    intro a
    match a with
    | ⟨0, _⟩ => rfl
    | ⟨1, _⟩ => rfl

end Cert.KernelIdeal.So2Cols

end
-- ==== Proof.KernOut.lean ====
/-
  The kernel body's result, read at an index. From the gathered matrices (real and imaginary blocks of orders 1 and
  2, as rows r of [400, K] matrices) the body
    * stacks the real block on top of the imaginary block ([800, K]) and multiplies once by the weight block
      [K, 2H]: rows 0..399 of the product belong to the real block, rows 400..799 to the imaginary block, columns
      0..H-1 to the weights' first half and H..2H-1 to their second half;
    * forms real = top-left − bottom-right and imaginary = bottom-left + top-right;
    * lays the 29 groups of 64 output columns side by side in l-primary order: group p is the group at m-primary
      position fromM p.
  Written with rowdot v w r o = Σ_k v(r, k) · w(k, o), the body's result at (r, 64·p + c) is bodyOut … r (fromM p) c.
-/
import proofs.«115152_j70824010711660_2_alg».proof.Proof.Gen.KernelIdeal.Skeleton
import proofs.«115152_j70824010711660_2_alg».proof.Proof.Spec
import proofs.«115152_j70824010711660_2_alg».proof.Proof.LibColumnPieces
import proofs.«115152_j70824010711660_2_alg».proof.Proof.LibMatmulRows

noncomputable section

namespace Cert.KernelIdeal.So2Out

open Cert.KernelIdeal Cert.KernelIdeal.Gen Idealize.ShloMosaic Idealize.ShloMosaic.ValueIdx Cert.So2Spec Cert.LibColumnPieces
open Cert.LibMatmulRows (matmul_rows idx2_ext)
open scoped BigOperators

/-- Row r of v against column o of w. -/
def rowdot {K N : ℕ} (v : (⟨2, ![400, K]⟩ : Shape).Idx → EReal) (w : (⟨2, ![K, N]⟩ : Shape).Idx → EReal) (r o : ℕ) : EReal :=
  ∑ k : Fin K, at2 v r k.val * at2 w k.val o

/-- The stacked product: the real block above the imaginary block, times the weight block. -/
abbrev prod1 (v17 v24 : FVec Ideal S400x384 .bf16) (v42 : FVec Ideal S384x768 .bf16) : FVec Ideal S800x768 .f32 :=
  matmul dot_S800x384_S384x768_S800x768_1_0_0_1_n_n none
    (concatenate S800x384 0 [⟨S400x384, v17⟩, ⟨S400x384, v24⟩] concatenates_S400x384_S400x384_S800x384_d0) v42
    (constant S800x768 .f32 0x00000000#32)

abbrev prod2 (v30 v36 : FVec Ideal S400x320 .bf16) (v44 : FVec Ideal S320x640 .bf16) : FVec Ideal S800x640 .f32 :=
  matmul dot_S800x320_S320x640_S800x640_1_0_0_1_n_n none
    (concatenate S800x320 0 [⟨S400x320, v30⟩, ⟨S400x320, v36⟩] concatenates_S400x320_S400x320_S800x320_d0) v44
    (constant S800x640 .f32 0x00000000#32)

/-- A row of the upper half of the stacked product is a row of the real block against the weights. -/
theorem prod1_top (v17 v24 : FVec Ideal S400x384 .bf16) (v42 : FVec Ideal S384x768 .bf16) (r o : ℕ) (hr : r < 400) (ho : o < 768)
    (i : S800x768.Idx) (h0 : (i 0).val = r) (h1 : (i 1).val = o) : prod1 v17 v24 v42 i = rowdot v17 v42 r o := by
  obtain rfl : i = ix2 ⟨r, by clear h0 h1; omega⟩ ⟨o, ho⟩ := idx2_ext _ _ h0 h1
  unfold prod1 rowdot
  rw [matmul_rows _ rfl rfl (fun _ _ => rfl) (fun _ _ => rfl) (fun _ _ => rfl) (fun _ _ => rfl)]
  refine Finset.sum_congr rfl fun k _ => ?_
  congr 1
  · exact (concatenate_pair_apply_left (t := S800x384) (0 : Fin 2) v17 v24 _ _ rfl (ix2 ⟨r, hr⟩ k) (fun b => match b with
      | ⟨0, _⟩ => rfl
      | ⟨1, _⟩ => rfl)).trans (at2_eq v17 _ _ _ rfl rfl)
  · exact at2_eq v42 _ _ _ rfl rfl

/-- A row of the lower half is a row of the imaginary block against the weights. -/
theorem prod1_bot (v17 v24 : FVec Ideal S400x384 .bf16) (v42 : FVec Ideal S384x768 .bf16) (r o : ℕ) (hr : r < 400) (ho : o < 768)
    (i : S800x768.Idx) (h0 : (i 0).val = 400 + r) (h1 : (i 1).val = o) : prod1 v17 v24 v42 i = rowdot v24 v42 r o := by
  obtain rfl : i = ix2 ⟨400 + r, by clear h0 h1; omega⟩ ⟨o, ho⟩ := idx2_ext _ _ h0 h1
  unfold prod1 rowdot
  rw [matmul_rows _ rfl rfl (fun _ _ => rfl) (fun _ _ => rfl) (fun _ _ => rfl) (fun _ _ => rfl)]
  refine Finset.sum_congr rfl fun k _ => ?_
  congr 1
  · refine (concatenate_pair_apply_right (t := S800x384) (0 : Fin 2) v17 v24 _ _ rfl rfl (ix2 ⟨r, hr⟩ k) ?_ ?_).trans (at2_eq v24 _ _ _ rfl rfl)
    · intro b hb
      match b with
      | ⟨0, _⟩ => exact absurd rfl hb
      | ⟨1, _⟩ => rfl
    · show r + 400 = 400 + r
      omega
  · exact at2_eq v42 _ _ _ rfl rfl

theorem prod2_top (v30 v36 : FVec Ideal S400x320 .bf16) (v44 : FVec Ideal S320x640 .bf16) (r o : ℕ) (hr : r < 400) (ho : o < 640)
    (i : S800x640.Idx) (h0 : (i 0).val = r) (h1 : (i 1).val = o) : prod2 v30 v36 v44 i = rowdot v30 v44 r o := by
  obtain rfl : i = ix2 ⟨r, by clear h0 h1; omega⟩ ⟨o, ho⟩ := idx2_ext _ _ h0 h1
  unfold prod2 rowdot
  rw [matmul_rows _ rfl rfl (fun _ _ => rfl) (fun _ _ => rfl) (fun _ _ => rfl) (fun _ _ => rfl)]
  refine Finset.sum_congr rfl fun k _ => ?_
  congr 1
  · exact (concatenate_pair_apply_left (t := S800x320) (0 : Fin 2) v30 v36 _ _ rfl (ix2 ⟨r, hr⟩ k) (fun b => match b with
      | ⟨0, _⟩ => rfl
      | ⟨1, _⟩ => rfl)).trans (at2_eq v30 _ _ _ rfl rfl)
  · exact at2_eq v44 _ _ _ rfl rfl

theorem prod2_bot (v30 v36 : FVec Ideal S400x320 .bf16) (v44 : FVec Ideal S320x640 .bf16) (r o : ℕ) (hr : r < 400) (ho : o < 640)
    (i : S800x640.Idx) (h0 : (i 0).val = 400 + r) (h1 : (i 1).val = o) : prod2 v30 v36 v44 i = rowdot v36 v44 r o := by
  obtain rfl : i = ix2 ⟨400 + r, by clear h0 h1; omega⟩ ⟨o, ho⟩ := idx2_ext _ _ h0 h1
  unfold prod2 rowdot
  rw [matmul_rows _ rfl rfl (fun _ _ => rfl) (fun _ _ => rfl) (fun _ _ => rfl) (fun _ _ => rfl)]
  refine Finset.sum_congr rfl fun k _ => ?_
  congr 1
  · refine (concatenate_pair_apply_right (t := S800x320) (0 : Fin 2) v30 v36 _ _ rfl rfl (ix2 ⟨r, hr⟩ k) ?_ ?_).trans (at2_eq v36 _ _ _ rfl rfl)
    · intro b hb
      match b with
      | ⟨0, _⟩ => exact absurd rfl hb
      | ⟨1, _⟩ => rfl
    · show r + 400 = 400 + r
      omega
  · exact at2_eq v44 _ _ _ rfl rfl

/-- The four combinations, as the body spells them on the stacked products. -/
abbrev mix1r (y : FVec Ideal S800x768 .f32) : FVec Ideal S400x384 .f32 :=
  subf (extractStridedSlice S400x384 ![0, 0] (extractStridedSlice S400x768 ![0, 0] y slices_S800x768_o0_0_S400x768) slices_S400x768_o0_0_S400x384)
    (extractStridedSlice S400x384 ![0, 384] (extractStridedSlice S400x768 ![400, 0] y slices_S800x768_o400_0_S400x768) slices_S400x768_o0_384_S400x384)
abbrev mix1i (y : FVec Ideal S800x768 .f32) : FVec Ideal S400x384 .f32 :=
  addf (extractStridedSlice S400x384 ![0, 0] (extractStridedSlice S400x768 ![400, 0] y slices_S800x768_o400_0_S400x768) slices_S400x768_o0_0_S400x384)
    (extractStridedSlice S400x384 ![0, 384] (extractStridedSlice S400x768 ![0, 0] y slices_S800x768_o0_0_S400x768) slices_S400x768_o0_384_S400x384)
abbrev mix2r (y : FVec Ideal S800x640 .f32) : FVec Ideal S400x320 .f32 :=
  subf (extractStridedSlice S400x320 ![0, 0] (extractStridedSlice S400x640 ![0, 0] y slices_S800x640_o0_0_S400x640) slices_S400x640_o0_0_S400x320)
    (extractStridedSlice S400x320 ![0, 320] (extractStridedSlice S400x640 ![400, 0] y slices_S800x640_o400_0_S400x640) slices_S400x640_o0_320_S400x320)
abbrev mix2i (y : FVec Ideal S800x640 .f32) : FVec Ideal S400x320 .f32 :=
  addf (extractStridedSlice S400x320 ![0, 0] (extractStridedSlice S400x640 ![400, 0] y slices_S800x640_o400_0_S400x640) slices_S400x640_o0_0_S400x320)
    (extractStridedSlice S400x320 ![0, 320] (extractStridedSlice S400x640 ![0, 0] y slices_S800x640_o0_0_S400x640) slices_S400x640_o0_320_S400x320)

/-- Twenty-nine 64-wide column groups laid side by side: column j of the result is column j % 64 of group j / 64. -/
theorem concat29 (y0 y1 y2 y3 y4 y5 y6 y7 y8 y9 y10 y11 y12 y13 y14 y15 y16 y17 y18 y19 y20 y21 y22 y23 y24 y25 y26 y27 y28 : FVec Ideal S400x64 .f32)
    (h : Shape.Concatenates [S400x64, S400x64, S400x64, S400x64, S400x64, S400x64, S400x64, S400x64, S400x64, S400x64, S400x64, S400x64, S400x64, S400x64, S400x64, S400x64, S400x64, S400x64, S400x64, S400x64, S400x64, S400x64, S400x64, S400x64, S400x64, S400x64, S400x64, S400x64, S400x64] S400x1856 1)
    (r : Fin 400) (j : Fin 1856) :
    concatenate S400x1856 1 [⟨S400x64, y0⟩, ⟨S400x64, y1⟩, ⟨S400x64, y2⟩, ⟨S400x64, y3⟩, ⟨S400x64, y4⟩, ⟨S400x64, y5⟩, ⟨S400x64, y6⟩, ⟨S400x64, y7⟩, ⟨S400x64, y8⟩, ⟨S400x64, y9⟩, ⟨S400x64, y10⟩, ⟨S400x64, y11⟩, ⟨S400x64, y12⟩, ⟨S400x64, y13⟩, ⟨S400x64, y14⟩, ⟨S400x64, y15⟩, ⟨S400x64, y16⟩, ⟨S400x64, y17⟩, ⟨S400x64, y18⟩, ⟨S400x64, y19⟩, ⟨S400x64, y20⟩, ⟨S400x64, y21⟩, ⟨S400x64, y22⟩, ⟨S400x64, y23⟩, ⟨S400x64, y24⟩, ⟨S400x64, y25⟩, ⟨S400x64, y26⟩, ⟨S400x64, y27⟩, ⟨S400x64, y28⟩] h (ix2 r j)
      = (![y0, y1, y2, y3, y4, y5, y6, y7, y8, y9, y10, y11, y12, y13, y14, y15, y16, y17, y18, y19, y20, y21, y22, y23, y24, y25, y26, y27, y28] : Fin 29 → FVec Ideal S400x64 .f32) ⟨j.val / 64, by have := j.isLt; omega⟩ (ix2 r ⟨j.val % 64, by omega⟩) :=
  concatenate_ofFn_apply (t := S400x1856) (s₁ := S400x64) (1 : Fin 2)
    (![y0, y1, y2, y3, y4, y5, y6, y7, y8, y9, y10, y11, y12, y13, y14, y15, y16, y17, y18, y19, y20, y21, y22, y23, y24, y25, y26, y27, y28] : Fin 29 → FVec Ideal S400x64 .f32) h rfl 64 rfl (ix2 r j)
    ⟨j.val / 64, by have := j.isLt; omega⟩ rfl (ix2 r ⟨j.val % 64, by omega⟩) rfl
    (fun b hb => match b with
      | ⟨0, _⟩ => rfl
      | ⟨1, _⟩ => absurd rfl hb)

section
variable (v17 v24 : FVec Ideal S400x384 .bf16) (v30 v36 : FVec Ideal S400x320 .bf16) (v42 : FVec Ideal S384x768 .bf16)
  (v44 : FVec Ideal S320x640 .bf16) (v47 : FVec Ideal S400x448 .f32)

/-- The body's result for row r at m-primary position a, channel c. -/
def bodyOut (r a c : ℕ) : EReal :=
  if a < 7 then at2 v47 r (64 * a + c)
  else if a < 13 then rowdot v17 v42 r (64 * (a - 7) + c) - rowdot v24 v42 r (384 + (64 * (a - 7) + c))
  else if a < 19 then rowdot v24 v42 r (64 * (a - 13) + c) + rowdot v17 v42 r (384 + (64 * (a - 13) + c))
  else if a < 24 then rowdot v30 v44 r (64 * (a - 19) + c) - rowdot v36 v44 r (320 + (64 * (a - 19) + c))
  else rowdot v36 v44 r (64 * (a - 24) + c) + rowdot v30 v44 r (320 + (64 * (a - 24) + c))

theorem out_lin (r : Fin 400) (a c : ℕ) (ha : a < 7) (_h : True) (hc : c < 64) (i : S400x448.Idx) (h0 : (i 0).val = r.val)
    (h1 : (i 1).val = 64 * a + c) : v47 i = bodyOut v17 v24 v30 v36 v42 v44 v47 r.val a c := by
  unfold bodyOut
  rw [if_pos ha]
  exact at2_eq v47 i _ _ h0 h1

theorem out_1r (r : Fin 400) (a c : ℕ) (ha : 7 ≤ a) (ha' : a < 13) (hc : c < 64) (i : S400x384.Idx) (h0 : (i 0).val = r.val)
    (h1 : (i 1).val = 64 * (a - 7) + c) :
    mix1r (prod1 v17 v24 v42) i = bodyOut v17 v24 v30 v36 v42 v44 v47 r.val a c := by
  unfold bodyOut
  rw [if_neg (by omega), if_pos ha']
  show _ - _ = _
  congr 1
  · refine (slice2_apply _ _ _ i (ix2 ⟨r.val, r.isLt⟩ ⟨64 * (a - 7) + c, by omega⟩) (by simpa using h0.symm) (by simpa using h1.symm)).trans ?_
    refine (slice2_apply _ _ _ _ (ix2 ⟨r.val, by omega⟩ ⟨64 * (a - 7) + c, by omega⟩) (by simp) (by simp)).trans ?_
    exact prod1_top v17 v24 v42 _ _ r.isLt (by omega) _ rfl rfl
  · refine (slice2_apply _ _ _ i (ix2 ⟨r.val, r.isLt⟩ ⟨384 + (64 * (a - 7) + c), by omega⟩) (by simpa using h0.symm) (by simp; omega)).trans ?_
    refine (slice2_apply _ _ _ _ (ix2 ⟨400 + r.val, by omega⟩ ⟨384 + (64 * (a - 7) + c), by omega⟩) (by simp) (by simp)).trans ?_
    exact prod1_bot v17 v24 v42 _ _ r.isLt (by omega) _ rfl rfl

theorem out_1i (r : Fin 400) (a c : ℕ) (ha : 13 ≤ a) (ha' : a < 19) (hc : c < 64) (i : S400x384.Idx) (h0 : (i 0).val = r.val)
    (h1 : (i 1).val = 64 * (a - 13) + c) :
    mix1i (prod1 v17 v24 v42) i = bodyOut v17 v24 v30 v36 v42 v44 v47 r.val a c := by
  unfold bodyOut
  rw [if_neg (by omega), if_neg (by omega), if_pos ha']
  show _ + _ = _
  congr 1
  · refine (slice2_apply _ _ _ i (ix2 ⟨r.val, r.isLt⟩ ⟨64 * (a - 13) + c, by omega⟩) (by simpa using h0.symm) (by simpa using h1.symm)).trans ?_
    refine (slice2_apply _ _ _ _ (ix2 ⟨400 + r.val, by omega⟩ ⟨64 * (a - 13) + c, by omega⟩) (by simp) (by simp)).trans ?_
    exact prod1_bot v17 v24 v42 _ _ r.isLt (by omega) _ rfl rfl
  · refine (slice2_apply _ _ _ i (ix2 ⟨r.val, r.isLt⟩ ⟨384 + (64 * (a - 13) + c), by omega⟩) (by simpa using h0.symm) (by simp; omega)).trans ?_
    refine (slice2_apply _ _ _ _ (ix2 ⟨r.val, by omega⟩ ⟨384 + (64 * (a - 13) + c), by omega⟩) (by simp) (by simp)).trans ?_
    exact prod1_top v17 v24 v42 _ _ r.isLt (by omega) _ rfl rfl

theorem out_2r (r : Fin 400) (a c : ℕ) (ha : 19 ≤ a) (ha' : a < 24) (hc : c < 64) (i : S400x320.Idx) (h0 : (i 0).val = r.val)
    (h1 : (i 1).val = 64 * (a - 19) + c) :
    mix2r (prod2 v30 v36 v44) i = bodyOut v17 v24 v30 v36 v42 v44 v47 r.val a c := by
  unfold bodyOut
  rw [if_neg (by omega), if_neg (by omega), if_neg (by omega), if_pos ha']
  show _ - _ = _
  congr 1
  · refine (slice2_apply _ _ _ i (ix2 ⟨r.val, r.isLt⟩ ⟨64 * (a - 19) + c, by omega⟩) (by simpa using h0.symm) (by simpa using h1.symm)).trans ?_
    refine (slice2_apply _ _ _ _ (ix2 ⟨r.val, by omega⟩ ⟨64 * (a - 19) + c, by omega⟩) (by simp) (by simp)).trans ?_
    exact prod2_top v30 v36 v44 _ _ r.isLt (by omega) _ rfl rfl
  · refine (slice2_apply _ _ _ i (ix2 ⟨r.val, r.isLt⟩ ⟨320 + (64 * (a - 19) + c), by omega⟩) (by simpa using h0.symm) (by simp; omega)).trans ?_
    refine (slice2_apply _ _ _ _ (ix2 ⟨400 + r.val, by omega⟩ ⟨320 + (64 * (a - 19) + c), by omega⟩) (by simp) (by simp)).trans ?_
    exact prod2_bot v30 v36 v44 _ _ r.isLt (by omega) _ rfl rfl

theorem out_2i (r : Fin 400) (a c : ℕ) (ha : 24 ≤ a) (ha' : a < 29) (hc : c < 64) (i : S400x320.Idx) (h0 : (i 0).val = r.val)
    (h1 : (i 1).val = 64 * (a - 24) + c) :
    mix2i (prod2 v30 v36 v44) i = bodyOut v17 v24 v30 v36 v42 v44 v47 r.val a c := by
  unfold bodyOut
  rw [if_neg (by omega), if_neg (by omega), if_neg (by omega), if_neg (by omega)]
  show _ + _ = _
  congr 1
  · refine (slice2_apply _ _ _ i (ix2 ⟨r.val, r.isLt⟩ ⟨64 * (a - 24) + c, by omega⟩) (by simpa using h0.symm) (by simpa using h1.symm)).trans ?_
    refine (slice2_apply _ _ _ _ (ix2 ⟨400 + r.val, by omega⟩ ⟨64 * (a - 24) + c, by omega⟩) (by simp) (by simp)).trans ?_
    exact prod2_bot v30 v36 v44 _ _ r.isLt (by omega) _ rfl rfl
  · refine (slice2_apply _ _ _ i (ix2 ⟨r.val, r.isLt⟩ ⟨320 + (64 * (a - 24) + c), by omega⟩) (by simpa using h0.symm) (by simp; omega)).trans ?_
    refine (slice2_apply _ _ _ _ (ix2 ⟨r.val, by omega⟩ ⟨320 + (64 * (a - 24) + c), by omega⟩) (by simp) (by simp)).trans ?_
    exact prod2_top v30 v36 v44 _ _ r.isLt (by omega) _ rfl rfl

/-- THE BODY'S RESULT at row r, column j: the group of 64 columns j / 64 is the l-primary position, the value the
    m-primary output at fromM (j / 64), channel j % 64. -/
theorem pay1_apply (r : Fin 400) (j : Fin 1856) :
    k0_pay1 (F := Ideal) v17 v24 v30 v36 v42 v44 v47 (ix2 r j)
      = bodyOut v17 v24 v30 v36 v42 v44 v47 r.val (fromM (j.val / 64)) (j.val % 64) := by
  unfold k0_pay1
  rw [concat29]
  have hlt : j.val / 64 < 29 := by have := j.isLt; omega
  obtain ⟨p, hq⟩ : ∃ p, j.val / 64 = p := ⟨_, rfl⟩
  simp only [hq]
  rw [hq] at hlt
  interval_cases p
  · simp only [Matrix.cons_val_zero', Matrix.cons_val_succ']
    refine (slice2_apply ![0, 0] _ slices_S400x448_o0_0_S400x64 (ix2 r ⟨j.val % 64, by omega⟩) (ix2 r ⟨0 + j.val % 64, by omega⟩) (by simp) (by simp)).trans ?_
    exact out_lin v17 v24 v30 v36 v42 v44 v47 r 0 (j.val % 64) (by omega) trivial (by omega) _ rfl rfl
  · simp only [Matrix.cons_val_zero', Matrix.cons_val_succ']
    refine (slice2_apply ![0, 0] _ slices_S400x384_o0_0_S400x64 (ix2 r ⟨j.val % 64, by omega⟩) (ix2 r ⟨0 + j.val % 64, by omega⟩) (by simp) (by simp)).trans ?_
    exact out_1i v17 v24 v30 v36 v42 v44 v47 r 13 (j.val % 64) (by omega) (by omega) (by omega) _ rfl rfl
  · simp only [Matrix.cons_val_zero', Matrix.cons_val_succ']
    refine (slice2_apply ![0, 64] _ slices_S400x448_o0_64_S400x64 (ix2 r ⟨j.val % 64, by omega⟩) (ix2 r ⟨64 + j.val % 64, by omega⟩) (by simp) (by simp)).trans ?_
    exact out_lin v17 v24 v30 v36 v42 v44 v47 r 1 (j.val % 64) (by omega) trivial (by omega) _ rfl rfl
  · simp only [Matrix.cons_val_zero', Matrix.cons_val_succ']
    refine (slice2_apply ![0, 0] _ slices_S400x384_o0_0_S400x64 (ix2 r ⟨j.val % 64, by omega⟩) (ix2 r ⟨0 + j.val % 64, by omega⟩) (by simp) (by simp)).trans ?_
    exact out_1r v17 v24 v30 v36 v42 v44 v47 r 7 (j.val % 64) (by omega) (by omega) (by omega) _ rfl rfl
  · simp only [Matrix.cons_val_zero', Matrix.cons_val_succ']
    refine (slice2_apply ![0, 0] _ slices_S400x320_o0_0_S400x64 (ix2 r ⟨j.val % 64, by omega⟩) (ix2 r ⟨0 + j.val % 64, by omega⟩) (by simp) (by simp)).trans ?_
    exact out_2i v17 v24 v30 v36 v42 v44 v47 r 24 (j.val % 64) (by omega) (by omega) (by omega) _ rfl rfl
  · simp only [Matrix.cons_val_zero', Matrix.cons_val_succ']
    refine (slice2_apply ![0, 64] _ slices_S400x384_o0_64_S400x64 (ix2 r ⟨j.val % 64, by omega⟩) (ix2 r ⟨64 + j.val % 64, by omega⟩) (by simp) (by simp)).trans ?_
    exact out_1i v17 v24 v30 v36 v42 v44 v47 r 14 (j.val % 64) (by omega) (by omega) (by omega) _ rfl rfl
  · simp only [Matrix.cons_val_zero', Matrix.cons_val_succ']
    refine (slice2_apply ![0, 128] _ slices_S400x448_o0_128_S400x64 (ix2 r ⟨j.val % 64, by omega⟩) (ix2 r ⟨128 + j.val % 64, by omega⟩) (by simp) (by simp)).trans ?_
    exact out_lin v17 v24 v30 v36 v42 v44 v47 r 2 (j.val % 64) (by omega) trivial (by omega) _ rfl rfl
  · simp only [Matrix.cons_val_zero', Matrix.cons_val_succ']
    refine (slice2_apply ![0, 64] _ slices_S400x384_o0_64_S400x64 (ix2 r ⟨j.val % 64, by omega⟩) (ix2 r ⟨64 + j.val % 64, by omega⟩) (by simp) (by simp)).trans ?_
    exact out_1r v17 v24 v30 v36 v42 v44 v47 r 8 (j.val % 64) (by omega) (by omega) (by omega) _ rfl rfl
  · simp only [Matrix.cons_val_zero', Matrix.cons_val_succ']
    refine (slice2_apply ![0, 0] _ slices_S400x320_o0_0_S400x64 (ix2 r ⟨j.val % 64, by omega⟩) (ix2 r ⟨0 + j.val % 64, by omega⟩) (by simp) (by simp)).trans ?_
    exact out_2r v17 v24 v30 v36 v42 v44 v47 r 19 (j.val % 64) (by omega) (by omega) (by omega) _ rfl rfl
  · simp only [Matrix.cons_val_zero', Matrix.cons_val_succ']
    refine (slice2_apply ![0, 64] _ slices_S400x320_o0_64_S400x64 (ix2 r ⟨j.val % 64, by omega⟩) (ix2 r ⟨64 + j.val % 64, by omega⟩) (by simp) (by simp)).trans ?_
    exact out_2i v17 v24 v30 v36 v42 v44 v47 r 25 (j.val % 64) (by omega) (by omega) (by omega) _ rfl rfl
  · simp only [Matrix.cons_val_zero', Matrix.cons_val_succ']
    refine (slice2_apply ![0, 128] _ slices_S400x384_o0_128_S400x64 (ix2 r ⟨j.val % 64, by omega⟩) (ix2 r ⟨128 + j.val % 64, by omega⟩) (by simp) (by simp)).trans ?_
    exact out_1i v17 v24 v30 v36 v42 v44 v47 r 15 (j.val % 64) (by omega) (by omega) (by omega) _ rfl rfl
  · simp only [Matrix.cons_val_zero', Matrix.cons_val_succ']
    refine (slice2_apply ![0, 192] _ slices_S400x448_o0_192_S400x64 (ix2 r ⟨j.val % 64, by omega⟩) (ix2 r ⟨192 + j.val % 64, by omega⟩) (by simp) (by simp)).trans ?_
    exact out_lin v17 v24 v30 v36 v42 v44 v47 r 3 (j.val % 64) (by omega) trivial (by omega) _ rfl rfl
  · simp only [Matrix.cons_val_zero', Matrix.cons_val_succ']
    refine (slice2_apply ![0, 128] _ slices_S400x384_o0_128_S400x64 (ix2 r ⟨j.val % 64, by omega⟩) (ix2 r ⟨128 + j.val % 64, by omega⟩) (by simp) (by simp)).trans ?_
    exact out_1r v17 v24 v30 v36 v42 v44 v47 r 9 (j.val % 64) (by omega) (by omega) (by omega) _ rfl rfl
  · simp only [Matrix.cons_val_zero', Matrix.cons_val_succ']
    refine (slice2_apply ![0, 64] _ slices_S400x320_o0_64_S400x64 (ix2 r ⟨j.val % 64, by omega⟩) (ix2 r ⟨64 + j.val % 64, by omega⟩) (by simp) (by simp)).trans ?_
    exact out_2r v17 v24 v30 v36 v42 v44 v47 r 20 (j.val % 64) (by omega) (by omega) (by omega) _ rfl rfl
  · simp only [Matrix.cons_val_zero', Matrix.cons_val_succ']
    refine (slice2_apply ![0, 128] _ slices_S400x320_o0_128_S400x64 (ix2 r ⟨j.val % 64, by omega⟩) (ix2 r ⟨128 + j.val % 64, by omega⟩) (by simp) (by simp)).trans ?_
    exact out_2i v17 v24 v30 v36 v42 v44 v47 r 26 (j.val % 64) (by omega) (by omega) (by omega) _ rfl rfl
  · simp only [Matrix.cons_val_zero', Matrix.cons_val_succ']
    refine (slice2_apply ![0, 192] _ slices_S400x384_o0_192_S400x64 (ix2 r ⟨j.val % 64, by omega⟩) (ix2 r ⟨192 + j.val % 64, by omega⟩) (by simp) (by simp)).trans ?_
    exact out_1i v17 v24 v30 v36 v42 v44 v47 r 16 (j.val % 64) (by omega) (by omega) (by omega) _ rfl rfl
  · simp only [Matrix.cons_val_zero', Matrix.cons_val_succ']
    refine (slice2_apply ![0, 256] _ slices_S400x448_o0_256_S400x64 (ix2 r ⟨j.val % 64, by omega⟩) (ix2 r ⟨256 + j.val % 64, by omega⟩) (by simp) (by simp)).trans ?_
    exact out_lin v17 v24 v30 v36 v42 v44 v47 r 4 (j.val % 64) (by omega) trivial (by omega) _ rfl rfl
  · simp only [Matrix.cons_val_zero', Matrix.cons_val_succ']
    refine (slice2_apply ![0, 192] _ slices_S400x384_o0_192_S400x64 (ix2 r ⟨j.val % 64, by omega⟩) (ix2 r ⟨192 + j.val % 64, by omega⟩) (by simp) (by simp)).trans ?_
    exact out_1r v17 v24 v30 v36 v42 v44 v47 r 10 (j.val % 64) (by omega) (by omega) (by omega) _ rfl rfl
  · simp only [Matrix.cons_val_zero', Matrix.cons_val_succ']
    refine (slice2_apply ![0, 128] _ slices_S400x320_o0_128_S400x64 (ix2 r ⟨j.val % 64, by omega⟩) (ix2 r ⟨128 + j.val % 64, by omega⟩) (by simp) (by simp)).trans ?_
    exact out_2r v17 v24 v30 v36 v42 v44 v47 r 21 (j.val % 64) (by omega) (by omega) (by omega) _ rfl rfl
  · simp only [Matrix.cons_val_zero', Matrix.cons_val_succ']
    refine (slice2_apply ![0, 192] _ slices_S400x320_o0_192_S400x64 (ix2 r ⟨j.val % 64, by omega⟩) (ix2 r ⟨192 + j.val % 64, by omega⟩) (by simp) (by simp)).trans ?_
    exact out_2i v17 v24 v30 v36 v42 v44 v47 r 27 (j.val % 64) (by omega) (by omega) (by omega) _ rfl rfl
  · simp only [Matrix.cons_val_zero', Matrix.cons_val_succ']
    refine (slice2_apply ![0, 256] _ slices_S400x384_o0_256_S400x64 (ix2 r ⟨j.val % 64, by omega⟩) (ix2 r ⟨256 + j.val % 64, by omega⟩) (by simp) (by simp)).trans ?_
    exact out_1i v17 v24 v30 v36 v42 v44 v47 r 17 (j.val % 64) (by omega) (by omega) (by omega) _ rfl rfl
  · simp only [Matrix.cons_val_zero', Matrix.cons_val_succ']
    refine (slice2_apply ![0, 320] _ slices_S400x448_o0_320_S400x64 (ix2 r ⟨j.val % 64, by omega⟩) (ix2 r ⟨320 + j.val % 64, by omega⟩) (by simp) (by simp)).trans ?_
    exact out_lin v17 v24 v30 v36 v42 v44 v47 r 5 (j.val % 64) (by omega) trivial (by omega) _ rfl rfl
  · simp only [Matrix.cons_val_zero', Matrix.cons_val_succ']
    refine (slice2_apply ![0, 256] _ slices_S400x384_o0_256_S400x64 (ix2 r ⟨j.val % 64, by omega⟩) (ix2 r ⟨256 + j.val % 64, by omega⟩) (by simp) (by simp)).trans ?_
    exact out_1r v17 v24 v30 v36 v42 v44 v47 r 11 (j.val % 64) (by omega) (by omega) (by omega) _ rfl rfl
  · simp only [Matrix.cons_val_zero', Matrix.cons_val_succ']
    refine (slice2_apply ![0, 192] _ slices_S400x320_o0_192_S400x64 (ix2 r ⟨j.val % 64, by omega⟩) (ix2 r ⟨192 + j.val % 64, by omega⟩) (by simp) (by simp)).trans ?_
    exact out_2r v17 v24 v30 v36 v42 v44 v47 r 22 (j.val % 64) (by omega) (by omega) (by omega) _ rfl rfl
  · simp only [Matrix.cons_val_zero', Matrix.cons_val_succ']
    refine (slice2_apply ![0, 256] _ slices_S400x320_o0_256_S400x64 (ix2 r ⟨j.val % 64, by omega⟩) (ix2 r ⟨256 + j.val % 64, by omega⟩) (by simp) (by simp)).trans ?_
    exact out_2i v17 v24 v30 v36 v42 v44 v47 r 28 (j.val % 64) (by omega) (by omega) (by omega) _ rfl rfl
  · simp only [Matrix.cons_val_zero', Matrix.cons_val_succ']
    refine (slice2_apply ![0, 320] _ slices_S400x384_o0_320_S400x64 (ix2 r ⟨j.val % 64, by omega⟩) (ix2 r ⟨320 + j.val % 64, by omega⟩) (by simp) (by simp)).trans ?_
    exact out_1i v17 v24 v30 v36 v42 v44 v47 r 18 (j.val % 64) (by omega) (by omega) (by omega) _ rfl rfl
  · simp only [Matrix.cons_val_zero', Matrix.cons_val_succ']
    refine (slice2_apply ![0, 384] _ slices_S400x448_o0_384_S400x64 (ix2 r ⟨j.val % 64, by omega⟩) (ix2 r ⟨384 + j.val % 64, by omega⟩) (by simp) (by simp)).trans ?_
    exact out_lin v17 v24 v30 v36 v42 v44 v47 r 6 (j.val % 64) (by omega) trivial (by omega) _ rfl rfl
  · simp only [Matrix.cons_val_zero', Matrix.cons_val_succ']
    refine (slice2_apply ![0, 320] _ slices_S400x384_o0_320_S400x64 (ix2 r ⟨j.val % 64, by omega⟩) (ix2 r ⟨320 + j.val % 64, by omega⟩) (by simp) (by simp)).trans ?_
    exact out_1r v17 v24 v30 v36 v42 v44 v47 r 12 (j.val % 64) (by omega) (by omega) (by omega) _ rfl rfl
  · simp only [Matrix.cons_val_zero', Matrix.cons_val_succ']
    refine (slice2_apply ![0, 256] _ slices_S400x320_o0_256_S400x64 (ix2 r ⟨j.val % 64, by omega⟩) (ix2 r ⟨256 + j.val % 64, by omega⟩) (by simp) (by simp)).trans ?_
    exact out_2r v17 v24 v30 v36 v42 v44 v47 r 23 (j.val % 64) (by omega) (by omega) (by omega) _ rfl rfl

end

end Cert.KernelIdeal.So2Out

end
-- ==== Proof.KernBody.lean ====
/-
  The kernel body against the specification. Suppose the five blocks the body loads are what the launch stages:
    * the edge block x0 holds rows e0 .. e0+399 of the argument X, coefficient p channel c at column 64·p + c;
    * the weight blocks hold the transposes of W0, W1, W2, and the bias row holds b0.
  Then a gathered column 64·toM a + c of x0 is the m-primary coefficient xm X (e0 + r) a c, each row-times-column
  product of the body is one of the specification's sums (lin0 without its bias, dot1, dot2) term by term, and the
  body's result at (r, a, c) is outM X W0 b0 W1 W2 (e0 + r) a c. Only the arithmetic of column numbers is used:
  (64·T + c) / 64 = T and (64·T + c) % 64 = c for c < 64.
-/
import proofs.«115152_j70824010711660_2_alg».proof.Proof.KernCols
import proofs.«115152_j70824010711660_2_alg».proof.Proof.KernOut

noncomputable section

namespace Cert.KernelIdeal.So2Body

open Cert.KernelIdeal Cert.KernelIdeal.Gen Idealize.ShloMosaic Idealize.ShloMosaic.ValueIdx Cert.So2Spec
open Cert.KernelIdeal.So2Cols Cert.KernelIdeal.So2Out
open scoped BigOperators

/-- Inside the array, the entry at natural-number coordinates is the array at that index. -/
theorem at2_of_lt {n0 n1 : ℕ} (x : (⟨2, ![n0, n1]⟩ : Shape).Idx → EReal) (a b : ℕ) (h0 : a < n0) (h1 : b < n1) :
    at2 x a b = x (ix2 ⟨a, h0⟩ ⟨b, h1⟩) := dif_pos ⟨h0, h1⟩

/-- Every value of the table toM is a position 0..28. -/
theorem toM_lt (a : ℕ) (ha : a < 29) : toM a < 29 := by
  interval_cases a <;> decide

/-- What the five loaded blocks hold, in terms of the argument arrays; e0 is the first edge of the block. -/
structure BlockOf (x0 : Vec Ideal S400x1856 .f32) (w0 : Vec Ideal S448x448 .bf16) (b : Vec Ideal S1x448 .f32)
    (w1 : Vec Ideal S384x768 .bf16) (w2 : Vec Ideal S320x640 .bf16)
    (X : (⟨3, ![50000, 29, 64]⟩ : Shape).Idx → EReal) (W0 : (⟨2, ![448, 448]⟩ : Shape).Idx → EReal)
    (b0 : (⟨1, ![448]⟩ : Shape).Idx → EReal) (W1 : (⟨2, ![768, 384]⟩ : Shape).Idx → EReal)
    (W2 : (⟨2, ![640, 320]⟩ : Shape).Idx → EReal) (e0 : ℕ) : Prop where
  hx : ∀ r col, r < 400 → col < 1856 → at2 x0 r col = at3 X (e0 + r) (col / 64) (col % 64)
  hw0 : ∀ k q, k < 448 → q < 448 → at2 w0 k q = at2 W0 q k
  hb : ∀ q, q < 448 → at2 b 0 q = at1 b0 q
  hw1 : ∀ k o, k < 384 → o < 768 → at2 w1 k o = at2 W1 o k
  hw2 : ∀ k o, k < 320 → o < 640 → at2 w2 k o = at2 W2 o k

section
variable {x0 : Vec Ideal S400x1856 .f32} {w0 : Vec Ideal S448x448 .bf16} {b : Vec Ideal S1x448 .f32}
  {w1 : Vec Ideal S384x768 .bf16} {w2 : Vec Ideal S320x640 .bf16}
  {X : (⟨3, ![50000, 29, 64]⟩ : Shape).Idx → EReal} {W0 : (⟨2, ![448, 448]⟩ : Shape).Idx → EReal}
  {b0 : (⟨1, ![448]⟩ : Shape).Idx → EReal} {W1 : (⟨2, ![768, 384]⟩ : Shape).Idx → EReal}
  {W2 : (⟨2, ![640, 320]⟩ : Shape).Idx → EReal} {e0 : ℕ}

/-- A gathered column of the edge block is an m-primary coefficient of the edge. -/
theorem col_read (H : BlockOf x0 w0 b w1 w2 X W0 b0 W1 W2 e0) (a r c : ℕ) (ha : a < 29) (hr : r < 400) (hc : c < 64) :
    at2 x0 r (64 * toM a + c) = xm X (e0 + r) a c := by
  have hT := toM_lt a ha
  unfold xm
  rw [H.hx _ _ hr (by omega)]
  have e1 : (64 * toM a + c) / 64 = toM a := by omega
  have e2 : (64 * toM a + c) % 64 = c := by omega
  rw [e1, e2]

theorem rowdot_real1 (H : BlockOf x0 w0 b w1 w2 X W0 b0 W1 W2 e0) (r : Fin 400) (o : ℕ) (ho : o < 768) :
    rowdot (k0_pay3 (F := Ideal) x0) (k0_pay7 (F := Ideal) w1) r.val o = dot1 X W1 (e0 + r.val) 0 o := by
  unfold rowdot dot1
  refine Finset.sum_congr rfl fun k _ => ?_
  have hk := k.isLt
  congr 1
  · rw [at2_of_lt _ _ _ r.isLt k.isLt, pay3_apply, col_read H _ _ _ (by omega) r.isLt (by omega)]
  · rw [at2_of_lt _ _ _ k.isLt ho, pay7_apply]
    exact (at2_eq w1 _ _ _ rfl rfl).trans (H.hw1 _ _ k.isLt ho)

theorem rowdot_imag1 (H : BlockOf x0 w0 b w1 w2 X W0 b0 W1 W2 e0) (r : Fin 400) (o : ℕ) (ho : o < 768) :
    rowdot (k0_pay4 (F := Ideal) x0) (k0_pay7 (F := Ideal) w1) r.val o = dot1 X W1 (e0 + r.val) 1 o := by
  unfold rowdot dot1
  refine Finset.sum_congr rfl fun k _ => ?_
  have hk := k.isLt
  congr 1
  · rw [at2_of_lt _ _ _ r.isLt k.isLt, pay4_apply, col_read H _ _ _ (by omega) r.isLt (by omega)]
  · rw [at2_of_lt _ _ _ k.isLt ho, pay7_apply]
    exact (at2_eq w1 _ _ _ rfl rfl).trans (H.hw1 _ _ k.isLt ho)

theorem rowdot_real2 (H : BlockOf x0 w0 b w1 w2 X W0 b0 W1 W2 e0) (r : Fin 400) (o : ℕ) (ho : o < 640) :
    rowdot (k0_pay5 (F := Ideal) x0) (k0_pay8 (F := Ideal) w2) r.val o = dot2 X W2 (e0 + r.val) 0 o := by
  unfold rowdot dot2
  refine Finset.sum_congr rfl fun k _ => ?_
  have hk := k.isLt
  congr 1
  · rw [at2_of_lt _ _ _ r.isLt k.isLt, pay5_apply, col_read H _ _ _ (by omega) r.isLt (by omega)]
  · rw [at2_of_lt _ _ _ k.isLt ho, pay8_apply]
    exact (at2_eq w2 _ _ _ rfl rfl).trans (H.hw2 _ _ k.isLt ho)

theorem rowdot_imag2 (H : BlockOf x0 w0 b w1 w2 X W0 b0 W1 W2 e0) (r : Fin 400) (o : ℕ) (ho : o < 640) :
    rowdot (k0_pay6 (F := Ideal) x0) (k0_pay8 (F := Ideal) w2) r.val o = dot2 X W2 (e0 + r.val) 1 o := by
  unfold rowdot dot2
  refine Finset.sum_congr rfl fun k _ => ?_
  have hk := k.isLt
  congr 1
  · rw [at2_of_lt _ _ _ r.isLt k.isLt, pay6_apply, col_read H _ _ _ (by omega) r.isLt (by omega)]
  · rw [at2_of_lt _ _ _ k.isLt ho, pay8_apply]
    exact (at2_eq w2 _ _ _ rfl rfl).trans (H.hw2 _ _ k.isLt ho)

/-- Order 0: the body's payload at (r, q) is the specification's linear map with its bias. -/
theorem lin_eq (H : BlockOf x0 w0 b w1 w2 X W0 b0 W1 W2 e0) (r : Fin 400) (q : ℕ) (hq : q < 448) :
    at2 (k0_pay9 (F := Ideal) x0 w0 b) r.val q = lin0 X W0 b0 (e0 + r.val) q := by
  rw [at2_of_lt _ _ _ r.isLt hq, pay9_apply]
  unfold lin0
  congr 1
  · refine Finset.sum_congr rfl fun k _ => ?_
    have hk := k.isLt
    congr 1
    · rw [col_read H _ _ _ (by omega) r.isLt (by omega), Nat.zero_add]
    · exact H.hw0 _ _ k.isLt hq
  · exact H.hb _ hq

/-- THE BODY IS THE SPECIFICATION on its block: at row r, m-primary position a, channel c. -/
theorem body_eq_outM (H : BlockOf x0 w0 b w1 w2 X W0 b0 W1 W2 e0) (r : Fin 400) (a c : ℕ) (ha : a < 29) (hc : c < 64) :
    bodyOut (k0_pay3 (F := Ideal) x0) (k0_pay4 (F := Ideal) x0) (k0_pay5 (F := Ideal) x0) (k0_pay6 (F := Ideal) x0)
        (k0_pay7 (F := Ideal) w1) (k0_pay8 (F := Ideal) w2) (k0_pay9 (F := Ideal) x0 w0 b) r.val a c
      = outM X W0 b0 W1 W2 (e0 + r.val) a c := by
  unfold bodyOut outM
  by_cases h1 : a < 7
  · rw [if_pos h1, if_pos h1]
    exact lin_eq H r _ (by omega)
  rw [if_neg h1, if_neg h1]
  by_cases h2 : a < 13
  · rw [if_pos h2, if_pos h2, rowdot_real1 H r _ (by omega), rowdot_imag1 H r _ (by omega)]
  rw [if_neg h2, if_neg h2]
  by_cases h3 : a < 19
  · rw [if_pos h3, if_pos h3, rowdot_real1 H r _ (by omega), rowdot_imag1 H r _ (by omega)]
  rw [if_neg h3, if_neg h3]
  by_cases h4 : a < 24
  · rw [if_pos h4, if_pos h4, rowdot_real2 H r _ (by omega), rowdot_imag2 H r _ (by omega)]
  rw [if_neg h4, if_neg h4, rowdot_real2 H r _ (by omega), rowdot_imag2 H r _ (by omega)]

end

end Cert.KernelIdeal.So2Body

end
-- ==== Proof.KernBlocks.lean ====
/-
  From blocks to the whole array. The launch reshapes X to a matrix [50000, 1856] (edge e, column 64·p + c),
  transposes the three weight matrices and turns the bias into a row; grid point t stages rows 400·t .. 400·t + 399
  of the edge matrix and the whole of the other four, and writes back rows 400·t .. 400·t + 399 of the result.
  So the five staged blocks are "what the launch stages" in the sense of the body's lemma with first edge 400·t,
  the block point t writes back is block t of the matrix
      G2 (e, j) = outM … e (fromM (j / 64)) (j % 64),
  the 125 blocks tile the 50000 rows, and the result matrix after the run is G2.
-/
import proofs.«115152_j70824010711660_2_alg».proof.Proof.Gen.KernelIdeal.Frame
import proofs.«115152_j70824010711660_2_alg».proof.Proof.KernBody
import Idealize.ShloMosaic.Lib.Pipeline.Value
import Idealize.ShloMosaic.Lib.ValueLayout
import Idealize.ShloMosaic.Lib.StableHlo.Run

set_option maxRecDepth 16384

noncomputable section

namespace Cert.KernelIdeal.So2Blocks

open Cert.KernelIdeal Cert.KernelIdeal.Gen Idealize.ShloMosaic Idealize.ShloMosaic.TcCoe Idealize.ShloMosaic.ValueIdx Cert.So2Spec
open Idealize.SL.Sem Idealize.ShloMosaic.StableHlo
open Cert.KernelIdeal.So2Cols Cert.KernelIdeal.So2Out Cert.KernelIdeal.So2Body

variable (m : (ℓ : Loc nD τ sig) → Buf (Elt Ideal) ℓ)

/-- The argument arrays of core c as the launch finds them. -/
abbrev aX (c : Dev nD) : FVec Ideal S50000x29x64 .f32 := m ((c : Thread nD τ).loc main_arg0)
abbrev aW0 (c : Dev nD) : FVec Ideal S448x448 .f32 := m ((c : Thread nD τ).loc main_arg2)
abbrev ab0 (c : Dev nD) : FVec Ideal S448 .f32 := m ((c : Thread nD τ).loc main_arg3)
abbrev aW1 (c : Dev nD) : FVec Ideal S768x384 .f32 := m ((c : Thread nD τ).loc main_arg4)
abbrev aW2 (c : Dev nD) : FVec Ideal S640x320 .f32 := m ((c : Thread nD τ).loc main_arg5)

/-! ## The launch's host operations before the region -/

theorem V_v0 (c : Dev nD) : (V m c main_v0 : S50000x1856.Idx → EReal)
    = shapeCast S50000x1856 (aX m c) shapeCasts_S50000x29x64_S50000x1856 := by
  show StableHlo.after hostOps0 (fun b => m (c, b)) (Proc.devRef .tc main_v0) = _
  after_results
  rfl

theorem V_v2 (c : Dev nD) : (V m c main_v2 : S448x448.Idx → EReal)
    = truncf (F := Ideal) .bf16 (transpose S448x448 [1, 0] (aW0 m c) transposes_S448x448_S448x448_1_0) bitsLt_bf16_f32 := by
  show StableHlo.after hostOps0 (fun b => m (c, b)) (Proc.devRef .tc main_v2) = _
  after_results

theorem V_v4 (c : Dev nD) : (V m c main_v4 : S384x768.Idx → EReal)
    = truncf (F := Ideal) .bf16 (transpose S384x768 [1, 0] (aW1 m c) transposes_S768x384_S384x768_1_0) bitsLt_bf16_f32 := by
  show StableHlo.after hostOps0 (fun b => m (c, b)) (Proc.devRef .tc main_v4) = _
  after_results

theorem V_v6 (c : Dev nD) : (V m c main_v6 : S320x640.Idx → EReal)
    = truncf (F := Ideal) .bf16 (transpose S320x640 [1, 0] (aW2 m c) transposes_S640x320_S320x640_1_0) bitsLt_bf16_f32 := by
  show StableHlo.after hostOps0 (fun b => m (c, b)) (Proc.devRef .tc main_v6) = _
  after_results

theorem V_v7 (c : Dev nD) : (V m c main_v7 : S1x448.Idx → EReal)
    = shapeCast S1x448 (ab0 m c) shapeCasts_S448_S1x448 := by
  show StableHlo.after hostOps0 (fun b => m (c, b)) (Proc.devRef .tc main_v7) = _
  after_results
  rfl

/-! ## The printed index maps over the grid -/

theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-! ## The staged blocks are what the body's lemma asks for -/

theorem blk0_read (c : Dev nD) (t : Fin cfg0.N) (r col : ℕ) (hr : r < 400) (hcol : col < 1856) :
    at2 (n0 := 400) (n1 := 1856) (iblk m c 0 t) r col = at3 (aX m c) (400 * t.val + r) (col / 64) (col % 64) := by
  rw [at2_of_lt _ _ _ hr hcol]
  show V m c main_v0 (((cfg0.win 0).blk t).view.emb (ix2 ⟨r, hr⟩ ⟨col, hcol⟩)) = _
  rw [V_v0]
  obtain ⟨e0, e1, -⟩ := idx_facts t
  have ht : t.val < 125 := Nat.lt_of_lt_of_eq t.isLt N_0
  refine (shapeCast_apply _ _ _ (ix3 ⟨400 * t.val + r, by omega⟩ ⟨col / 64, by omega⟩ ⟨col % 64, by omega⟩) ?_).trans
    (at3_eq _ _ _ _ _ rfl rfl rfl)
  rw [Shape.rowMajor_val_three, Shape.rowMajor_val_two]
  show ((400 * t.val + r) * 29 + col / 64) * 64 + col % 64
    = (win0_0.index t (0 : Fin 2) * 400 + 1 * r) * 1856 + (win0_0.index t (1 : Fin 2) * 1856 + 1 * col)
  omega

theorem blk1_read (c : Dev nD) (t : Fin cfg0.N) (k q : ℕ) (hk : k < 448) (hq : q < 448) :
    at2 (n0 := 448) (n1 := 448) (iblk m c 1 t) k q = at2 (aW0 m c) q k := by
  rw [at2_of_lt _ _ _ hk hq]
  show V m c main_v2 (((cfg0.win 1).blk t).view.emb (ix2 ⟨k, hk⟩ ⟨q, hq⟩)) = _
  rw [V_v2]
  obtain ⟨-, -, e0, e1, -⟩ := idx_facts t
  show transpose S448x448 [1, 0] (aW0 m c) transposes_S448x448_S448x448_1_0 _ = _
  refine (transpose_apply [1, 0] _ _ _ (ix2 ⟨q, hq⟩ ⟨k, hk⟩) ?_).trans (at2_eq _ _ _ _ rfl rfl)
  intro a
  match a with
  | ⟨0, _⟩ => show k = win0_1.index t (0 : Fin 2) * 448 + 1 * k; omega
  | ⟨1, _⟩ => show q = win0_1.index t (1 : Fin 2) * 448 + 1 * q; omega

theorem blk2_read (c : Dev nD) (t : Fin cfg0.N) (q : ℕ) (hq : q < 448) :
    at2 (n0 := 1) (n1 := 448) (iblk m c 2 t) 0 q = at1 (ab0 m c) q := by
  rw [at2_of_lt _ _ _ Nat.one_pos hq]
  show V m c main_v7 (((cfg0.win 2).blk t).view.emb (ix2 ⟨0, Nat.one_pos⟩ ⟨q, hq⟩)) = _
  rw [V_v7]
  obtain ⟨-, -, -, -, e0, e1, -⟩ := idx_facts t
  refine (shapeCast_apply _ _ _ (ix1 ⟨q, hq⟩) ?_).trans (at1_eq _ _ _ rfl)
  rw [Shape.rowMajor_val_one, Shape.rowMajor_val_two]
  show q = (win0_2.index t (0 : Fin 2) * 1 + 1 * 0) * 448 + (win0_2.index t (1 : Fin 2) * 448 + 1 * q)
  omega

theorem blk3_read (c : Dev nD) (t : Fin cfg0.N) (k o : ℕ) (hk : k < 384) (ho : o < 768) :
    at2 (n0 := 384) (n1 := 768) (iblk m c 3 t) k o = at2 (aW1 m c) o k := by
  rw [at2_of_lt _ _ _ hk ho]
  show V m c main_v4 (((cfg0.win 3).blk t).view.emb (ix2 ⟨k, hk⟩ ⟨o, ho⟩)) = _
  rw [V_v4]
  obtain ⟨-, -, -, -, -, -, e0, e1, -⟩ := idx_facts t
  show transpose S384x768 [1, 0] (aW1 m c) transposes_S768x384_S384x768_1_0 _ = _
  refine (transpose_apply [1, 0] _ _ _ (ix2 ⟨o, ho⟩ ⟨k, hk⟩) ?_).trans (at2_eq _ _ _ _ rfl rfl)
  intro a
  match a with
  | ⟨0, _⟩ => show k = win0_3.index t (0 : Fin 2) * 384 + 1 * k; omega
  | ⟨1, _⟩ => show o = win0_3.index t (1 : Fin 2) * 768 + 1 * o; omega

theorem blk4_read (c : Dev nD) (t : Fin cfg0.N) (k o : ℕ) (hk : k < 320) (ho : o < 640) :
    at2 (n0 := 320) (n1 := 640) (iblk m c 4 t) k o = at2 (aW2 m c) o k := by
  rw [at2_of_lt _ _ _ hk ho]
  show V m c main_v6 (((cfg0.win 4).blk t).view.emb (ix2 ⟨k, hk⟩ ⟨o, ho⟩)) = _
  rw [V_v6]
  obtain ⟨-, -, -, -, -, -, -, -, e0, e1, -⟩ := idx_facts t
  show transpose S320x640 [1, 0] (aW2 m c) transposes_S640x320_S320x640_1_0 _ = _
  refine (transpose_apply [1, 0] _ _ _ (ix2 ⟨o, ho⟩ ⟨k, hk⟩) ?_).trans (at2_eq _ _ _ _ rfl rfl)
  intro a
  match a with
  | ⟨0, _⟩ => show k = win0_4.index t (0 : Fin 2) * 320 + 1 * k; omega
  | ⟨1, _⟩ => show o = win0_4.index t (1 : Fin 2) * 640 + 1 * o; omega

/-- The five blocks staged at point t, with first edge 400·t. -/
theorem blockOf (c : Dev nD) (t : Fin cfg0.N) :
    BlockOf (iblk m c 0 t) (iblk m c 1 t) (iblk m c 2 t) (iblk m c 3 t) (iblk m c 4 t)
      (aX m c) (aW0 m c) (ab0 m c) (aW1 m c) (aW2 m c) (400 * t.val) where
  hx := fun r col hr hcol => blk0_read m c t r col hr hcol
  hw0 := fun k q hk hq => blk1_read m c t k q hk hq
  hb := fun q hq => blk2_read m c t q hq
  hw1 := fun k o hk ho => blk3_read m c t k o hk ho
  hw2 := fun k o hk ho => blk4_read m c t k o hk ho

/-! ## What a point writes back, the cover, the whole array -/

/-- Every value of the table fromM is a position 0..28. -/
theorem fromM_lt (p : ℕ) (hp : p < 29) : fromM p < 29 := by
  interval_cases p <;> decide

/-- The result as a matrix: edge e, column j. -/
def G2 (X : (⟨3, ![50000, 29, 64]⟩ : Shape).Idx → EReal) (W0 : (⟨2, ![448, 448]⟩ : Shape).Idx → EReal)
    (b0 : (⟨1, ![448]⟩ : Shape).Idx → EReal) (W1 : (⟨2, ![768, 384]⟩ : Shape).Idx → EReal)
    (W2 : (⟨2, ![640, 320]⟩ : Shape).Idx → EReal) : S50000x1856.Idx → EReal :=
  fun i => outM X W0 b0 W1 W2 (i 0).val (fromM ((i 1).val / 64)) ((i 1).val % 64)

theorem hz : (![0, 0] : Fin 2 → Nat) = fun _ => 0 := funext fun a => by fin_cases a <;> rfl

/-- Point t writes back block t of G2. -/
theorem flushed_eq (c : Dev nD) (t : Fin cfg0.N) :
    (dats m 0 c).flushed 5 t
      = ((cfg0.win 5).blk t).view.read (Elt Ideal) (G2 (aX m c) (aW0 m c) (ab0 m c) (aW1 m c) (aW2 m c)) := by
  show (cfg0.win 5).cut (grid0.coords t) ((dats m 0 c).after 5 t) = _
  rw [after0_5]
  unfold out0_5
  rw [View.canon_unit_zero hz]
  simp only [View.ld_unit_zero (S := S400x1856) hz, View.ld_unit_zero (S := S448x448) hz, View.ld_unit_zero (S := S1x448) hz,
    View.ld_unit_zero (S := S384x768) hz, View.ld_unit_zero (S := S320x640) hz]
  funext y
  obtain ⟨r, j, rfl⟩ : ∃ (r : Fin 400) (j : Fin 1856), y = ix2 r j := ⟨y 0, y 1, eq_ix2 y⟩
  show k0_pay1 (F := Ideal) (k0_pay3 (iblk m c 0 t)) (k0_pay4 (iblk m c 0 t)) (k0_pay5 (iblk m c 0 t)) (k0_pay6 (iblk m c 0 t))
      (k0_pay7 (iblk m c 3 t)) (k0_pay8 (iblk m c 4 t)) (k0_pay9 (iblk m c 0 t) (iblk m c 1 t) (iblk m c 2 t)) (ix2 r j)
    = G2 (aX m c) (aW0 m c) (ab0 m c) (aW1 m c) (aW2 m c) (((cfg0.win 5).blk t).view.emb (ix2 r j))
  rw [pay1_apply, body_eq_outM (blockOf m c t) r _ _ (fromM_lt _ (by have := j.isLt; omega)) (Nat.mod_lt _ (by norm_num))]
  obtain ⟨-, -, -, -, -, -, -, -, -, -, e0, e1⟩ := idx_facts t
  unfold G2
  have h0 : ((((cfg0.win 5).blk t).view.emb (ix2 r j)) 0).val = 400 * t.val + r.val := by
    show win0_5.index t (0 : Fin 2) * 400 + 1 * r.val = _
    omega
  have h1 : ((((cfg0.win 5).blk t).view.emb (ix2 r j)) 1).val = j.val := by
    show win0_5.index t (1 : Fin 2) * 1856 + 1 * j.val = _
    omega
  rw [h0, h1]

/-- An index is in point t's block iff its row is one of the block's 400 rows. -/
theorem mem_blk (t : Fin cfg0.N) (i : S50000x1856.Idx) :
    i ∈ ((cfg0.win 5).blk t).view.set ↔ ∀ a : Fin 2, win0_5.index t a * S400x1856.size a ≤ (i a).val
      ∧ (i a).val < win0_5.index t a * S400x1856.size a + S400x1856.size a := by
  show i ∈ ((View.whole main_v8).slice (win0_5.rect t)).set ↔ _
  rw [View.set_slice_whole, Rect.mem_set_unit]
  exact Iff.rfl

/-- The 125 blocks of 400 rows tile the 50000 rows: row e is in block e / 400. -/
theorem cover (i : S50000x1856.Idx) : ∃ t : Fin cfg0.N, (cfg0.win 5).flush t = true ∧ i ∈ ((cfg0.win 5).blk t).view.set := by
  have hi0 : (i 0).val < 50000 := (i 0).isLt
  have hi1 : (i 1).val < 1856 := (i 1).isLt
  have hN : cfg0.N = 125 := N_0
  let t : Fin cfg0.N := ⟨(i 0).val / 400, by rw [hN]; omega⟩
  obtain ⟨-, -, -, -, -, -, -, -, -, -, e0, e1⟩ := idx_facts t
  have ht : t.val = (i 0).val / 400 := rfl
  refine ⟨t, flush0_5 t, ?_⟩
  rw [mem_blk]
  intro a
  match a with
  | ⟨0, _⟩ =>
    show win0_5.index t (0 : Fin 2) * 400 ≤ (i 0).val ∧ (i 0).val < win0_5.index t (0 : Fin 2) * 400 + 400
    omega
  | ⟨1, _⟩ =>
    show win0_5.index t (1 : Fin 2) * 1856 ≤ (i 1).val ∧ (i 1).val < win0_5.index t (1 : Fin 2) * 1856 + 1856
    omega

/-- THE RESULT MATRIX after the run. -/
theorem final (c : Dev nD) :
    (dats m 0 c).arrAt 5 cfg0.N = G2 (aX m c) (aW0 m c) (ab0 m c) (aW1 m c) (aW2 m c) :=
  (dats m 0 c).arrAt_eq_of_cover 5 _ (fun t _ => flushed_eq m c t) cover

end Cert.KernelIdeal.So2Blocks

end
-- ==== Proof.KernTail.lean ====
/-
  The end of the kernel program: after its one region, @main reshapes the region's result matrix, 50000 rows of
  1856 columns, into the array of 50000 edges, 29 coefficients, 64 channels.

  Row e of the result matrix holds 29 groups of 64 columns; the final reshape reads group p, column c of row e as
  the entry (e, p, c): both positions are 1856 * e + 64 * p + c in row-major order.

  * tail_read: what the returned buffer holds after the lines that follow the region is that reshape of the
    region's result array.
  * reshape_cols: a matrix whose entry (e, k) is a function of e, k / 64 and k % 64 reshapes to the array whose
    entry (e, p, c) is that function of e, p, c.
-/
import proofs.«115152_j70824010711660_2_alg».proof.Proof.Gen.KernelIdeal.Frame
import Idealize.ShloMosaic.Lib.Pipeline.Value
import Idealize.ShloMosaic.Lib.ValueIdx
import Idealize.ShloMosaic.Lib.StableHlo.Run

noncomputable section

namespace Cert.KernelIdeal.So2Tail

open Cert.KernelIdeal Cert.KernelIdeal.Gen Idealize.ShloMosaic Idealize.ShloMosaic.TcCoe Idealize.ShloMosaic.ValueIdx Idealize.SL.Sem Idealize.ShloMosaic.StableHlo

/-- A matrix of 50000 rows and 1856 columns whose entry (e, k) is f e (k / 64) (k % 64) reshapes to the array
    [50000, 29, 64] whose entry (e, p, c) is f e p c. -/
theorem reshape_cols (h : S50000x1856.ShapeCasts S50000x29x64) (f : ℕ → ℕ → ℕ → EReal) :
    shapeCast S50000x29x64 (fun i : S50000x1856.Idx => f (i 0).val ((i 1).val / 64) ((i 1).val % 64)) h
      = fun i : S50000x29x64.Idx => f (i 0).val (i 1).val (i 2).val := by
  funext i
  have h0 : (i 0).val < 50000 := (i 0).isLt
  have h1 : (i 1).val < 29 := (i 1).isLt
  have h2 : (i 2).val < 64 := (i 2).isLt
  have hk : 64 * (i 1).val + (i 2).val < 1856 := by omega
  rw [shapeCast_apply _ h i (ix2 ⟨(i 0).val, h0⟩ ⟨64 * (i 1).val + (i 2).val, hk⟩)
    (by
      rw [Shape.rowMajor_val_two, Shape.rowMajor_val_three]
      show (i 0).val * 1856 + (64 * (i 1).val + (i 2).val) = ((i 0).val * 29 + (i 1).val) * 64 + (i 2).val
      omega)]
  show f (i 0).val ((64 * (i 1).val + (i 2).val) / 64) ((64 * (i 1).val + (i 2).val) % 64) = _
  have e1 : (64 * (i 1).val + (i 2).val) / 64 = (i 1).val := by omega
  have e2 : (64 * (i 1).val + (i 2).val) % 64 = (i 2).val := by omega
  rw [e1, e2]

variable (m : (ℓ : Loc nD τ sig) → Buf (Elt Ideal) ℓ)

/-- After the lines that follow the region, the returned buffer holds the reshape of the region's result array. -/
theorem tail_read (c : Dev nD) :
    (Pipeline.afterTail₀ cfgs (dats m) 0 (V0 m) [hostOps1] c main_v9 : S50000x29x64.Idx → EReal)
      = shapeCast S50000x29x64 ((dats m 0 c).arrAt 5 cfg0.N) shapeCasts_S50000x1856_S50000x29x64 := by
  unfold Pipeline.afterTail₀
  show StableHlo.after hostOps1 _ (Proc.devRef .tc main_v9) = _
  after_results
  funext i
  have hA := Pipeline.withArrays_arr spec0 launch0.win.arr_inj c (V0 m c) (fun w => (dats m 0 c).arrAt w cfg0.N) 5
  show shapeCast S50000x29x64 (Pipeline.withArrays spec0 c (V0 m c) (fun w => (dats m 0 c).arrAt w cfg0.N)
    (Proc.devRef .tc (Pipeline.arrRef spec0 5))) shapeCasts_S50000x1856_S50000x29x64 i = _
  rw [hA]

end Cert.KernelIdeal.So2Tail

end
-- ==== Proof.KernRun.lean ====
/-
  The kernel program's run, read. After the region the result matrix is G2 (edge e, column j); the program's last
  operation reshapes it to [50000, 29, 64], reading column group p, column c of row e as entry (e, p, c). Since
  G2 (e, 64·p + c) = outM … e (fromM p) c, the program's result is the specification G of its argument arrays, and
  the argument arrays end as they began.
-/
import proofs.«115152_j70824010711660_2_alg».proof.Proof.KernBlocks
import proofs.«115152_j70824010711660_2_alg».proof.Proof.KernTail

noncomputable section

namespace Cert.KernelIdeal.So2Run

open Cert.KernelIdeal Cert.KernelIdeal.Gen Idealize.ShloMosaic Idealize.ShloMosaic.TcCoe Idealize.ShloMosaic.ValueIdx Cert.So2Spec
open Idealize.SL.Sem
open Cert.KernelIdeal.So2Blocks Cert.KernelIdeal.So2Tail

variable (m : (ℓ : Loc nD τ sig) → Buf (Elt Ideal) ℓ) (ρ : Dev nD → PrngReg)

/-- The program's result on core c is the specification of the argument arrays. -/
theorem result_eq (c : Dev nD) :
    (Pipeline.afterTail₀ cfgs (dats m) 0 (V0 m) [hostOps1] c main_v9 : S50000x29x64.Idx → EReal)
      = G (aX m c) (aW0 m c) (ab0 m c) (aW1 m c) (aW2 m c) := by
  rw [tail_read, final]
  exact reshape_cols _ (fun e p c' => outM (aX m c) (aW0 m c) (ab0 m c) (aW1 m c) (aW2 m c) e (fromM p) c')

/-- Every weakly fair execution of the kernel program terminates with its result at G of the arguments and the
    arguments unchanged. -/
theorem run : θ_run defs (onTc (τ := τ) (main (F := Ideal))) ⟨m, fun _ => 0, ρ⟩ fun r => ∀ c : Dev nD,
      r.2.mem ((c.tc : Thread nD τ).loc main_v9) = G (aX m c) (aW0 m c) (ab0 m c) (aW1 m c) (aW2 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    ⟨((h c).2 main_v9 (Pipeline.mem_restRefs_of main_v9 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.KernelIdeal.So2Run

end
-- ==== Proof.RefStages.lean ====
/-
  The values the reference program computes, one definition per operation its result depends on.

  Each definition is the operation's pure function applied to the values of its operands, with the operands, the
  shapes and the side-condition fields exactly as the program prints them, read where a float is an extended real.
  Each value is a function of exactly the argument arrays it depends on: X the coefficients [50000, 29, 64],
  W0 [448, 448] and b0 [448] the order-0 weights and bias, W1 [768, 384] and W2 [640, 320] the order-1 and order-2
  weights. The two index tables depend on no argument. Nothing is proved here.
-/
import proofs.«115152_j70824010711660_2_alg».proof.ReferenceIdeal
import Idealize.ShloMosaic.PureOps.Ideal

noncomputable section

namespace Cert.ReferenceIdeal.RefStages

open Cert.ReferenceIdeal Cert.ReferenceIdeal.Facts₀ Idealize.ShloMosaic

variable [Cert.ReferenceIdeal.Facts]

/-- %0..%3: the first index table as a column (the select's condition is the constant false). -/
def tblTo : (⟨S29x1, .i32⟩ : BufTy).Contents (Elt Ideal) :=
  broadcastInDim S29x1 ![0] bcast_S29_S29x1_0
    (select (constantI S29 1 0#1 : (⟨S29, .i1⟩ : BufTy).Contents (Elt Ideal))
      (addi (fun i => lit0 (S29.rowMajor i) : (⟨S29, .i32⟩ : BufTy).Contents (Elt Ideal))
        (broadcastInDim S29 ![] bcast_S_S29 (constantI S_ 32 29#32 : (⟨S_, .i32⟩ : BufTy).Contents (Elt Ideal)) : (⟨S29, .i32⟩ : BufTy).Contents (Elt Ideal)) : (⟨S29, .i32⟩ : BufTy).Contents (Elt Ideal))
      (fun i => lit0 (S29.rowMajor i) : (⟨S29, .i32⟩ : BufTy).Contents (Elt Ideal)) : (⟨S29, .i32⟩ : BufTy).Contents (Elt Ideal))

/-- %40..%43: the second index table as a column (the select's condition is the constant false). -/
def tblFrom : (⟨S29x1, .i32⟩ : BufTy).Contents (Elt Ideal) :=
  broadcastInDim S29x1 ![0] bcast_S29_S29x1_0
    (select (constantI S29 1 0#1 : (⟨S29, .i1⟩ : BufTy).Contents (Elt Ideal))
      (addi (fun i => lit1 (S29.rowMajor i) : (⟨S29, .i32⟩ : BufTy).Contents (Elt Ideal))
        (broadcastInDim S29 ![] bcast_S_S29 (constantI S_ 32 29#32 : (⟨S_, .i32⟩ : BufTy).Contents (Elt Ideal)) : (⟨S29, .i32⟩ : BufTy).Contents (Elt Ideal)) : (⟨S29, .i32⟩ : BufTy).Contents (Elt Ideal))
      (fun i => lit1 (S29.rowMajor i) : (⟨S29, .i32⟩ : BufTy).Contents (Elt Ideal)) : (⟨S29, .i32⟩ : BufTy).Contents (Elt Ideal))

/-- %4: the rows of axis 1 picked by the first table -/
def v4 (X : (⟨S50000x29x64, .f32⟩ : BufTy).Contents (Elt Ideal)) :
    (⟨S50000x29x64, .f32⟩ : BufTy).Contents (Elt Ideal) :=
  Host.gather gather_S50000x29x64_S29x1_S50000x29x64_02_1_n_n_1_1_50000164 X tblTo

/-- %5: rows 0..6 -/
def v5 (X : (⟨S50000x29x64, .f32⟩ : BufTy).Contents (Elt Ideal)) :
    (⟨S50000x7x64, .f32⟩ : BufTy).Contents (Elt Ideal) :=
  extractStridedSlice S50000x7x64 ![0, 0, 0] (v4 X) slices_S50000x29x64_S50000x7x64_0_0_0

/-- %6: read as [50000, 448] -/
def v6 (X : (⟨S50000x29x64, .f32⟩ : BufTy).Contents (Elt Ideal)) :
    (⟨S50000x448, .f32⟩ : BufTy).Contents (Elt Ideal) :=
  shapeCast S50000x448 (v5 X) shapeCasts_S50000x7x64_S50000x448

/-- %7: the transpose of the order-0 weights -/
def v7 (W0 : (⟨S448x448, .f32⟩ : BufTy).Contents (Elt Ideal)) :
    (⟨S448x448, .f32⟩ : BufTy).Contents (Elt Ideal) :=
  transpose S448x448 [1, 0] W0 transposes_S448x448_S448x448_1_0

/-- %8: the order-0 product -/
def v8 (X : (⟨S50000x29x64, .f32⟩ : BufTy).Contents (Elt Ideal)) (W0 : (⟨S448x448, .f32⟩ : BufTy).Contents (Elt Ideal)) :
    (⟨S50000x448, .f32⟩ : BufTy).Contents (Elt Ideal) :=
  Host.dotGeneral (F := Ideal) (φ₁ := .f32) (φ₂ := .f32) dot_S50000x448_S448x448_S50000x448_1_0_0_1_n_n none (v6 X) (v7 W0)

/-- %9: the bias as one row -/
def v9 (b0 : (⟨S448, .f32⟩ : BufTy).Contents (Elt Ideal)) :
    (⟨S1x448, .f32⟩ : BufTy).Contents (Elt Ideal) :=
  broadcastInDim S1x448 ![1] bcast_S448_S1x448_1 b0

/-- %10: the bias on every edge -/
def v10 (b0 : (⟨S448, .f32⟩ : BufTy).Contents (Elt Ideal)) :
    (⟨S50000x448, .f32⟩ : BufTy).Contents (Elt Ideal) :=
  broadcastInDim S50000x448 ![0, 1] bcast_S1x448_S50000x448_0_1 (v9 b0)

/-- %11: product plus bias -/
def v11 (X : (⟨S50000x29x64, .f32⟩ : BufTy).Contents (Elt Ideal)) (W0 : (⟨S448x448, .f32⟩ : BufTy).Contents (Elt Ideal)) (b0 : (⟨S448, .f32⟩ : BufTy).Contents (Elt Ideal)) :
    (⟨S50000x448, .f32⟩ : BufTy).Contents (Elt Ideal) :=
  addf (F := Ideal) (φ := .f32) (v8 X W0) (v10 b0)

/-- %12: read as [50000, 7, 64] -/
def v12 (X : (⟨S50000x29x64, .f32⟩ : BufTy).Contents (Elt Ideal)) (W0 : (⟨S448x448, .f32⟩ : BufTy).Contents (Elt Ideal)) (b0 : (⟨S448, .f32⟩ : BufTy).Contents (Elt Ideal)) :
    (⟨S50000x7x64, .f32⟩ : BufTy).Contents (Elt Ideal) :=
  shapeCast S50000x7x64 (v11 X W0 b0) shapeCasts_S50000x448_S50000x7x64

/-- %13: rows 7..18 -/
def v13 (X : (⟨S50000x29x64, .f32⟩ : BufTy).Contents (Elt Ideal)) :
    (⟨S50000x12x64, .f32⟩ : BufTy).Contents (Elt Ideal) :=
  extractStridedSlice S50000x12x64 ![0, 7, 0] (v4 X) slices_S50000x29x64_S50000x12x64_0_7_0

/-- %14: read as [50000, 2, 384] -/
def v14 (X : (⟨S50000x29x64, .f32⟩ : BufTy).Contents (Elt Ideal)) :
    (⟨S50000x2x384, .f32⟩ : BufTy).Contents (Elt Ideal) :=
  shapeCast S50000x2x384 (v13 X) shapeCasts_S50000x12x64_S50000x2x384

/-- %15: both blocks against every row of the order-1 weights -/
def v15 (X : (⟨S50000x29x64, .f32⟩ : BufTy).Contents (Elt Ideal)) (W1 : (⟨S768x384, .f32⟩ : BufTy).Contents (Elt Ideal)) :
    (⟨S50000x2x768, .f32⟩ : BufTy).Contents (Elt Ideal) :=
  Host.dotGeneral (F := Ideal) (φ₁ := .f32) (φ₂ := .f32) dot_S50000x2x384_S768x384_S50000x2x768_2_1_01_0_n_n none (v14 X) W1

/-- %16: the first half of the rows -/
def v16 (X : (⟨S50000x29x64, .f32⟩ : BufTy).Contents (Elt Ideal)) (W1 : (⟨S768x384, .f32⟩ : BufTy).Contents (Elt Ideal)) :
    (⟨S50000x2x384, .f32⟩ : BufTy).Contents (Elt Ideal) :=
  extractStridedSlice S50000x2x384 ![0, 0, 0] (v15 X W1) slices_S50000x2x768_S50000x2x384_0_0_0

/-- %17: the second half of the rows -/
def v17 (X : (⟨S50000x29x64, .f32⟩ : BufTy).Contents (Elt Ideal)) (W1 : (⟨S768x384, .f32⟩ : BufTy).Contents (Elt Ideal)) :
    (⟨S50000x2x384, .f32⟩ : BufTy).Contents (Elt Ideal) :=
  extractStridedSlice S50000x2x384 ![0, 0, 384] (v15 X W1) slices_S50000x2x768_S50000x2x384_0_0_384

/-- %18 -/
def v18 (X : (⟨S50000x29x64, .f32⟩ : BufTy).Contents (Elt Ideal)) (W1 : (⟨S768x384, .f32⟩ : BufTy).Contents (Elt Ideal)) :
    (⟨S50000x1x384, .f32⟩ : BufTy).Contents (Elt Ideal) :=
  extractStridedSlice S50000x1x384 ![0, 0, 0] (v16 X W1) slices_S50000x2x384_S50000x1x384_0_0_0

/-- %19 -/
def v19 (X : (⟨S50000x29x64, .f32⟩ : BufTy).Contents (Elt Ideal)) (W1 : (⟨S768x384, .f32⟩ : BufTy).Contents (Elt Ideal)) :
    (⟨S50000x1x384, .f32⟩ : BufTy).Contents (Elt Ideal) :=
  extractStridedSlice S50000x1x384 ![0, 1, 0] (v17 X W1) slices_S50000x2x384_S50000x1x384_0_1_0

/-- %20: the real block of the output -/
def v20 (X : (⟨S50000x29x64, .f32⟩ : BufTy).Contents (Elt Ideal)) (W1 : (⟨S768x384, .f32⟩ : BufTy).Contents (Elt Ideal)) :
    (⟨S50000x1x384, .f32⟩ : BufTy).Contents (Elt Ideal) :=
  subf (F := Ideal) (φ := .f32) (v18 X W1) (v19 X W1)

/-- %21 -/
def v21 (X : (⟨S50000x29x64, .f32⟩ : BufTy).Contents (Elt Ideal)) (W1 : (⟨S768x384, .f32⟩ : BufTy).Contents (Elt Ideal)) :
    (⟨S50000x1x384, .f32⟩ : BufTy).Contents (Elt Ideal) :=
  extractStridedSlice S50000x1x384 ![0, 1, 0] (v16 X W1) slices_S50000x2x384_S50000x1x384_0_1_0

/-- %22 -/
def v22 (X : (⟨S50000x29x64, .f32⟩ : BufTy).Contents (Elt Ideal)) (W1 : (⟨S768x384, .f32⟩ : BufTy).Contents (Elt Ideal)) :
    (⟨S50000x1x384, .f32⟩ : BufTy).Contents (Elt Ideal) :=
  extractStridedSlice S50000x1x384 ![0, 0, 0] (v17 X W1) slices_S50000x2x384_S50000x1x384_0_0_0

/-- %23: the imaginary block of the output -/
def v23 (X : (⟨S50000x29x64, .f32⟩ : BufTy).Contents (Elt Ideal)) (W1 : (⟨S768x384, .f32⟩ : BufTy).Contents (Elt Ideal)) :
    (⟨S50000x1x384, .f32⟩ : BufTy).Contents (Elt Ideal) :=
  addf (F := Ideal) (φ := .f32) (v21 X W1) (v22 X W1)

/-- %24: real block then imaginary block -/
def v24 (X : (⟨S50000x29x64, .f32⟩ : BufTy).Contents (Elt Ideal)) (W1 : (⟨S768x384, .f32⟩ : BufTy).Contents (Elt Ideal)) :
    (⟨S50000x2x384, .f32⟩ : BufTy).Contents (Elt Ideal) :=
  concatenate S50000x2x384 1 [⟨S50000x1x384, v20 X W1⟩, ⟨S50000x1x384, v23 X W1⟩] concatenates_S50000x1x384_S50000x1x384_S50000x2x384_d1

/-- %25: read as [50000, 12, 64] -/
def v25 (X : (⟨S50000x29x64, .f32⟩ : BufTy).Contents (Elt Ideal)) (W1 : (⟨S768x384, .f32⟩ : BufTy).Contents (Elt Ideal)) :
    (⟨S50000x12x64, .f32⟩ : BufTy).Contents (Elt Ideal) :=
  shapeCast S50000x12x64 (v24 X W1) shapeCasts_S50000x2x384_S50000x12x64

/-- %26: rows 19..28 -/
def v26 (X : (⟨S50000x29x64, .f32⟩ : BufTy).Contents (Elt Ideal)) :
    (⟨S50000x10x64, .f32⟩ : BufTy).Contents (Elt Ideal) :=
  extractStridedSlice S50000x10x64 ![0, 19, 0] (v4 X) slices_S50000x29x64_S50000x10x64_0_19_0

/-- %27: read as [50000, 2, 320] -/
def v27 (X : (⟨S50000x29x64, .f32⟩ : BufTy).Contents (Elt Ideal)) :
    (⟨S50000x2x320, .f32⟩ : BufTy).Contents (Elt Ideal) :=
  shapeCast S50000x2x320 (v26 X) shapeCasts_S50000x10x64_S50000x2x320

/-- %28: both blocks against every row of the order-2 weights -/
def v28 (X : (⟨S50000x29x64, .f32⟩ : BufTy).Contents (Elt Ideal)) (W2 : (⟨S640x320, .f32⟩ : BufTy).Contents (Elt Ideal)) :
    (⟨S50000x2x640, .f32⟩ : BufTy).Contents (Elt Ideal) :=
  Host.dotGeneral (F := Ideal) (φ₁ := .f32) (φ₂ := .f32) dot_S50000x2x320_S640x320_S50000x2x640_2_1_01_0_n_n none (v27 X) W2

/-- %29: the first half of the rows -/
def v29 (X : (⟨S50000x29x64, .f32⟩ : BufTy).Contents (Elt Ideal)) (W2 : (⟨S640x320, .f32⟩ : BufTy).Contents (Elt Ideal)) :
    (⟨S50000x2x320, .f32⟩ : BufTy).Contents (Elt Ideal) :=
  extractStridedSlice S50000x2x320 ![0, 0, 0] (v28 X W2) slices_S50000x2x640_S50000x2x320_0_0_0

/-- %30: the second half of the rows -/
def v30 (X : (⟨S50000x29x64, .f32⟩ : BufTy).Contents (Elt Ideal)) (W2 : (⟨S640x320, .f32⟩ : BufTy).Contents (Elt Ideal)) :
    (⟨S50000x2x320, .f32⟩ : BufTy).Contents (Elt Ideal) :=
  extractStridedSlice S50000x2x320 ![0, 0, 320] (v28 X W2) slices_S50000x2x640_S50000x2x320_0_0_320

/-- %31 -/
def v31 (X : (⟨S50000x29x64, .f32⟩ : BufTy).Contents (Elt Ideal)) (W2 : (⟨S640x320, .f32⟩ : BufTy).Contents (Elt Ideal)) :
    (⟨S50000x1x320, .f32⟩ : BufTy).Contents (Elt Ideal) :=
  extractStridedSlice S50000x1x320 ![0, 0, 0] (v29 X W2) slices_S50000x2x320_S50000x1x320_0_0_0

/-- %32 -/
def v32 (X : (⟨S50000x29x64, .f32⟩ : BufTy).Contents (Elt Ideal)) (W2 : (⟨S640x320, .f32⟩ : BufTy).Contents (Elt Ideal)) :
    (⟨S50000x1x320, .f32⟩ : BufTy).Contents (Elt Ideal) :=
  extractStridedSlice S50000x1x320 ![0, 1, 0] (v30 X W2) slices_S50000x2x320_S50000x1x320_0_1_0

/-- %33: the real block of the output -/
def v33 (X : (⟨S50000x29x64, .f32⟩ : BufTy).Contents (Elt Ideal)) (W2 : (⟨S640x320, .f32⟩ : BufTy).Contents (Elt Ideal)) :
    (⟨S50000x1x320, .f32⟩ : BufTy).Contents (Elt Ideal) :=
  subf (F := Ideal) (φ := .f32) (v31 X W2) (v32 X W2)

/-- %34 -/
def v34 (X : (⟨S50000x29x64, .f32⟩ : BufTy).Contents (Elt Ideal)) (W2 : (⟨S640x320, .f32⟩ : BufTy).Contents (Elt Ideal)) :
    (⟨S50000x1x320, .f32⟩ : BufTy).Contents (Elt Ideal) :=
  extractStridedSlice S50000x1x320 ![0, 1, 0] (v29 X W2) slices_S50000x2x320_S50000x1x320_0_1_0

/-- %35 -/
def v35 (X : (⟨S50000x29x64, .f32⟩ : BufTy).Contents (Elt Ideal)) (W2 : (⟨S640x320, .f32⟩ : BufTy).Contents (Elt Ideal)) :
    (⟨S50000x1x320, .f32⟩ : BufTy).Contents (Elt Ideal) :=
  extractStridedSlice S50000x1x320 ![0, 0, 0] (v30 X W2) slices_S50000x2x320_S50000x1x320_0_0_0

/-- %36: the imaginary block of the output -/
def v36 (X : (⟨S50000x29x64, .f32⟩ : BufTy).Contents (Elt Ideal)) (W2 : (⟨S640x320, .f32⟩ : BufTy).Contents (Elt Ideal)) :
    (⟨S50000x1x320, .f32⟩ : BufTy).Contents (Elt Ideal) :=
  addf (F := Ideal) (φ := .f32) (v34 X W2) (v35 X W2)

/-- %37: real block then imaginary block -/
def v37 (X : (⟨S50000x29x64, .f32⟩ : BufTy).Contents (Elt Ideal)) (W2 : (⟨S640x320, .f32⟩ : BufTy).Contents (Elt Ideal)) :
    (⟨S50000x2x320, .f32⟩ : BufTy).Contents (Elt Ideal) :=
  concatenate S50000x2x320 1 [⟨S50000x1x320, v33 X W2⟩, ⟨S50000x1x320, v36 X W2⟩] concatenates_S50000x1x320_S50000x1x320_S50000x2x320_d1

/-- %38: read as [50000, 10, 64] -/
def v38 (X : (⟨S50000x29x64, .f32⟩ : BufTy).Contents (Elt Ideal)) (W2 : (⟨S640x320, .f32⟩ : BufTy).Contents (Elt Ideal)) :
    (⟨S50000x10x64, .f32⟩ : BufTy).Contents (Elt Ideal) :=
  shapeCast S50000x10x64 (v37 X W2) shapeCasts_S50000x2x320_S50000x10x64

/-- %39: the output in m-primary order -/
def v39 (X : (⟨S50000x29x64, .f32⟩ : BufTy).Contents (Elt Ideal)) (W0 : (⟨S448x448, .f32⟩ : BufTy).Contents (Elt Ideal)) (b0 : (⟨S448, .f32⟩ : BufTy).Contents (Elt Ideal)) (W1 : (⟨S768x384, .f32⟩ : BufTy).Contents (Elt Ideal)) (W2 : (⟨S640x320, .f32⟩ : BufTy).Contents (Elt Ideal)) :
    (⟨S50000x29x64, .f32⟩ : BufTy).Contents (Elt Ideal) :=
  concatenate S50000x29x64 1 [⟨S50000x7x64, v12 X W0 b0⟩, ⟨S50000x12x64, v25 X W1⟩, ⟨S50000x10x64, v38 X W2⟩] concatenates_S50000x7x64_S50000x12x64_S50000x10x64_S50000x29x64_d1

/-- %44: the rows of axis 1 picked by the second table -/
def v44 (X : (⟨S50000x29x64, .f32⟩ : BufTy).Contents (Elt Ideal)) (W0 : (⟨S448x448, .f32⟩ : BufTy).Contents (Elt Ideal)) (b0 : (⟨S448, .f32⟩ : BufTy).Contents (Elt Ideal)) (W1 : (⟨S768x384, .f32⟩ : BufTy).Contents (Elt Ideal)) (W2 : (⟨S640x320, .f32⟩ : BufTy).Contents (Elt Ideal)) :
    (⟨S50000x29x64, .f32⟩ : BufTy).Contents (Elt Ideal) :=
  Host.gather gather_S50000x29x64_S29x1_S50000x29x64_02_1_n_n_1_1_50000164 (v39 X W0 b0 W1 W2) tblFrom

/-- What @main returns. -/
def result (X : (⟨S50000x29x64, .f32⟩ : BufTy).Contents (Elt Ideal)) (W0 : (⟨S448x448, .f32⟩ : BufTy).Contents (Elt Ideal)) (b0 : (⟨S448, .f32⟩ : BufTy).Contents (Elt Ideal)) (W1 : (⟨S768x384, .f32⟩ : BufTy).Contents (Elt Ideal)) (W2 : (⟨S640x320, .f32⟩ : BufTy).Contents (Elt Ideal)) :
    (⟨S50000x29x64, .f32⟩ : BufTy).Contents (Elt Ideal) :=
  v44 X W0 b0 W1 W2

end Cert.ReferenceIdeal.RefStages

end
-- ==== Proof.RefRun.lean ====
/-
  The run of the reference program: its @main is a straight line of 51 host operations, each reading whole buffers
  and writing one whole buffer. Listed in order as `ops`, the program is `seq ops` by definition, so from any memory
  with zero counters every weakly fair execution terminates with each buffer at the operations' composed pure
  function of the argument buffers' launch contents, and with the six argument buffers unchanged (no operation
  writes an argument). The list is stated for any float values; the run is read at the ideal instance (a float an
  extended real, every operation exact).
-/
import proofs.«115152_j70824010711660_2_alg».proof.Proof.Gen.ReferenceIdeal
import Idealize.ShloMosaic.Lib.StableHlo.Run
import Idealize.ShloMosaic.PureOps.Ideal
import proofs.«115152_j70824010711660_2_alg».proof.Proof.RefStages

noncomputable section

namespace Cert.ReferenceIdeal.RefRun

open Cert.ReferenceIdeal Cert.ReferenceIdeal.Gen Idealize.ShloMosaic Idealize.ShloMosaic.TcCoe Idealize.SL.Sem Idealize.ShloMosaic.StableHlo

section
variable {F : FTy → Type} [FloatOps F]

/-- @main's 51 operations, in order. -/
abbrev ops : List (HloOp τ sig (Elt F)) :=
  [
    StableHlo.nullary main_c (fun i => lit0 (S29.rowMajor i)),
    StableHlo.nullary main_c_0 (constantI S29 1 0#1),
    StableHlo.nullary main_c_1 (fun i => lit1 (S29.rowMajor i)),
    StableHlo.nullary main_c_2 (constantI S29 1 0#1),
    StableHlo.nullary main_c_3 (constantI S_ 32 29#32),
    StableHlo.unary main_c_3 main_v0 (broadcastInDim S29 ![] bcast_S_S29 : (⟨S_, .i32⟩ : BufTy).Contents (Elt F) → (⟨S29, .i32⟩ : BufTy).Contents (Elt F)),
    StableHlo.binary main_c main_v0 main_v1 (addi : (⟨S29, .i32⟩ : BufTy).Contents (Elt F) → (⟨S29, .i32⟩ : BufTy).Contents (Elt F) → (⟨S29, .i32⟩ : BufTy).Contents (Elt F)),
    StableHlo.ternary main_c_0 main_v1 main_c main_v2 (select : (⟨S29, .i1⟩ : BufTy).Contents (Elt F) → (⟨S29, .i32⟩ : BufTy).Contents (Elt F) → (⟨S29, .i32⟩ : BufTy).Contents (Elt F) → (⟨S29, .i32⟩ : BufTy).Contents (Elt F)),
    StableHlo.unary main_v2 main_v3 (broadcastInDim S29x1 ![0] bcast_S29_S29x1_0 : (⟨S29, .i32⟩ : BufTy).Contents (Elt F) → (⟨S29x1, .i32⟩ : BufTy).Contents (Elt F)),
    StableHlo.binary main_arg0 main_v3 main_v4 ((fun x i => Host.gather gather_S50000x29x64_S29x1_S50000x29x64_02_1_n_n_1_1_50000164 x i) : (⟨S50000x29x64, .f32⟩ : BufTy).Contents (Elt F) → (⟨S29x1, .i32⟩ : BufTy).Contents (Elt F) → (⟨S50000x29x64, .f32⟩ : BufTy).Contents (Elt F)),
    StableHlo.unary main_v4 main_v5 ((extractStridedSlice S50000x7x64 ![0, 0, 0] · slices_S50000x29x64_S50000x7x64_0_0_0) : (⟨S50000x29x64, .f32⟩ : BufTy).Contents (Elt F) → (⟨S50000x7x64, .f32⟩ : BufTy).Contents (Elt F)),
    StableHlo.reshape main_v5 main_v6 rfl shapeCasts_S50000x7x64_S50000x448,
    StableHlo.unary main_arg2 main_v7 ((transpose S448x448 [1, 0] · transposes_S448x448_S448x448_1_0) : (⟨S448x448, .f32⟩ : BufTy).Contents (Elt F) → (⟨S448x448, .f32⟩ : BufTy).Contents (Elt F)),
    StableHlo.binary main_v6 main_v7 main_v8 ((fun l r => Host.dotGeneral dot_S50000x448_S448x448_S50000x448_1_0_0_1_n_n none l r) : (⟨S50000x448, .f32⟩ : BufTy).Contents (Elt F) → (⟨S448x448, .f32⟩ : BufTy).Contents (Elt F) → (⟨S50000x448, .f32⟩ : BufTy).Contents (Elt F)),
    StableHlo.unary main_arg3 main_v9 (broadcastInDim S1x448 ![1] bcast_S448_S1x448_1 : (⟨S448, .f32⟩ : BufTy).Contents (Elt F) → (⟨S1x448, .f32⟩ : BufTy).Contents (Elt F)),
    StableHlo.unary main_v9 main_v10 (broadcastInDim S50000x448 ![0, 1] bcast_S1x448_S50000x448_0_1 : (⟨S1x448, .f32⟩ : BufTy).Contents (Elt F) → (⟨S50000x448, .f32⟩ : BufTy).Contents (Elt F)),
    StableHlo.binary main_v8 main_v10 main_v11 (addf : (⟨S50000x448, .f32⟩ : BufTy).Contents (Elt F) → (⟨S50000x448, .f32⟩ : BufTy).Contents (Elt F) → (⟨S50000x448, .f32⟩ : BufTy).Contents (Elt F)),
    StableHlo.reshape main_v11 main_v12 rfl shapeCasts_S50000x448_S50000x7x64,
    StableHlo.unary main_v4 main_v13 ((extractStridedSlice S50000x12x64 ![0, 7, 0] · slices_S50000x29x64_S50000x12x64_0_7_0) : (⟨S50000x29x64, .f32⟩ : BufTy).Contents (Elt F) → (⟨S50000x12x64, .f32⟩ : BufTy).Contents (Elt F)),
    StableHlo.reshape main_v13 main_v14 rfl shapeCasts_S50000x12x64_S50000x2x384,
    StableHlo.binary main_v14 main_arg4 main_v15 ((fun l r => Host.dotGeneral dot_S50000x2x384_S768x384_S50000x2x768_2_1_01_0_n_n none l r) : (⟨S50000x2x384, .f32⟩ : BufTy).Contents (Elt F) → (⟨S768x384, .f32⟩ : BufTy).Contents (Elt F) → (⟨S50000x2x768, .f32⟩ : BufTy).Contents (Elt F)),
    StableHlo.unary main_v15 main_v16 ((extractStridedSlice S50000x2x384 ![0, 0, 0] · slices_S50000x2x768_S50000x2x384_0_0_0) : (⟨S50000x2x768, .f32⟩ : BufTy).Contents (Elt F) → (⟨S50000x2x384, .f32⟩ : BufTy).Contents (Elt F)),
    StableHlo.unary main_v15 main_v17 ((extractStridedSlice S50000x2x384 ![0, 0, 384] · slices_S50000x2x768_S50000x2x384_0_0_384) : (⟨S50000x2x768, .f32⟩ : BufTy).Contents (Elt F) → (⟨S50000x2x384, .f32⟩ : BufTy).Contents (Elt F)),
    StableHlo.unary main_v16 main_v18 ((extractStridedSlice S50000x1x384 ![0, 0, 0] · slices_S50000x2x384_S50000x1x384_0_0_0) : (⟨S50000x2x384, .f32⟩ : BufTy).Contents (Elt F) → (⟨S50000x1x384, .f32⟩ : BufTy).Contents (Elt F)),
    StableHlo.unary main_v17 main_v19 ((extractStridedSlice S50000x1x384 ![0, 1, 0] · slices_S50000x2x384_S50000x1x384_0_1_0) : (⟨S50000x2x384, .f32⟩ : BufTy).Contents (Elt F) → (⟨S50000x1x384, .f32⟩ : BufTy).Contents (Elt F)),
    StableHlo.binary main_v18 main_v19 main_v20 (subf : (⟨S50000x1x384, .f32⟩ : BufTy).Contents (Elt F) → (⟨S50000x1x384, .f32⟩ : BufTy).Contents (Elt F) → (⟨S50000x1x384, .f32⟩ : BufTy).Contents (Elt F)),
    StableHlo.unary main_v16 main_v21 ((extractStridedSlice S50000x1x384 ![0, 1, 0] · slices_S50000x2x384_S50000x1x384_0_1_0) : (⟨S50000x2x384, .f32⟩ : BufTy).Contents (Elt F) → (⟨S50000x1x384, .f32⟩ : BufTy).Contents (Elt F)),
    StableHlo.unary main_v17 main_v22 ((extractStridedSlice S50000x1x384 ![0, 0, 0] · slices_S50000x2x384_S50000x1x384_0_0_0) : (⟨S50000x2x384, .f32⟩ : BufTy).Contents (Elt F) → (⟨S50000x1x384, .f32⟩ : BufTy).Contents (Elt F)),
    StableHlo.binary main_v21 main_v22 main_v23 (addf : (⟨S50000x1x384, .f32⟩ : BufTy).Contents (Elt F) → (⟨S50000x1x384, .f32⟩ : BufTy).Contents (Elt F) → (⟨S50000x1x384, .f32⟩ : BufTy).Contents (Elt F)),
    StableHlo.binary main_v20 main_v23 main_v24 ((fun a b => concatenate S50000x2x384 1 [⟨S50000x1x384, a⟩, ⟨S50000x1x384, b⟩] concatenates_S50000x1x384_S50000x1x384_S50000x2x384_d1) : (⟨S50000x1x384, .f32⟩ : BufTy).Contents (Elt F) → (⟨S50000x1x384, .f32⟩ : BufTy).Contents (Elt F) → (⟨S50000x2x384, .f32⟩ : BufTy).Contents (Elt F)),
    StableHlo.reshape main_v24 main_v25 rfl shapeCasts_S50000x2x384_S50000x12x64,
    StableHlo.unary main_v4 main_v26 ((extractStridedSlice S50000x10x64 ![0, 19, 0] · slices_S50000x29x64_S50000x10x64_0_19_0) : (⟨S50000x29x64, .f32⟩ : BufTy).Contents (Elt F) → (⟨S50000x10x64, .f32⟩ : BufTy).Contents (Elt F)),
    StableHlo.reshape main_v26 main_v27 rfl shapeCasts_S50000x10x64_S50000x2x320,
    StableHlo.binary main_v27 main_arg5 main_v28 ((fun l r => Host.dotGeneral dot_S50000x2x320_S640x320_S50000x2x640_2_1_01_0_n_n none l r) : (⟨S50000x2x320, .f32⟩ : BufTy).Contents (Elt F) → (⟨S640x320, .f32⟩ : BufTy).Contents (Elt F) → (⟨S50000x2x640, .f32⟩ : BufTy).Contents (Elt F)),
    StableHlo.unary main_v28 main_v29 ((extractStridedSlice S50000x2x320 ![0, 0, 0] · slices_S50000x2x640_S50000x2x320_0_0_0) : (⟨S50000x2x640, .f32⟩ : BufTy).Contents (Elt F) → (⟨S50000x2x320, .f32⟩ : BufTy).Contents (Elt F)),
    StableHlo.unary main_v28 main_v30 ((extractStridedSlice S50000x2x320 ![0, 0, 320] · slices_S50000x2x640_S50000x2x320_0_0_320) : (⟨S50000x2x640, .f32⟩ : BufTy).Contents (Elt F) → (⟨S50000x2x320, .f32⟩ : BufTy).Contents (Elt F)),
    StableHlo.unary main_v29 main_v31 ((extractStridedSlice S50000x1x320 ![0, 0, 0] · slices_S50000x2x320_S50000x1x320_0_0_0) : (⟨S50000x2x320, .f32⟩ : BufTy).Contents (Elt F) → (⟨S50000x1x320, .f32⟩ : BufTy).Contents (Elt F)),
    StableHlo.unary main_v30 main_v32 ((extractStridedSlice S50000x1x320 ![0, 1, 0] · slices_S50000x2x320_S50000x1x320_0_1_0) : (⟨S50000x2x320, .f32⟩ : BufTy).Contents (Elt F) → (⟨S50000x1x320, .f32⟩ : BufTy).Contents (Elt F)),
    StableHlo.binary main_v31 main_v32 main_v33 (subf : (⟨S50000x1x320, .f32⟩ : BufTy).Contents (Elt F) → (⟨S50000x1x320, .f32⟩ : BufTy).Contents (Elt F) → (⟨S50000x1x320, .f32⟩ : BufTy).Contents (Elt F)),
    StableHlo.unary main_v29 main_v34 ((extractStridedSlice S50000x1x320 ![0, 1, 0] · slices_S50000x2x320_S50000x1x320_0_1_0) : (⟨S50000x2x320, .f32⟩ : BufTy).Contents (Elt F) → (⟨S50000x1x320, .f32⟩ : BufTy).Contents (Elt F)),
    StableHlo.unary main_v30 main_v35 ((extractStridedSlice S50000x1x320 ![0, 0, 0] · slices_S50000x2x320_S50000x1x320_0_0_0) : (⟨S50000x2x320, .f32⟩ : BufTy).Contents (Elt F) → (⟨S50000x1x320, .f32⟩ : BufTy).Contents (Elt F)),
    StableHlo.binary main_v34 main_v35 main_v36 (addf : (⟨S50000x1x320, .f32⟩ : BufTy).Contents (Elt F) → (⟨S50000x1x320, .f32⟩ : BufTy).Contents (Elt F) → (⟨S50000x1x320, .f32⟩ : BufTy).Contents (Elt F)),
    StableHlo.binary main_v33 main_v36 main_v37 ((fun a b => concatenate S50000x2x320 1 [⟨S50000x1x320, a⟩, ⟨S50000x1x320, b⟩] concatenates_S50000x1x320_S50000x1x320_S50000x2x320_d1) : (⟨S50000x1x320, .f32⟩ : BufTy).Contents (Elt F) → (⟨S50000x1x320, .f32⟩ : BufTy).Contents (Elt F) → (⟨S50000x2x320, .f32⟩ : BufTy).Contents (Elt F)),
    StableHlo.reshape main_v37 main_v38 rfl shapeCasts_S50000x2x320_S50000x10x64,
    StableHlo.nary ![main_v12, main_v25, main_v38] main_v39 (fun u => concatenate S50000x29x64 1 [⟨S50000x7x64, u 0⟩, ⟨S50000x12x64, u 1⟩, ⟨S50000x10x64, u 2⟩] concatenates_S50000x7x64_S50000x12x64_S50000x10x64_S50000x29x64_d1),
    StableHlo.nullary main_c_4 (constantI S_ 32 29#32),
    StableHlo.unary main_c_4 main_v40 (broadcastInDim S29 ![] bcast_S_S29 : (⟨S_, .i32⟩ : BufTy).Contents (Elt F) → (⟨S29, .i32⟩ : BufTy).Contents (Elt F)),
    StableHlo.binary main_c_1 main_v40 main_v41 (addi : (⟨S29, .i32⟩ : BufTy).Contents (Elt F) → (⟨S29, .i32⟩ : BufTy).Contents (Elt F) → (⟨S29, .i32⟩ : BufTy).Contents (Elt F)),
    StableHlo.ternary main_c_2 main_v41 main_c_1 main_v42 (select : (⟨S29, .i1⟩ : BufTy).Contents (Elt F) → (⟨S29, .i32⟩ : BufTy).Contents (Elt F) → (⟨S29, .i32⟩ : BufTy).Contents (Elt F) → (⟨S29, .i32⟩ : BufTy).Contents (Elt F)),
    StableHlo.unary main_v42 main_v43 (broadcastInDim S29x1 ![0] bcast_S29_S29x1_0 : (⟨S29, .i32⟩ : BufTy).Contents (Elt F) → (⟨S29x1, .i32⟩ : BufTy).Contents (Elt F)),
    StableHlo.binary main_v39 main_v43 main_v44 ((fun x i => Host.gather gather_S50000x29x64_S29x1_S50000x29x64_02_1_n_n_1_1_50000164 x i) : (⟨S50000x29x64, .f32⟩ : BufTy).Contents (Elt F) → (⟨S29x1, .i32⟩ : BufTy).Contents (Elt F) → (⟨S50000x29x64, .f32⟩ : BufTy).Contents (Elt F)) ]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨nullary_bufs_sub .., nullary_bufs_sub .., nullary_bufs_sub .., nullary_bufs_sub .., nullary_bufs_sub .., unary_bufs_sub .., binary_bufs_sub .., ternary_bufs_sub .., unary_bufs_sub .., binary_bufs_sub .., unary_bufs_sub .., reshape_bufs_sub .., unary_bufs_sub .., binary_bufs_sub .., unary_bufs_sub .., unary_bufs_sub .., binary_bufs_sub .., reshape_bufs_sub .., unary_bufs_sub .., reshape_bufs_sub .., binary_bufs_sub .., unary_bufs_sub .., unary_bufs_sub .., unary_bufs_sub .., unary_bufs_sub .., binary_bufs_sub .., unary_bufs_sub .., unary_bufs_sub .., binary_bufs_sub .., binary_bufs_sub .., reshape_bufs_sub .., unary_bufs_sub .., reshape_bufs_sub .., binary_bufs_sub .., unary_bufs_sub .., unary_bufs_sub .., unary_bufs_sub .., unary_bufs_sub .., binary_bufs_sub .., unary_bufs_sub .., unary_bufs_sub .., binary_bufs_sub .., binary_bufs_sub .., reshape_bufs_sub .., nary_bufs_sub .., nullary_bufs_sub .., unary_bufs_sub .., binary_bufs_sub .., ternary_bufs_sub .., unary_bufs_sub .., binary_bufs_sub ..⟩

end

section Cat
variable {α : Type}

/-- The concatenation of two arrays, the arrays as plain arguments. -/
def cat2 (t : Shape) (a : Fin t.rank) (s₁ s₂ : Shape) (h : Shape.Concatenates [s₁, s₂] t a)
    (x : s₁.Idx → α) (y : s₂.Idx → α) : t.Idx → α :=
  concatenate t a [⟨s₁, x⟩, ⟨s₂, y⟩] h

/-- The concatenation of three arrays, the arrays as plain arguments. -/
def cat3 (t : Shape) (a : Fin t.rank) (s₁ s₂ s₃ : Shape) (h : Shape.Concatenates [s₁, s₂, s₃] t a)
    (x : s₁.Idx → α) (y : s₂.Idx → α) (z : s₃.Idx → α) : t.Idx → α :=
  concatenate t a [⟨s₁, x⟩, ⟨s₂, y⟩, ⟨s₃, z⟩] h

/-- A two-array concatenation written over its list of arrays is the one over plain arguments. -/
theorem cat2_fold (t : Shape) (a : Fin t.rank) (s₁ s₂ : Shape) (x : s₁.Idx → α) (y : s₂.Idx → α)
    (h : Shape.Concatenates [s₁, s₂] t a) :
    concatenate t a [⟨s₁, x⟩, ⟨s₂, y⟩] h = cat2 t a s₁ s₂ h x y := rfl

end Cat

section
variable {F : FTy → Type} [FloatOps F]

/-- The three-operand concatenation's result buffer holds the concatenation of its operands' contents, each read at
    its own buffer. -/
theorem concat3_result' (V : Valuation τ sig (Elt F)) :
    (StableHlo.nary ![main_v12, main_v25, main_v38] main_v39 (fun u => concatenate S50000x29x64 1 [⟨S50000x7x64, u 0⟩, ⟨S50000x12x64, u 1⟩, ⟨S50000x10x64, u 2⟩] concatenates_S50000x7x64_S50000x12x64_S50000x10x64_S50000x29x64_d1) : HloOp τ sig (Elt F)).result V (no_index (Proc.devRef .tc main_v39))
      = cat3 (α := Elt F .f32) S50000x29x64 1 S50000x7x64 S50000x12x64 S50000x10x64 concatenates_S50000x7x64_S50000x12x64_S50000x10x64_S50000x29x64_d1
          (V (Proc.devRef .tc main_v12)) (V (Proc.devRef .tc main_v25)) (V (Proc.devRef .tc main_v38)) :=
  nary_result ..

end

/-- On every device, from any memory with zero counters: every weakly fair execution of @main terminates with the
    result buffer at the composed function of the argument buffers' launch contents, stage by stage the values of
    `RefStages`, and with the six argument buffers unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v44) = Cert.ReferenceIdeal.RefStages.result (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v44).trans (by
        -- each operation's result at its own buffer is its function of its operands' contents, elsewhere what was
        -- there; a concatenation's operands are moved out of its list first, so that they are rewritten in turn
        simp (disch := decide) only [after_cons, after_nil,
          nullary_result', unary_result', binary_result', ternary_result', reshape_result', concat3_result',
          nullary_result_ne', unary_result_ne', binary_result_ne', ternary_result_ne', reshape_result_ne', nary_result_ne',
          ↓cat2_fold]
        -- what is left is the stages' composed term, up to the definitions' unfolding
        rfl),
      (h c main_arg0).trans (by after_results_simp),
      (h c main_arg1).trans (by after_results_simp),
      (h c main_arg2).trans (by after_results_simp),
      (h c main_arg3).trans (by after_results_simp),
      (h c main_arg4).trans (by after_results_simp),
      (h c main_arg5).trans (by after_results_simp)⟩)
    (run_seq scopedRefs_eq scopedSems_eq defs main (fun _ => ops) main_eq (fun _ => ops_sub) m ρ)

end Cert.ReferenceIdeal.RefRun

end
-- ==== Proof.LibRowGather.lean ====
/-
  GENERAL LEMMA: picking rows of the middle axis of a rank-3 array by a table of row numbers, read at an index.

  The operand x has shape [A, N, C]; the table idx has shape [M, 1] and holds integer words; the result has shape
  [A, M, C] and its element (e, a, c) is x (e, r, c), where r is the table's entry (a, 0) read as a signed integer and
  clamped into 0 .. N - 1 (a gather whose slices are whole [A, 1, C] planes: the result's axes 0 and 2 are the slice's
  own, its axis 1 runs over the table's rows, the operand's axis 1 is collapsed and is the one the table addresses).
  When that entry, read as a signed integer, is a natural number m below N, nothing is clamped and the element is
  x (e, m, c). Nothing here mentions a program; the extents A, N, C, M and the word width are arbitrary.

  * rowDims: those dimension numbers, for any extents.
  * gather_rows_apply: the gather read at (e, a, c), given the value of the table's entry (a, 0).
-/
import Idealize.ShloMosaic.PureOps.Ideal
import Idealize.ShloMosaic.Lib.ValueIdx

noncomputable section

namespace Cert.LibRowGather

open Idealize.ShloMosaic Idealize.ShloMosaic.ValueIdx

variable {α : Type}

/-- The dimension numbers of a gather of whole [A, 1, C] planes of an [A, N, C] operand at an [M, 1] table of
    positions on axis 1, into an [A, M, C] result. -/
abbrev rowDims (A N C M : ℕ)
    (wf : GatherDims.WF ⟨3, ![A, N, C]⟩ ⟨2, ![M, 1]⟩ ⟨3, ![A, M, C]⟩ [0, 2] [1] [] [1] [] 1 ![A, 1, C]) :
    GatherDims ⟨3, ![A, N, C]⟩ ⟨2, ![M, 1]⟩ ⟨3, ![A, M, C]⟩ where
  offsetDims := [0, 2]
  collapsedSliceDims := [1]
  operandBatchingDims := []
  startIndicesBatchingDims := []
  startIndexMap := [1]
  indexVectorDim := 1
  sliceSizes := ![A, 1, C]
  wf := wf

/-- THE GATHER READ AT (e, a, c): when the table's entry (a, 0), read as a signed integer, is the natural number m
    below N, the result's element is the operand's at (e, m, c). -/
theorem gather_rows_apply {A N C M w : ℕ}
    (wf : GatherDims.WF ⟨3, ![A, N, C]⟩ ⟨2, ![M, 1]⟩ ⟨3, ![A, M, C]⟩ [0, 2] [1] [] [1] [] 1 ![A, 1, C])
    (x : (⟨3, ![A, N, C]⟩ : Shape).Idx → α) (idx : IVec ⟨2, ![M, 1]⟩ w)
    (e : Fin A) (a : Fin M) (c : Fin C) (m : Fin N) (hm : (idx (ix2 a (0 : Fin 1))).toInt.toNat = m.val) :
    Host.gather (rowDims A N C M wf) x idx (ix3 e a c) = x (ix3 e m c) := by
  unfold Host.gather
  congr 1
  funext ax
  refine Fin.ext ?_
  show (rowDims A N C M wf).start (ix3 e a c) idx ax + (rowDims A N C M wf).batchCoord (ix3 e a c) ax
    + (rowDims A N C M wf).offCoord (ix3 e a c) ax = _
  rw [GatherDims.batchCoord_eq_zero _ _ _ List.not_mem_nil, Nat.add_zero]
  match ax with
  | ⟨0, _⟩ =>
    show (rowDims A N C M wf).start (ix3 e a c) idx 0 + (rowDims A N C M wf).offCoord (ix3 e a c) 0 = e.val
    have hne : ¬((0 : Fin 3) = 1) := by decide
    have h0 : (0 : Fin 3) ∉ (rowDims A N C M wf).startIndexMap := fun h => hne (List.mem_singleton.mp h)
    have hk : (0 : Fin 3) ∈ (rowDims A N C M wf).sKept :=
      (GatherDims.mem_sKept _ _).mpr ⟨fun h => hne (List.mem_singleton.mp h), List.not_mem_nil⟩
    unfold GatherDims.start GatherDims.offCoord
    rw [dif_neg h0, dif_pos hk, Nat.zero_add]
    rfl
  | ⟨1, _⟩ =>
    show (rowDims A N C M wf).start (ix3 e a c) idx 1 + (rowDims A N C M wf).offCoord (ix3 e a c) 1 = m.val
    rw [GatherDims.offCoord_eq_zero _ _ _ (fun h => ((GatherDims.mem_sKept _ _).mp h).1 (List.mem_singleton.mpr rfl)), Nat.add_zero]
    unfold GatherDims.start
    rw [dif_pos (show (1 : Fin 3) ∈ (rowDims A N C M wf).startIndexMap from List.mem_singleton.mpr rfl)]
    have hsi : (rowDims A N C M wf).siIdx (ix3 e a c) ⟨List.idxOf (1 : Fin 3) (rowDims A N C M wf).startIndexMap,
        List.idxOf_lt_length_iff.2 (List.mem_singleton.mpr rfl)⟩ = ix2 a (0 : Fin 1) := by
      funext b; refine Fin.ext ?_
      match b with
      | ⟨0, _⟩ => rfl
      | ⟨1, _⟩ => rfl
    rw [hsi, hm]
    show min m.val (N - 1) = m.val
    have := m.isLt
    omega
  | ⟨2, _⟩ =>
    show (rowDims A N C M wf).start (ix3 e a c) idx 2 + (rowDims A N C M wf).offCoord (ix3 e a c) 2 = c.val
    have hne : ¬((2 : Fin 3) = 1) := by decide
    have h0 : (2 : Fin 3) ∉ (rowDims A N C M wf).startIndexMap := fun h => hne (List.mem_singleton.mp h)
    have hk : (2 : Fin 3) ∈ (rowDims A N C M wf).sKept :=
      (GatherDims.mem_sKept _ _).mpr ⟨fun h => hne (List.mem_singleton.mp h), List.not_mem_nil⟩
    unfold GatherDims.start GatherDims.offCoord
    rw [dif_neg h0, dif_pos hk, Nat.zero_add]
    rfl

end Cert.LibRowGather

end
-- ==== Proof.RefValue0.lean ====
/-
  The value of the reference program, first part: the two index tables, the coefficients in m-primary order, and the
  order-0 piece. Each value is read at an index with explicit coordinates (e an edge, a a coefficient position, c a
  channel, k a position along the contracted axis, q an output). All arithmetic on coordinates is in the natural numbers.

  * The two index tables hold the numbers toM a and fromM p: the selects' condition is the constant false, so each
    table is its literal; read as signed integers the entries are those naturals, all below 29.
  * Picking rows by the first table gives xm: the coefficients in m-primary order.
  * Order 0: rows 0..6 flattened to 448 numbers, times the transposed weights, plus the bias, is lin0; unflattened,
    position a and channel c hold output 64 * a + c.
  No law of extended-real arithmetic is used: the program computes these very sums, term by term.
-/
import proofs.«115152_j70824010711660_2_alg».proof.Proof.RefStages
import proofs.«115152_j70824010711660_2_alg».proof.Proof.Spec
import proofs.«115152_j70824010711660_2_alg».proof.Proof.LibMatmulRows
import proofs.«115152_j70824010711660_2_alg».proof.Proof.LibRowGather
import Idealize.ShloMosaic.Lib.ValueIdx
import Idealize.ShloMosaic.Lib.Pipeline.Value
import Idealize.ShloMosaic.Lib.ValueLayout
import Idealize.ShloMosaic.PureOps.Ideal.Laws

noncomputable section

namespace Cert.ReferenceIdeal.RefValue

open Cert.ReferenceIdeal Cert.ReferenceIdeal.Facts₀ Cert.ReferenceIdeal.RefStages Cert.So2Spec
open Idealize.ShloMosaic Idealize.ShloMosaic.ValueIdx
open scoped BigOperators

variable [Cert.ReferenceIdeal.Facts]

/-! ## The two index tables -/

/-- The first literal table holds the numbers toM. -/
theorem lit0_eq (k : Fin 29) : lit0 k = BitVec.ofNat 32 (toM k.val) := by
  fin_cases k <;> rfl

/-- The second literal table holds the numbers fromM. -/
theorem lit1_eq (k : Fin 29) : lit1 k = BitVec.ofNat 32 (fromM k.val) := by
  fin_cases k <;> rfl

theorem toM_lt (a : Fin 29) : toM a.val < 29 := by
  fin_cases a <;> decide

theorem fromM_lt (p : Fin 29) : fromM p.val < 29 := by
  fin_cases p <;> decide

/-- Entry (a, 0) of the first table's column is the word toM a. -/
theorem tblTo_apply (a : Fin 29) : tblTo (ix2 a (0 : Fin 1)) = BitVec.ofNat 32 (toM a.val) := by
  unfold tblTo
  refine (broadcastInDim_apply _ _ _ _ (ix1 a) (fun b => ?_)).trans ?_
  · match b with
    | ⟨0, _⟩ => exact (if_neg (by decide : ¬((29 : ℕ) = 1))).symm
  · rw [select_apply]
    show Scalar.select (0#1) _ _ = _
    rw [select_zero]
    exact (lit0_eq _).trans (congrArg (fun n => BitVec.ofNat 32 (toM n)) (Shape.rowMajor_val_one _))

/-- Entry (p, 0) of the second table's column is the word fromM p. -/
theorem tblFrom_apply (p : Fin 29) : tblFrom (ix2 p (0 : Fin 1)) = BitVec.ofNat 32 (fromM p.val) := by
  unfold tblFrom
  refine (broadcastInDim_apply _ _ _ _ (ix1 p) (fun b => ?_)).trans ?_
  · match b with
    | ⟨0, _⟩ => exact (if_neg (by decide : ¬((29 : ℕ) = 1))).symm
  · rw [select_apply]
    show Scalar.select (0#1) _ _ = _
    rw [select_zero]
    exact (lit1_eq _).trans (congrArg (fun n => BitVec.ofNat 32 (fromM n)) (Shape.rowMajor_val_one _))

/-- Read as a signed integer, that entry is the natural number toM a. -/
theorem tblTo_toNat (a : Fin 29) : (tblTo (ix2 a (0 : Fin 1))).toInt.toNat = toM a.val := by
  rw [tblTo_apply]
  fin_cases a <;> rfl

theorem tblFrom_toNat (p : Fin 29) : (tblFrom (ix2 p (0 : Fin 1))).toInt.toNat = fromM p.val := by
  rw [tblFrom_apply]
  fin_cases p <;> rfl

/-! ## The coefficients in m-primary order -/

/-- Picking rows by the first table: position a holds the l-primary coefficient toM a. -/
theorem v4_apply (X : (⟨3, ![50000, 29, 64]⟩ : Shape).Idx → EReal) (e : Fin 50000) (a : Fin 29) (c : Fin 64) :
    v4 X (ix3 e a c) = xm X e.val a.val c.val := by
  unfold v4
  refine (Cert.LibRowGather.gather_rows_apply gather_S50000x29x64_S29x1_S50000x29x64_02_1_n_n_1_1_50000164_wf X tblTo e a c
    ⟨toM a.val, toM_lt a⟩ (tblTo_toNat a)).trans ?_
  exact at3_eq X _ e.val (toM a.val) c.val rfl rfl rfl

/-! ## Order 0 -/

/-- Rows 0..6 flattened: entry k of edge e is the coefficient at position k / 64, channel k % 64. -/
theorem v6_apply (X : (⟨3, ![50000, 29, 64]⟩ : Shape).Idx → EReal) (e : Fin 50000) (k : Fin 448) :
    v6 X (ix2 e k) = xm X e.val (k.val / 64) (k.val % 64) := by
  have hk := k.isLt
  unfold v6
  refine (shapeCast_apply _ _ _ (ix3 e (⟨k.val / 64, by omega⟩ : Fin 7) (⟨k.val % 64, by omega⟩ : Fin 64)) ?_).trans ?_
  · rw [Shape.rowMajor_val_three, Shape.rowMajor_val_two]
    show (e.val * 7 + k.val / 64) * 64 + k.val % 64 = e.val * 448 + k.val
    omega
  unfold v5
  refine (slice3_axis1_apply 0 _ _ e (⟨k.val / 64, by omega⟩ : Fin 7) (⟨k.val % 64, by omega⟩ : Fin 64)
    (⟨k.val / 64, by omega⟩ : Fin 29) (Nat.zero_add _).symm).trans ?_
  exact v4_apply X e _ _

/-- The transposed weights: entry (k, q) is W0's (q, k). -/
theorem v7_apply (W0 : (⟨2, ![448, 448]⟩ : Shape).Idx → EReal) (k q : Fin 448) : v7 W0 (ix2 k q) = at2 W0 q.val k.val := by
  unfold v7
  refine (transpose_ix2_apply W0 _ k q).trans ?_
  exact at2_eq W0 _ q.val k.val rfl rfl

/-- The order-0 product at (e, q). -/
theorem v8_apply (X : (⟨3, ![50000, 29, 64]⟩ : Shape).Idx → EReal) (W0 : (⟨2, ![448, 448]⟩ : Shape).Idx → EReal) (e : Fin 50000) (q : Fin 448) :
    v8 X W0 (ix2 e q) = ∑ k : Fin 448, xm X e.val (k.val / 64) (k.val % 64) * at2 W0 q.val k.val := by
  unfold v8
  refine (Cert.LibMatmulRows.hostdot_rows dot_S50000x448_S448x448_S50000x448_1_0_0_1_n_n rfl rfl
    (fun _ _ => rfl) (fun _ _ => rfl) (fun _ _ => rfl) (fun _ _ => rfl) (v6 X) (v7 W0) e q).trans ?_
  exact Finset.sum_congr rfl fun k _ => by rw [v6_apply, v7_apply]

/-- The bias on every edge: entry (e, q) is b0's q. -/
theorem v10_apply (b0 : (⟨1, ![448]⟩ : Shape).Idx → EReal) (e : Fin 50000) (q : Fin 448) : v10 b0 (ix2 e q) = at1 b0 q.val := by
  unfold v10
  refine (broadcastInDim_apply _ _ _ _ (ix2 (0 : Fin 1) q) (fun a => ?_)).trans ?_
  · match a with
    | ⟨0, _⟩ => exact (if_pos rfl).symm
    | ⟨1, _⟩ => exact (if_neg (by decide : ¬((448 : ℕ) = 1))).symm
  unfold v9
  refine (broadcastInDim_apply _ _ _ _ (ix1 q) (fun a => ?_)).trans ?_
  · match a with
    | ⟨0, _⟩ => exact (if_neg (by decide : ¬((448 : ℕ) = 1))).symm
  exact at1_eq b0 _ q.val rfl

/-- Product plus bias is lin0. -/
theorem v11_apply (X : (⟨3, ![50000, 29, 64]⟩ : Shape).Idx → EReal) (W0 : (⟨2, ![448, 448]⟩ : Shape).Idx → EReal) (b0 : (⟨1, ![448]⟩ : Shape).Idx → EReal) (e : Fin 50000) (q : Fin 448) :
    v11 X W0 b0 (ix2 e q) = lin0 X W0 b0 e.val q.val := by
  unfold v11
  rw [addf_apply, v8_apply, v10_apply]
  rfl

/-- Unflattened: position a, channel c holds output 64 * a + c. -/
theorem v12_apply (X : (⟨3, ![50000, 29, 64]⟩ : Shape).Idx → EReal) (W0 : (⟨2, ![448, 448]⟩ : Shape).Idx → EReal) (b0 : (⟨1, ![448]⟩ : Shape).Idx → EReal) (e : Fin 50000) (a : Fin 7) (c : Fin 64) :
    v12 X W0 b0 (ix3 e a c) = lin0 X W0 b0 e.val (64 * a.val + c.val) := by
  have ha := a.isLt
  have hc := c.isLt
  unfold v12
  refine (shapeCast_apply _ _ _ (ix2 e (⟨64 * a.val + c.val, by omega⟩ : Fin 448)) ?_).trans ?_
  · rw [Shape.rowMajor_val_two, Shape.rowMajor_val_three]
    show e.val * 448 + (64 * a.val + c.val) = (e.val * 7 + a.val) * 64 + c.val
    omega
  exact v11_apply X W0 b0 e _

end Cert.ReferenceIdeal.RefValue

end
-- ==== Proof.LibDotRows3.lean ====
/-
  GENERAL LEMMAS: a stack of rows times the transpose of a matrix. The left operand l has shape [A, B, K], the right
  operand r has shape [N, K]; the last axis of each is contracted, there are no batch axes, and the result has shape
  [A, B, N]: its element (e, n, o) is the sum over k of l (e, n, k) * r (o, k). Read at an index on extended reals.
  Nothing here mentions a program; the extents A, B, K, N are arbitrary.

  * idx3_ext: two rank-3 indices with the same coordinates are one index.
  * contraction_rows3: the contraction's sum over its one-axis index set, read at (e, n, o), is the sum over k : Fin K;
    the dimension record enters only through five coordinate facts about its operand indices and the rank and extent of
    its contraction shape.
  * hostdot_rows3: the host's dot_general, read at (e, n, o).
  No law of extended-real arithmetic beyond reindexing a finite sum is used.
-/
import Idealize.ShloMosaic.PureOps.Ideal
import Idealize.ShloMosaic.PureOps.Ideal.Laws
import Idealize.ShloMosaic.Lib.ValueIdx
import proofs.«115152_j70824010711660_2_alg».proof.Proof.LibMatmulRows

noncomputable section

namespace Cert.LibDotRows3

open Idealize.ShloMosaic Idealize.ShloMosaic.ValueIdx
open scoped BigOperators

/-- Two rank-3 indices with the same coordinates are one index. -/
theorem idx3_ext {n0 n1 n2 : ℕ} (f g : (⟨3, ![n0, n1, n2]⟩ : Shape).Idx) (h0 : (f 0).val = (g 0).val)
    (h1 : (f 1).val = (g 1).val) (h2 : (f 2).val = (g 2).val) : f = g :=
  funext fun d => Fin.ext (by
    match d with
    | ⟨0, _⟩ => exact h0
    | ⟨1, _⟩ => exact h1
    | ⟨2, _⟩ => exact h2)

/-- A contraction of the last axis of an [A, B, K] array with the last axis of an [N, K] array, read at (e, n, o): the
    sum over k of l (e, n, k) * r (o, k). -/
theorem contraction_rows3 {A B K N : ℕ} (d : DotDims ⟨3, ![A, B, K]⟩ ⟨2, ![N, K]⟩ ⟨3, ![A, B, N]⟩)
    (hrank : d.contr.rank = 1) (hsize : d.contr.size ⟨0, by omega⟩ = K)
    (hl0 : ∀ (i : (⟨3, ![A, B, N]⟩ : Shape).Idx) (s : d.contr.Idx), (d.lhsIdx i s 0).val = (i 0).val)
    (hl1 : ∀ (i : (⟨3, ![A, B, N]⟩ : Shape).Idx) (s : d.contr.Idx), (d.lhsIdx i s 1).val = (i 1).val)
    (hl2 : ∀ (i : (⟨3, ![A, B, N]⟩ : Shape).Idx) (s : d.contr.Idx), (d.lhsIdx i s 2).val = (s ⟨0, by omega⟩).val)
    (hr0 : ∀ (i : (⟨3, ![A, B, N]⟩ : Shape).Idx) (s : d.contr.Idx), (d.rhsIdx i s 0).val = (i 2).val)
    (hr1 : ∀ (i : (⟨3, ![A, B, N]⟩ : Shape).Idx) (s : d.contr.Idx), (d.rhsIdx i s 1).val = (s ⟨0, by omega⟩).val)
    (l : (⟨3, ![A, B, K]⟩ : Shape).Idx → EReal) (r : (⟨2, ![N, K]⟩ : Shape).Idx → EReal)
    (e : Fin A) (n : Fin B) (o : Fin N) :
    ∑ s : d.contr.Idx, l (d.lhsIdx (ix3 e n o) s) * r (d.rhsIdx (ix3 e n o) s)
      = ∑ k : Fin K, l (ix3 e n k) * r (ix2 o k) := by
  rw [← Equiv.sum_comp (contrEquiv1 d K hrank hsize).symm]
  refine Finset.sum_congr rfl fun k _ => ?_
  have hk := contrEquiv1_symm_val d K hrank hsize k
  have el : d.lhsIdx (ix3 e n o) ((contrEquiv1 d K hrank hsize).symm k) = ix3 e n k :=
    idx3_ext _ _ (hl0 _ _) (hl1 _ _) ((hl2 _ _).trans hk)
  have er : d.rhsIdx (ix3 e n o) ((contrEquiv1 d K hrank hsize).symm k) = ix2 o k :=
    Cert.LibMatmulRows.idx2_ext _ _ (hr0 _ _) ((hr1 _ _).trans hk)
  rw [el, er]

/-- The host's dot_general of those operands, read at (e, n, o). -/
theorem hostdot_rows3 {A B K N : ℕ} (d : DotDims ⟨3, ![A, B, K]⟩ ⟨2, ![N, K]⟩ ⟨3, ![A, B, N]⟩)
    (hrank : d.contr.rank = 1) (hsize : d.contr.size ⟨0, by omega⟩ = K)
    (hl0 : ∀ (i : (⟨3, ![A, B, N]⟩ : Shape).Idx) (s : d.contr.Idx), (d.lhsIdx i s 0).val = (i 0).val)
    (hl1 : ∀ (i : (⟨3, ![A, B, N]⟩ : Shape).Idx) (s : d.contr.Idx), (d.lhsIdx i s 1).val = (i 1).val)
    (hl2 : ∀ (i : (⟨3, ![A, B, N]⟩ : Shape).Idx) (s : d.contr.Idx), (d.lhsIdx i s 2).val = (s ⟨0, by omega⟩).val)
    (hr0 : ∀ (i : (⟨3, ![A, B, N]⟩ : Shape).Idx) (s : d.contr.Idx), (d.rhsIdx i s 0).val = (i 2).val)
    (hr1 : ∀ (i : (⟨3, ![A, B, N]⟩ : Shape).Idx) (s : d.contr.Idx), (d.rhsIdx i s 1).val = (s ⟨0, by omega⟩).val)
    (l : FVec Ideal ⟨3, ![A, B, K]⟩ .f32) (r : FVec Ideal ⟨2, ![N, K]⟩ .f32) (e : Fin A) (n : Fin B) (o : Fin N) :
    Host.dotGeneral d none l r (ix3 e n o) = ∑ k : Fin K, l (ix3 e n k) * r (ix2 o k) :=
  (Ideal.dotGeneral_apply d none .single l r (ix3 e n o)).trans
    (contraction_rows3 d hrank hsize hl0 hl1 hl2 hr0 hr1 l r e n o)

end Cert.LibDotRows3

end
-- ==== Proof.RefValue1.lean ====
/-
  The value of the reference program: the order-1 piece, read at indices with explicit coordinates (e an edge, n a
  block: 0 real, 1 imaginary, k a position along the contracted axis, o a row of the weights, q a row of one half of
  the weights, a a coefficient position, c a channel). All arithmetic on coordinates is in the natural numbers.

  Rows 7..18 of the m-primary coefficients, read as two blocks of 384 numbers, each block against every one of the
  768 rows of the weights, is dot1; the first 384 rows on the real block minus the last 384 rows on the imaginary
  block is the output's real block, the first 384 rows on the imaginary block plus the last 384 rows on the real
  block its imaginary block; the two are stacked and unflattened to 12 positions of 64 channels.
  No law of extended-real arithmetic is used: the program computes these very sums, term by term.
-/
import proofs.«115152_j70824010711660_2_alg».proof.Proof.RefValue0
import proofs.«115152_j70824010711660_2_alg».proof.Proof.LibDotRows3

noncomputable section

namespace Cert.ReferenceIdeal.RefValue

open Cert.ReferenceIdeal Cert.ReferenceIdeal.Facts₀ Cert.ReferenceIdeal.RefStages Cert.So2Spec
open Idealize.ShloMosaic Idealize.ShloMosaic.ValueIdx
open scoped BigOperators

variable [Cert.ReferenceIdeal.Facts]

/-! ## Order 1 -/

/-- Rows 7..18 read as two blocks of 384: entry k of block n is the coefficient at position
    7 + 6 * n + k / 64, channel k % 64. -/
theorem v14_apply (X : (⟨3, ![50000, 29, 64]⟩ : Shape).Idx → EReal) (e : Fin 50000) (n : Fin 2) (k : Fin 384) :
    v14 X (ix3 e n k) = xm X e.val (7 + 6 * n.val + k.val / 64) (k.val % 64) := by
  have hn := n.isLt
  have hk := k.isLt
  unfold v14
  refine (shapeCast_apply _ _ _
    (ix3 e (⟨6 * n.val + k.val / 64, by omega⟩ : Fin 12) (⟨k.val % 64, by omega⟩ : Fin 64)) ?_).trans ?_
  · rw [Shape.rowMajor_val_three, Shape.rowMajor_val_three]
    show (e.val * 12 + (6 * n.val + k.val / 64)) * 64 + k.val % 64 = (e.val * 2 + n.val) * 384 + k.val
    omega
  unfold v13
  refine (slice3_axis1_apply 7 _ _ e (⟨6 * n.val + k.val / 64, by omega⟩ : Fin 12) (⟨k.val % 64, by omega⟩ : Fin 64)
    (⟨7 + 6 * n.val + k.val / 64, by omega⟩ : Fin 29)
    (by show 7 + 6 * n.val + k.val / 64 = 7 + (6 * n.val + k.val / 64); omega)).trans ?_
  exact v4_apply X e _ _

/-- Both blocks against every row of the weights: dot1. -/
theorem v15_apply (X : (⟨3, ![50000, 29, 64]⟩ : Shape).Idx → EReal) (W1 : (⟨2, ![768, 384]⟩ : Shape).Idx → EReal) (e : Fin 50000) (n : Fin 2) (o : Fin 768) :
    v15 X W1 (ix3 e n o) = dot1 X W1 e.val n.val o.val := by
  unfold v15
  refine (Cert.LibDotRows3.hostdot_rows3 dot_S50000x2x384_S768x384_S50000x2x768_2_1_01_0_n_n rfl rfl
    (fun _ _ => rfl) (fun _ _ => rfl) (fun _ _ => rfl) (fun _ _ => rfl) (fun _ _ => rfl) (v14 X) W1 e n o).trans ?_
  unfold dot1
  exact Finset.sum_congr rfl fun k _ => by rw [v14_apply, at2_eq W1 (ix2 o k) o.val k.val rfl rfl]

/-- The first half of the rows. -/
theorem v16_apply (X : (⟨3, ![50000, 29, 64]⟩ : Shape).Idx → EReal) (W1 : (⟨2, ![768, 384]⟩ : Shape).Idx → EReal) (e : Fin 50000) (n : Fin 2) (q : Fin 384) :
    v16 X W1 (ix3 e n q) = dot1 X W1 e.val n.val q.val := by
  have hq := q.isLt
  unfold v16
  refine (extractStridedSlice_apply _ _ _ _ (ix3 e n (⟨q.val, by omega⟩ : Fin 768)) (fun a => ?_)).trans ?_
  · match a with
    | ⟨0, _⟩ => exact (Nat.zero_add _).symm
    | ⟨1, _⟩ => exact (Nat.zero_add _).symm
    | ⟨2, _⟩ => exact (Nat.zero_add _).symm
  exact v15_apply X W1 e n _

/-- The second half of the rows. -/
theorem v17_apply (X : (⟨3, ![50000, 29, 64]⟩ : Shape).Idx → EReal) (W1 : (⟨2, ![768, 384]⟩ : Shape).Idx → EReal) (e : Fin 50000) (n : Fin 2) (q : Fin 384) :
    v17 X W1 (ix3 e n q) = dot1 X W1 e.val n.val (384 + q.val) := by
  have hq := q.isLt
  unfold v17
  refine (extractStridedSlice_apply _ _ _ _ (ix3 e n (⟨384 + q.val, by omega⟩ : Fin 768)) (fun a => ?_)).trans ?_
  · match a with
    | ⟨0, _⟩ => exact (Nat.zero_add _).symm
    | ⟨1, _⟩ => exact (Nat.zero_add _).symm
    | ⟨2, _⟩ => rfl
  exact v15_apply X W1 e n _

/-- Block 0 of the first half. -/
theorem v18_apply (X : (⟨3, ![50000, 29, 64]⟩ : Shape).Idx → EReal) (W1 : (⟨2, ![768, 384]⟩ : Shape).Idx → EReal) (e : Fin 50000) (q : Fin 384) :
    v18 X W1 (ix3 e (0 : Fin 1) q) = dot1 X W1 e.val 0 q.val := by
  unfold v18
  exact (slice3_axis1_apply 0 _ _ e (0 : Fin 1) q (0 : Fin 2) rfl).trans (v16_apply X W1 e (0 : Fin 2) q)

/-- Block 1 of the second half. -/
theorem v19_apply (X : (⟨3, ![50000, 29, 64]⟩ : Shape).Idx → EReal) (W1 : (⟨2, ![768, 384]⟩ : Shape).Idx → EReal) (e : Fin 50000) (q : Fin 384) :
    v19 X W1 (ix3 e (0 : Fin 1) q) = dot1 X W1 e.val 1 (384 + q.val) := by
  unfold v19
  exact (slice3_axis1_apply 1 _ _ e (0 : Fin 1) q (1 : Fin 2) rfl).trans (v17_apply X W1 e (1 : Fin 2) q)

/-- Block 1 of the first half. -/
theorem v21_apply (X : (⟨3, ![50000, 29, 64]⟩ : Shape).Idx → EReal) (W1 : (⟨2, ![768, 384]⟩ : Shape).Idx → EReal) (e : Fin 50000) (q : Fin 384) :
    v21 X W1 (ix3 e (0 : Fin 1) q) = dot1 X W1 e.val 1 q.val := by
  unfold v21
  exact (slice3_axis1_apply 1 _ _ e (0 : Fin 1) q (1 : Fin 2) rfl).trans (v16_apply X W1 e (1 : Fin 2) q)

/-- Block 0 of the second half. -/
theorem v22_apply (X : (⟨3, ![50000, 29, 64]⟩ : Shape).Idx → EReal) (W1 : (⟨2, ![768, 384]⟩ : Shape).Idx → EReal) (e : Fin 50000) (q : Fin 384) :
    v22 X W1 (ix3 e (0 : Fin 1) q) = dot1 X W1 e.val 0 (384 + q.val) := by
  unfold v22
  exact (slice3_axis1_apply 0 _ _ e (0 : Fin 1) q (0 : Fin 2) rfl).trans (v17_apply X W1 e (0 : Fin 2) q)

/-- The output's real block. -/
theorem v20_apply (X : (⟨3, ![50000, 29, 64]⟩ : Shape).Idx → EReal) (W1 : (⟨2, ![768, 384]⟩ : Shape).Idx → EReal) (e : Fin 50000) (q : Fin 384) :
    v20 X W1 (ix3 e (0 : Fin 1) q) = dot1 X W1 e.val 0 q.val - dot1 X W1 e.val 1 (384 + q.val) := by
  unfold v20
  rw [subf_apply, v18_apply, v19_apply]

/-- The output's imaginary block. -/
theorem v23_apply (X : (⟨3, ![50000, 29, 64]⟩ : Shape).Idx → EReal) (W1 : (⟨2, ![768, 384]⟩ : Shape).Idx → EReal) (e : Fin 50000) (q : Fin 384) :
    v23 X W1 (ix3 e (0 : Fin 1) q) = dot1 X W1 e.val 1 q.val + dot1 X W1 e.val 0 (384 + q.val) := by
  unfold v23
  rw [addf_apply, v21_apply, v22_apply]

/-- Stacked: block 0 is the real block. -/
theorem v24_apply0 (X : (⟨3, ![50000, 29, 64]⟩ : Shape).Idx → EReal) (W1 : (⟨2, ![768, 384]⟩ : Shape).Idx → EReal) (e : Fin 50000) (q : Fin 384) :
    v24 X W1 (ix3 e (0 : Fin 2) q) = v20 X W1 (ix3 e (0 : Fin 1) q) := by
  unfold v24
  refine concatenate_pair_apply_left (t := S50000x2x384) (s₁ := S50000x1x384) (s₂ := S50000x1x384) 1 _ _ _ _ rfl (ix3 e (0 : Fin 1) q) (fun b => ?_)
  match b with
  | ⟨0, _⟩ => rfl
  | ⟨1, _⟩ => rfl
  | ⟨2, _⟩ => rfl

/-- Stacked: block 1 is the imaginary block. -/
theorem v24_apply1 (X : (⟨3, ![50000, 29, 64]⟩ : Shape).Idx → EReal) (W1 : (⟨2, ![768, 384]⟩ : Shape).Idx → EReal) (e : Fin 50000) (q : Fin 384) :
    v24 X W1 (ix3 e (1 : Fin 2) q) = v23 X W1 (ix3 e (0 : Fin 1) q) := by
  unfold v24
  refine concatenate_pair_apply_right (t := S50000x2x384) (s₁ := S50000x1x384) (s₂ := S50000x1x384) 1 _ _ _ _ rfl rfl (ix3 e (0 : Fin 1) q) (fun b hb => ?_) ?_
  · match b with
    | ⟨0, _⟩ => rfl
    | ⟨1, _⟩ => exact absurd rfl hb
    | ⟨2, _⟩ => rfl
  · rfl

/-- Unflattened, a position m of the real block (the first 6 of the 12 positions). -/
theorem v25_re (X : (⟨3, ![50000, 29, 64]⟩ : Shape).Idx → EReal) (W1 : (⟨2, ![768, 384]⟩ : Shape).Idx → EReal) (e : Fin 50000) (a : Fin 12) (c : Fin 64) (m : ℕ) (hm : a.val = m) (hlt : m < 6) :
    v25 X W1 (ix3 e a c)
      = dot1 X W1 e.val 0 (64 * m + c.val) - dot1 X W1 e.val 1 (384 + (64 * m + c.val)) := by
  have hc := c.isLt
  unfold v25
  refine (shapeCast_apply _ _ _ (ix3 e (0 : Fin 2) (⟨64 * m + c.val, by omega⟩ : Fin 384)) ?_).trans ?_
  · rw [Shape.rowMajor_val_three, Shape.rowMajor_val_three]
    show (e.val * 2 + 0) * 384 + (64 * m + c.val) = (e.val * 12 + a.val) * 64 + c.val
    omega
  exact (v24_apply0 X W1 e _).trans (v20_apply X W1 e _)

/-- Unflattened, a position 6 + m of the imaginary block (the last 6 of the 12 positions). -/
theorem v25_im (X : (⟨3, ![50000, 29, 64]⟩ : Shape).Idx → EReal) (W1 : (⟨2, ![768, 384]⟩ : Shape).Idx → EReal) (e : Fin 50000) (a : Fin 12) (c : Fin 64) (m : ℕ) (hm : a.val = 6 + m) :
    v25 X W1 (ix3 e a c)
      = dot1 X W1 e.val 1 (64 * m + c.val) + dot1 X W1 e.val 0 (384 + (64 * m + c.val)) := by
  have ha := a.isLt
  have hc := c.isLt
  unfold v25
  refine (shapeCast_apply _ _ _ (ix3 e (1 : Fin 2) (⟨64 * m + c.val, by omega⟩ : Fin 384)) ?_).trans ?_
  · rw [Shape.rowMajor_val_three, Shape.rowMajor_val_three]
    show (e.val * 2 + 1) * 384 + (64 * m + c.val) = (e.val * 12 + a.val) * 64 + c.val
    omega
  exact (v24_apply1 X W1 e _).trans (v23_apply X W1 e _)

end Cert.ReferenceIdeal.RefValue

end
-- ==== Proof.RefValue2.lean ====
/-
  The value of the reference program: the order-2 piece, read at indices with explicit coordinates (e an edge, n a
  block: 0 real, 1 imaginary, k a position along the contracted axis, o a row of the weights, q a row of one half of
  the weights, a a coefficient position, c a channel). All arithmetic on coordinates is in the natural numbers.

  Rows 19..28 of the m-primary coefficients, read as two blocks of 320 numbers, each block against every one of the
  640 rows of the weights, is dot2; the first 320 rows on the real block minus the last 320 rows on the imaginary
  block is the output's real block, the first 320 rows on the imaginary block plus the last 320 rows on the real
  block its imaginary block; the two are stacked and unflattened to 10 positions of 64 channels.
  No law of extended-real arithmetic is used: the program computes these very sums, term by term.
-/
import proofs.«115152_j70824010711660_2_alg».proof.Proof.RefValue0
import proofs.«115152_j70824010711660_2_alg».proof.Proof.LibDotRows3

noncomputable section

namespace Cert.ReferenceIdeal.RefValue

open Cert.ReferenceIdeal Cert.ReferenceIdeal.Facts₀ Cert.ReferenceIdeal.RefStages Cert.So2Spec
open Idealize.ShloMosaic Idealize.ShloMosaic.ValueIdx
open scoped BigOperators

variable [Cert.ReferenceIdeal.Facts]

/-! ## Order 2 -/

/-- Rows 19..28 read as two blocks of 320: entry k of block n is the coefficient at position
    19 + 5 * n + k / 64, channel k % 64. -/
theorem v27_apply (X : (⟨3, ![50000, 29, 64]⟩ : Shape).Idx → EReal) (e : Fin 50000) (n : Fin 2) (k : Fin 320) :
    v27 X (ix3 e n k) = xm X e.val (19 + 5 * n.val + k.val / 64) (k.val % 64) := by
  have hn := n.isLt
  have hk := k.isLt
  unfold v27
  refine (shapeCast_apply _ _ _
    (ix3 e (⟨5 * n.val + k.val / 64, by omega⟩ : Fin 10) (⟨k.val % 64, by omega⟩ : Fin 64)) ?_).trans ?_
  · rw [Shape.rowMajor_val_three, Shape.rowMajor_val_three]
    show (e.val * 10 + (5 * n.val + k.val / 64)) * 64 + k.val % 64 = (e.val * 2 + n.val) * 320 + k.val
    omega
  unfold v26
  refine (slice3_axis1_apply 19 _ _ e (⟨5 * n.val + k.val / 64, by omega⟩ : Fin 10) (⟨k.val % 64, by omega⟩ : Fin 64)
    (⟨19 + 5 * n.val + k.val / 64, by omega⟩ : Fin 29)
    (by show 19 + 5 * n.val + k.val / 64 = 19 + (5 * n.val + k.val / 64); omega)).trans ?_
  exact v4_apply X e _ _

/-- Both blocks against every row of the weights: dot2. -/
theorem v28_apply (X : (⟨3, ![50000, 29, 64]⟩ : Shape).Idx → EReal) (W2 : (⟨2, ![640, 320]⟩ : Shape).Idx → EReal) (e : Fin 50000) (n : Fin 2) (o : Fin 640) :
    v28 X W2 (ix3 e n o) = dot2 X W2 e.val n.val o.val := by
  unfold v28
  refine (Cert.LibDotRows3.hostdot_rows3 dot_S50000x2x320_S640x320_S50000x2x640_2_1_01_0_n_n rfl rfl
    (fun _ _ => rfl) (fun _ _ => rfl) (fun _ _ => rfl) (fun _ _ => rfl) (fun _ _ => rfl) (v27 X) W2 e n o).trans ?_
  unfold dot2
  exact Finset.sum_congr rfl fun k _ => by rw [v27_apply, at2_eq W2 (ix2 o k) o.val k.val rfl rfl]

/-- The first half of the rows. -/
theorem v29_apply (X : (⟨3, ![50000, 29, 64]⟩ : Shape).Idx → EReal) (W2 : (⟨2, ![640, 320]⟩ : Shape).Idx → EReal) (e : Fin 50000) (n : Fin 2) (q : Fin 320) :
    v29 X W2 (ix3 e n q) = dot2 X W2 e.val n.val q.val := by
  have hq := q.isLt
  unfold v29
  refine (extractStridedSlice_apply _ _ _ _ (ix3 e n (⟨q.val, by omega⟩ : Fin 640)) (fun a => ?_)).trans ?_
  · match a with
    | ⟨0, _⟩ => exact (Nat.zero_add _).symm
    | ⟨1, _⟩ => exact (Nat.zero_add _).symm
    | ⟨2, _⟩ => exact (Nat.zero_add _).symm
  exact v28_apply X W2 e n _

/-- The second half of the rows. -/
theorem v30_apply (X : (⟨3, ![50000, 29, 64]⟩ : Shape).Idx → EReal) (W2 : (⟨2, ![640, 320]⟩ : Shape).Idx → EReal) (e : Fin 50000) (n : Fin 2) (q : Fin 320) :
    v30 X W2 (ix3 e n q) = dot2 X W2 e.val n.val (320 + q.val) := by
  have hq := q.isLt
  unfold v30
  refine (extractStridedSlice_apply _ _ _ _ (ix3 e n (⟨320 + q.val, by omega⟩ : Fin 640)) (fun a => ?_)).trans ?_
  · match a with
    | ⟨0, _⟩ => exact (Nat.zero_add _).symm
    | ⟨1, _⟩ => exact (Nat.zero_add _).symm
    | ⟨2, _⟩ => rfl
  exact v28_apply X W2 e n _

/-- Block 0 of the first half. -/
theorem v31_apply (X : (⟨3, ![50000, 29, 64]⟩ : Shape).Idx → EReal) (W2 : (⟨2, ![640, 320]⟩ : Shape).Idx → EReal) (e : Fin 50000) (q : Fin 320) :
    v31 X W2 (ix3 e (0 : Fin 1) q) = dot2 X W2 e.val 0 q.val := by
  unfold v31
  exact (slice3_axis1_apply 0 _ _ e (0 : Fin 1) q (0 : Fin 2) rfl).trans (v29_apply X W2 e (0 : Fin 2) q)

/-- Block 1 of the second half. -/
theorem v32_apply (X : (⟨3, ![50000, 29, 64]⟩ : Shape).Idx → EReal) (W2 : (⟨2, ![640, 320]⟩ : Shape).Idx → EReal) (e : Fin 50000) (q : Fin 320) :
    v32 X W2 (ix3 e (0 : Fin 1) q) = dot2 X W2 e.val 1 (320 + q.val) := by
  unfold v32
  exact (slice3_axis1_apply 1 _ _ e (0 : Fin 1) q (1 : Fin 2) rfl).trans (v30_apply X W2 e (1 : Fin 2) q)

/-- Block 1 of the first half. -/
theorem v34_apply (X : (⟨3, ![50000, 29, 64]⟩ : Shape).Idx → EReal) (W2 : (⟨2, ![640, 320]⟩ : Shape).Idx → EReal) (e : Fin 50000) (q : Fin 320) :
    v34 X W2 (ix3 e (0 : Fin 1) q) = dot2 X W2 e.val 1 q.val := by
  unfold v34
  exact (slice3_axis1_apply 1 _ _ e (0 : Fin 1) q (1 : Fin 2) rfl).trans (v29_apply X W2 e (1 : Fin 2) q)

/-- Block 0 of the second half. -/
theorem v35_apply (X : (⟨3, ![50000, 29, 64]⟩ : Shape).Idx → EReal) (W2 : (⟨2, ![640, 320]⟩ : Shape).Idx → EReal) (e : Fin 50000) (q : Fin 320) :
    v35 X W2 (ix3 e (0 : Fin 1) q) = dot2 X W2 e.val 0 (320 + q.val) := by
  unfold v35
  exact (slice3_axis1_apply 0 _ _ e (0 : Fin 1) q (0 : Fin 2) rfl).trans (v30_apply X W2 e (0 : Fin 2) q)

/-- The output's real block. -/
theorem v33_apply (X : (⟨3, ![50000, 29, 64]⟩ : Shape).Idx → EReal) (W2 : (⟨2, ![640, 320]⟩ : Shape).Idx → EReal) (e : Fin 50000) (q : Fin 320) :
    v33 X W2 (ix3 e (0 : Fin 1) q) = dot2 X W2 e.val 0 q.val - dot2 X W2 e.val 1 (320 + q.val) := by
  unfold v33
  rw [subf_apply, v31_apply, v32_apply]

/-- The output's imaginary block. -/
theorem v36_apply (X : (⟨3, ![50000, 29, 64]⟩ : Shape).Idx → EReal) (W2 : (⟨2, ![640, 320]⟩ : Shape).Idx → EReal) (e : Fin 50000) (q : Fin 320) :
    v36 X W2 (ix3 e (0 : Fin 1) q) = dot2 X W2 e.val 1 q.val + dot2 X W2 e.val 0 (320 + q.val) := by
  unfold v36
  rw [addf_apply, v34_apply, v35_apply]

/-- Stacked: block 0 is the real block. -/
theorem v37_apply0 (X : (⟨3, ![50000, 29, 64]⟩ : Shape).Idx → EReal) (W2 : (⟨2, ![640, 320]⟩ : Shape).Idx → EReal) (e : Fin 50000) (q : Fin 320) :
    v37 X W2 (ix3 e (0 : Fin 2) q) = v33 X W2 (ix3 e (0 : Fin 1) q) := by
  unfold v37
  refine concatenate_pair_apply_left (t := S50000x2x320) (s₁ := S50000x1x320) (s₂ := S50000x1x320) 1 _ _ _ _ rfl (ix3 e (0 : Fin 1) q) (fun b => ?_)
  match b with
  | ⟨0, _⟩ => rfl
  | ⟨1, _⟩ => rfl
  | ⟨2, _⟩ => rfl

/-- Stacked: block 1 is the imaginary block. -/
theorem v37_apply1 (X : (⟨3, ![50000, 29, 64]⟩ : Shape).Idx → EReal) (W2 : (⟨2, ![640, 320]⟩ : Shape).Idx → EReal) (e : Fin 50000) (q : Fin 320) :
    v37 X W2 (ix3 e (1 : Fin 2) q) = v36 X W2 (ix3 e (0 : Fin 1) q) := by
  unfold v37
  refine concatenate_pair_apply_right (t := S50000x2x320) (s₁ := S50000x1x320) (s₂ := S50000x1x320) 1 _ _ _ _ rfl rfl (ix3 e (0 : Fin 1) q) (fun b hb => ?_) ?_
  · match b with
    | ⟨0, _⟩ => rfl
    | ⟨1, _⟩ => exact absurd rfl hb
    | ⟨2, _⟩ => rfl
  · rfl

/-- Unflattened, a position m of the real block (the first 5 of the 10 positions). -/
theorem v38_re (X : (⟨3, ![50000, 29, 64]⟩ : Shape).Idx → EReal) (W2 : (⟨2, ![640, 320]⟩ : Shape).Idx → EReal) (e : Fin 50000) (a : Fin 10) (c : Fin 64) (m : ℕ) (hm : a.val = m) (hlt : m < 5) :
    v38 X W2 (ix3 e a c)
      = dot2 X W2 e.val 0 (64 * m + c.val) - dot2 X W2 e.val 1 (320 + (64 * m + c.val)) := by
  have hc := c.isLt
  unfold v38
  refine (shapeCast_apply _ _ _ (ix3 e (0 : Fin 2) (⟨64 * m + c.val, by omega⟩ : Fin 320)) ?_).trans ?_
  · rw [Shape.rowMajor_val_three, Shape.rowMajor_val_three]
    show (e.val * 2 + 0) * 320 + (64 * m + c.val) = (e.val * 10 + a.val) * 64 + c.val
    omega
  exact (v37_apply0 X W2 e _).trans (v33_apply X W2 e _)

/-- Unflattened, a position 5 + m of the imaginary block (the last 5 of the 10 positions). -/
theorem v38_im (X : (⟨3, ![50000, 29, 64]⟩ : Shape).Idx → EReal) (W2 : (⟨2, ![640, 320]⟩ : Shape).Idx → EReal) (e : Fin 50000) (a : Fin 10) (c : Fin 64) (m : ℕ) (hm : a.val = 5 + m) :
    v38 X W2 (ix3 e a c)
      = dot2 X W2 e.val 1 (64 * m + c.val) + dot2 X W2 e.val 0 (320 + (64 * m + c.val)) := by
  have ha := a.isLt
  have hc := c.isLt
  unfold v38
  refine (shapeCast_apply _ _ _ (ix3 e (1 : Fin 2) (⟨64 * m + c.val, by omega⟩ : Fin 320)) ?_).trans ?_
  · rw [Shape.rowMajor_val_three, Shape.rowMajor_val_three]
    show (e.val * 2 + 1) * 320 + (64 * m + c.val) = (e.val * 10 + a.val) * 64 + c.val
    omega
  exact (v37_apply1 X W2 e _).trans (v36_apply X W2 e _)

end Cert.ReferenceIdeal.RefValue

end
-- ==== Proof.RefValue.lean ====
/-
  The value of the reference program: its result is the specification G.

  The order-0, order-1 and order-2 pieces (7, 12 and 10 positions of 64 channels) laid end to end along the position
  axis are outM, the output in m-primary order: positions 0..6 the order-0 outputs, 7..12 and 13..18 the real and
  imaginary blocks of order 1, 19..23 and 24..28 those of order 2. Picking rows by the second table puts at
  l-primary position p the m-primary output at fromM p, which is G. Each value is read at an index with explicit
  coordinates (e an edge, a or p a coefficient position, c a channel); all arithmetic on coordinates is in the
  natural numbers, and no law of extended-real arithmetic is used.
-/
import proofs.«115152_j70824010711660_2_alg».proof.Proof.RefValue1
import proofs.«115152_j70824010711660_2_alg».proof.Proof.RefValue2

noncomputable section

namespace Cert.ReferenceIdeal.RefValue

open Cert.ReferenceIdeal Cert.ReferenceIdeal.Facts₀ Cert.ReferenceIdeal.RefStages Cert.So2Spec
open Idealize.ShloMosaic Idealize.ShloMosaic.ValueIdx
open scoped BigOperators

variable [Cert.ReferenceIdeal.Facts]

/-! ## The output in m-primary order, and the result -/

/-- The three pieces laid end to end along the position axis are outM. -/
theorem v39_apply (X : (⟨3, ![50000, 29, 64]⟩ : Shape).Idx → EReal) (W0 : (⟨2, ![448, 448]⟩ : Shape).Idx → EReal) (b0 : (⟨1, ![448]⟩ : Shape).Idx → EReal) (W1 : (⟨2, ![768, 384]⟩ : Shape).Idx → EReal) (W2 : (⟨2, ![640, 320]⟩ : Shape).Idx → EReal)
    (e : Fin 50000) (a : Fin 29) (c : Fin 64) :
    v39 X W0 b0 W1 W2 (ix3 e a c) = outM X W0 b0 W1 W2 e.val a.val c.val := by
  have ha := a.isLt
  unfold v39 outM
  by_cases h7 : a.val < 7
  · rw [if_pos h7]
    refine (concatenate_apply_piece (t := S50000x29x64) 1 _ _ _ 0 (by show (0 : ℕ) < 3; omega) S50000x7x64 (v12 X W0 b0) rfl rfl 0 rfl
      (ix3 e (⟨a.val, by omega⟩ : Fin 7) c) (fun b hb => by
        match b with
        | ⟨0, _⟩ => rfl
        | ⟨1, _⟩ => exact absurd rfl hb
        | ⟨2, _⟩ => rfl) ?_).trans ?_
    · exact Nat.zero_add _
    exact v12_apply X W0 b0 e _ c
  rw [if_neg h7]
  by_cases h13 : a.val < 13
  · rw [if_pos h13]
    refine (concatenate_apply_piece (t := S50000x29x64) 1 _ _ _ 1 (by show (1 : ℕ) < 3; omega) S50000x12x64 (v25 X W1) rfl rfl 7 rfl
      (ix3 e (⟨a.val - 7, by omega⟩ : Fin 12) c) (fun b hb => by
        match b with
        | ⟨0, _⟩ => rfl
        | ⟨1, _⟩ => exact absurd rfl hb
        | ⟨2, _⟩ => rfl) ?_).trans ?_
    · show 7 + (a.val - 7) = a.val; omega
    exact v25_re X W1 e _ c (a.val - 7) rfl (by omega)
  rw [if_neg h13]
  by_cases h19 : a.val < 19
  · rw [if_pos h19]
    refine (concatenate_apply_piece (t := S50000x29x64) 1 _ _ _ 1 (by show (1 : ℕ) < 3; omega) S50000x12x64 (v25 X W1) rfl rfl 7 rfl
      (ix3 e (⟨a.val - 7, by omega⟩ : Fin 12) c) (fun b hb => by
        match b with
        | ⟨0, _⟩ => rfl
        | ⟨1, _⟩ => exact absurd rfl hb
        | ⟨2, _⟩ => rfl) ?_).trans ?_
    · show 7 + (a.val - 7) = a.val; omega
    exact v25_im X W1 e _ c (a.val - 13) (by show a.val - 7 = 6 + (a.val - 13); omega)
  rw [if_neg h19]
  by_cases h24 : a.val < 24
  · rw [if_pos h24]
    refine (concatenate_apply_piece (t := S50000x29x64) 1 _ _ _ 2 (by show (2 : ℕ) < 3; omega) S50000x10x64 (v38 X W2) rfl rfl 19 rfl
      (ix3 e (⟨a.val - 19, by omega⟩ : Fin 10) c) (fun b hb => by
        match b with
        | ⟨0, _⟩ => rfl
        | ⟨1, _⟩ => exact absurd rfl hb
        | ⟨2, _⟩ => rfl) ?_).trans ?_
    · show 19 + (a.val - 19) = a.val; omega
    exact v38_re X W2 e _ c (a.val - 19) rfl (by omega)
  rw [if_neg h24]
  refine (concatenate_apply_piece (t := S50000x29x64) 1 _ _ _ 2 (by show (2 : ℕ) < 3; omega) S50000x10x64 (v38 X W2) rfl rfl 19 rfl
    (ix3 e (⟨a.val - 19, by omega⟩ : Fin 10) c) (fun b hb => by
      match b with
      | ⟨0, _⟩ => rfl
      | ⟨1, _⟩ => exact absurd rfl hb
      | ⟨2, _⟩ => rfl) ?_).trans ?_
  · show 19 + (a.val - 19) = a.val; omega
  exact v38_im X W2 e _ c (a.val - 24) (by show a.val - 19 = 5 + (a.val - 24); omega)

/-- Picking rows by the second table: l-primary position p holds the m-primary output at fromM p. -/
theorem v44_apply (X : (⟨3, ![50000, 29, 64]⟩ : Shape).Idx → EReal) (W0 : (⟨2, ![448, 448]⟩ : Shape).Idx → EReal) (b0 : (⟨1, ![448]⟩ : Shape).Idx → EReal) (W1 : (⟨2, ![768, 384]⟩ : Shape).Idx → EReal) (W2 : (⟨2, ![640, 320]⟩ : Shape).Idx → EReal)
    (e : Fin 50000) (p : Fin 29) (c : Fin 64) :
    v44 X W0 b0 W1 W2 (ix3 e p c) = outM X W0 b0 W1 W2 e.val (fromM p.val) c.val := by
  unfold v44
  refine (Cert.LibRowGather.gather_rows_apply gather_S50000x29x64_S29x1_S50000x29x64_02_1_n_n_1_1_50000164_wf (v39 X W0 b0 W1 W2) tblFrom e p c
    ⟨fromM p.val, fromM_lt p⟩ (tblFrom_toNat p)).trans ?_
  exact v39_apply X W0 b0 W1 W2 e _ c

/-- THE REFERENCE'S VALUE: what the program returns is the specification. -/
theorem result_eq (X : (⟨3, ![50000, 29, 64]⟩ : Shape).Idx → EReal)
    (W0 : (⟨2, ![448, 448]⟩ : Shape).Idx → EReal) (b0 : (⟨1, ![448]⟩ : Shape).Idx → EReal)
    (W1 : (⟨2, ![768, 384]⟩ : Shape).Idx → EReal) (W2 : (⟨2, ![640, 320]⟩ : Shape).Idx → EReal) :
    Cert.ReferenceIdeal.RefStages.result X W0 b0 W1 W2 = Cert.So2Spec.G X W0 b0 W1 W2 := by
  funext i
  obtain ⟨e, p, c, rfl⟩ : ∃ (e : Fin 50000) (p : Fin 29) (c : Fin 64), i = ix3 e p c := ⟨i 0, i 1, i 2, eq_ix3 i⟩
  exact v44_apply X W0 b0 W1 W2 e p c

end Cert.ReferenceIdeal.RefValue

end
-- ==== Proof.lean ====
/-
  An SO(2) convolution over 50000 edges, each carrying 29 spherical-harmonic coefficients of 64 channels: the
  coefficients are permuted to m-primary order, the order-0 group goes through a linear map with bias, the real and
  imaginary groups of orders 1 and 2 through one weight matrix each with the complex-product combination
  real' = r(real) − i(imag), imag' = r(imag) + i(real), and the result is permuted back.

  The kernel works on the lane-dense matrix [50000, 1856] in blocks of 400 edges: it gathers 64-wide column groups,
  stacks the real block on the imaginary block to multiply once per order, splits the product again, and lays the 29
  output groups side by side; the host reshapes to and from the matrix. The reference gathers rows of the rank-3
  array, multiplies per block with a batched contraction, concatenates and gathers back.

  On extended reals both compute, entry by entry, the same sums of the same products (Proof/Spec.lean, the function
  G): every step on either side is a re-layout, a sum over the contraction index in the same order of factors, one
  subtraction or one addition with the same operands. No finiteness of the inputs is needed, and the kernel's
  roundings to bf16 are the identity on extended reals, so nothing is owed for the idealization.
    * the kernel's value: Proof/KernCols.lean (inputs of the body), KernOut.lean (its result), KernBody.lean (the body
      is the specification on a block), KernBlocks.lean (blocks tile the matrix), KernTail.lean, KernRun.lean;
    * the reference's value: Proof/RefStages.lean (its operations as stages), RefRun.lean (its run), RefValue.lean
      (the stages read at an index).
-/
import proofs.«115152_j70824010711660_2_alg».proof.Defs
import proofs.«115152_j70824010711660_2_alg».proof.Proof.Gen.Kernel
import proofs.«115152_j70824010711660_2_alg».proof.Proof.Gen.Kernel.Frame
import proofs.«115152_j70824010711660_2_alg».proof.Proof.Gen.KernelIdeal
import proofs.«115152_j70824010711660_2_alg».proof.Proof.Gen.KernelIdeal.Frame
import proofs.«115152_j70824010711660_2_alg».proof.Proof.Gen.ReferenceIdeal
import proofs.«115152_j70824010711660_2_alg».proof.Proof.Gen.Pre_finite_inputs
import proofs.«115152_j70824010711660_2_alg».proof.Proof.KernRun
import proofs.«115152_j70824010711660_2_alg».proof.Proof.RefRun
import proofs.«115152_j70824010711660_2_alg».proof.Proof.RefValue
import Idealize.ShloMosaic.Adequacy
import Idealize.ShloMosaic.Init

noncomputable section

namespace Cert.Proof

open Idealize.ShloMosaic Idealize.SL.Sem

/-- Both idealized programs end with the specification G of the (agreeing) argument arrays. -/
theorem algebraic : Cert.algebraic_KernelIdeal_ReferenceIdeal := by
  intro m ρ m' ρ' _ hagree
  refine ⟨_, Cert.KernelIdeal.So2Run.run m ρ, ?_⟩
  refine (θ_run Cert.ReferenceIdeal.defs _ _).mono (fun _ h c => ⟨(h c).1.trans ?_, (h c).2⟩)
    (Cert.ReferenceIdeal.RefRun.run m' ρ')
  rw [Cert.ReferenceIdeal.RefValue.result_eq, (hagree c).1, (hagree c).2.2.1, (hagree c).2.2.2.1, (hagree c).2.2.2.2.1,
    (hagree c).2.2.2.2.2]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.RefRun.run m ρ),
  trivial,
  algebraic⟩

end Cert.Proof

end
